-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  main_v103

def fn_part5 {F : FTy → Type} [FloatOps F] (main_arg19 : FVec F S128 .f32) (main_arg20 : FVec F S128 .f32) (main_arg21 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_v98 main_v101 main_c_39

def fn_part4 {F : FTy → Type} [FloatOps F] (main_arg15 : FVec F S64 .f32) (main_arg16 : FVec F S64 .f32) (main_arg17 : FVec F S64 .f32) (main_arg18 : FVec F S128 .f32) (main_arg19 : FVec F S128 .f32) (main_arg20 : FVec F S128 .f32) (main_arg21 : FVec F S128 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S32 .f32) (main_arg13 : FVec F S32 .f32) (main_arg14 : FVec F S64 .f32) (main_arg15 : FVec F S64 .f32) (main_arg16 : FVec F S64 .f32) (main_arg17 : FVec F S64 .f32) (main_arg18 : FVec F S128 .f32) (main_arg19 : FVec F S128 .f32) (main_arg20 : FVec F S128 .f32) (main_arg21 : FVec F S128 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_arg19 main_arg20 main_arg21 main_v63 main_v67

def fn_part2 {F : FTy → Type} [FloatOps F] (main_arg8 : FVec F S128x1 .f32) (main_arg9 : FVec F S1 .f32) (main_arg10 : FVec F S32 .f32) (main_arg11 : FVec F S32 .f32) (main_arg12 : FVec F S32 .f32) (main_arg13 : FVec F S32 .f32) (main_arg14 : FVec F S64 .f32) (main_arg15 : FVec F S64 .f32) (main_arg16 : FVec F S64 .f32) (main_arg17 : FVec F S64 .f32) (main_arg18 : FVec F S128 .f32) (main_arg19 : FVec F S128 .f32) (main_arg20 : FVec F S128 .f32) (main_arg21 : FVec F S128 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S64 .f32) (main_arg6 : FVec F S64x128 .f32) (main_arg7 : FVec F S128 .f32) (main_arg8 : FVec F S128x1 .f32) (main_arg9 : FVec F S1 .f32) (main_arg10 : FVec F S32 .f32) (main_arg11 : FVec F S32 .f32) (main_arg12 : FVec F S32 .f32) (main_arg13 : FVec F S32 .f32) (main_arg14 : FVec F S64 .f32) (main_arg15 : FVec F S64 .f32) (main_arg16 : FVec F S64 .f32) (main_arg17 : FVec F S64 .f32) (main_arg18 : FVec F S128 .f32) (main_arg19 : FVec F S128 .f32) (main_arg20 : FVec F S128 .f32) (main_arg21 : FVec F S128 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S100000x64 .f32) (main_arg1 : IVec S2x1600000 32) (main_arg2 : FVec F S64x32 .f32) (main_arg3 : FVec F S32 .f32) (main_arg4 : FVec F S32x64 .f32) (main_arg5 : FVec F S64 .f32) (main_arg6 : FVec F S64x128 .f32) (main_arg7 : FVec F S128 .f32) (main_arg8 : FVec F S128x1 .f32) (main_arg9 : FVec F S1 .f32) (main_arg10 : FVec F S32 .f32) (main_arg11 : FVec F S32 .f32) (main_arg12 : FVec F S32 .f32) (main_arg13 : FVec F S32 .f32) (main_arg14 : FVec F S64 .f32) (main_arg15 : FVec F S64 .f32) (main_arg16 : FVec F S64 .f32) (main_arg17 : FVec F S64 .f32) (main_arg18 : FVec F S128 .f32) (main_arg19 : FVec F S128 .f32) (main_arg20 : FVec F S128 .f32) (main_arg21 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x32 : Shape := ⟨2, ![1, 32]⟩
abbrev S1x64 : Shape := ⟨2, ![1, 64]⟩
abbrev S1x128 : Shape := ⟨2, ![1, 128]⟩
abbrev S1x1 : Shape := ⟨2, ![1, 1]⟩
abbrev S100000x32 : Shape := ⟨2, ![100000, 32]⟩
abbrev S10000x64 : Shape := ⟨2, ![10000, 64]⟩
abbrev S10000x32 : Shape := ⟨2, ![10000, 32]⟩
abbrev S1700000x32 : Shape := ⟨2, ![1700000, 32]⟩
abbrev S1700000x64 : Shape := ⟨2, ![1700000, 64]⟩
abbrev S100000x128 : Shape := ⟨2, ![100000, 128]⟩
abbrev S10000x128 : Shape := ⟨2, ![10000, 128]⟩
abbrev S1700000x128 : Shape := ⟨2, ![1700000, 128]⟩
abbrev S100000x1 : Shape := ⟨2, ![100000, 1]⟩
abbrev S10000x1 : Shape := ⟨2, ![10000, 1]⟩

abbrev nBuf : Space → Nat
  | .hbm => 146
  | .vmem => 52
  | .smem => 0
  | _ => 0

abbrev hbmTy0_0 (i : Nat) : BufTy := match i % 128 with
  | 0 => ⟨S100000x64, .f32⟩
  | 1 => ⟨S2x1600000, .i32⟩
  | 2 => ⟨S64x32, .f32⟩
  | 3 => ⟨S32, .f32⟩
  | 4 => ⟨S32x64, .f32⟩
  | 5 => ⟨S64, .f32⟩
  | 6 => ⟨S64x128, .f32⟩
  | 7 => ⟨S128, .f32⟩
  | 8 => ⟨S128x1, .f32⟩
  | 9 => ⟨S1, .f32⟩
  | 10 => ⟨S32, .f32⟩
  | 11 => ⟨S32, .f32⟩
  | 12 => ⟨S32, .f32⟩
  | 13 => ⟨S32, .f32⟩
  | 14 => ⟨S64, .f32⟩
  | 15 => ⟨S64, .f32⟩
  | 16 => ⟨S64, .f32⟩
  | 17 => ⟨S64, .f32⟩
  | 18 => ⟨S128, .f32⟩
  | 19 => ⟨S128, .f32⟩
  | 20 => ⟨S128, .f32⟩
  | 21 => ⟨S128, .f32⟩
  | 22 => ⟨S100000, .i32⟩
  | 23 => ⟨S1x1600000, .i32⟩
  | 24 => ⟨S1600000, .i32⟩
  | 25 => ⟨S1700000, .i32⟩
  | 26 => ⟨S1x1600000, .i32⟩
  | 27 => ⟨S1600000, .i32⟩
  | 28 => ⟨S1700000, .i32⟩
  | 29 => ⟨S_, .f32⟩
  | 30 => ⟨S1700000, .f32⟩
  | 31 => ⟨S_, .f32⟩
  | 32 => ⟨S100000, .f32⟩
  | 33 => ⟨S1700000x1, .i32⟩
  | 34 => ⟨S100000, .f32⟩
  | 35 => ⟨S_, .f32⟩
  | 36 => ⟨S100000, .f32⟩
  | 37 => ⟨S100000, .i1⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000, .f32⟩
  | 61 => ⟨S1700000, .f32⟩
  | 62 => ⟨S1700000x1, .f32⟩
  | 63 => ⟨S1x32, .f32⟩
  | 64 => ⟨S1x64, .f32⟩
  | 65 => ⟨S1x128, .f32⟩
  | 66 => ⟨S1x1, .f32⟩
  | 67 => ⟨S1x32, .f32⟩
  | 68 => ⟨S1x32, .f32⟩
  | 69 => ⟨S1x32, .f32⟩
  | 70 => ⟨S1x32, .f32⟩
  | 71 => ⟨S1x64, .f32⟩
  | 72 => ⟨S1x64, .f32⟩
  | 73 => ⟨S1x64, .f32⟩
  | 74 => ⟨S1x64, .f32⟩
  | 75 => ⟨S1x128, .f32⟩
  | 76 => ⟨S1x128, .f32⟩
  | 77 => ⟨S1x128, .f32⟩
  | 78 => ⟨S1x128, .f32⟩
  | 79 => ⟨S100000x32, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000x32, .f32⟩
  | 89 => ⟨S1700000x32, .f32⟩
  | 90 => ⟨S1700000x32, .f32⟩
  | 91 => ⟨S_, .f32⟩
  | 92 => ⟨S100000x32, .f32⟩
  | 93 => ⟨S1700000x1, .i32⟩
  | 94 => ⟨S100000x32, .f32⟩
  | 95 => ⟨S100000x32, .f32⟩
  | 96 => ⟨S100000x64, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x64, .f32⟩
  | 106 => ⟨S1700000x64, .f32⟩
  | 107 => ⟨S1700000x64, .f32⟩
  | 108 => ⟨S_, .f32⟩
  | 109 => ⟨S100000x64, .f32⟩
  | 110 => ⟨S1700000x1, .i32⟩
  | 111 => ⟨S100000x64, .f32⟩
  | 112 => ⟨S100000x64, .f32⟩
  | 113 => ⟨S100000x128, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000x128, .f32⟩
  | 123 => ⟨S1700000x128, .f32⟩
  | 124 => ⟨S1700000x128, .f32⟩
  | 125 => ⟨S_, .f32⟩
  | 126 => ⟨S100000x128, .f32⟩
  | 127 => ⟨S1700000x1, .i32⟩
  | _ => ⟨S100000x64, .f32⟩

abbrev hbmTy0_1 (i : Nat) : BufTy := match i % 128 with
  | 0 => ⟨S100000x128, .f32⟩
  | 1 => ⟨S100000x128, .f32⟩
  | 2 => ⟨S100000x1, .f32⟩
  | 3 => ⟨S_, .i32⟩
  | 4 => ⟨S1700000, .i32⟩
  | 5 => ⟨S1700000, .i1⟩
  | 6 => ⟨S_, .i32⟩
  | 7 => ⟨S1700000, .i32⟩
  | 8 => ⟨S1700000, .i32⟩
  | 9 => ⟨S1700000, .i32⟩
  | 10 => ⟨S1700000x1, .i32⟩
  | 11 => ⟨S1700000x1, .f32⟩
  | 12 => ⟨S1700000x1, .f32⟩
  | 13 => ⟨S_, .f32⟩
  | 14 => ⟨S100000x1, .f32⟩
  | 15 => ⟨S1700000x1, .i32⟩
  | 16 => ⟨S100000x1, .f32⟩
  | 17 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S1x32, .f32⟩
  | .local _ .vmem, ⟨9, _⟩ => ⟨S1x32, .f32⟩
  | .local _ .vmem, ⟨10, _⟩ => ⟨S1x32, .f32⟩
  | .local _ .vmem, ⟨11, _⟩ => ⟨S1x32, .f32⟩
  | .local _ .vmem, ⟨12, _⟩ => ⟨S10000x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S32x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S10000x128, .f32⟩
  | .local _ .vmem, ⟨41, _⟩ => ⟨S10000x128, .f32⟩
  | .local _ .vmem, ⟨42, _⟩ => ⟨S10000x128, .f32⟩
  | .local _ .vmem, ⟨43, _⟩ => ⟨S10000x128, .f32⟩
  | .local _ .vmem, ⟨44, _⟩ => ⟨S128x1, .f32⟩
  | .local _ .vmem, ⟨45, _⟩ => ⟨S10000x1, .f32⟩
  | .local _ .vmem, ⟨46, _⟩ => ⟨S10000x1, .f32⟩
  | .local _ .vmem, ⟨47, _⟩ => ⟨S10000x1, .f32⟩
  | .local _ .vmem, ⟨48, _⟩ => ⟨S10000x1, .f32⟩
  | .local _ .vmem, ⟨49, _⟩ => ⟨S1x1, .f32⟩
  | .local _ .vmem, ⟨50, _⟩ => ⟨S10000x1, .f32⟩
  | .local _ .vmem, ⟨51, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_1 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_v14 : Ref sig .tc := ⟨.hbm, 42, rfl⟩
abbrev main_c : Ref sig .tc := ⟨.hbm, 43, rfl⟩
abbrev main_v15 : Ref sig .tc := ⟨.hbm, 44, rfl⟩
abbrev main_v16 : Ref sig .tc := ⟨.hbm, 45, rfl⟩
abbrev main_c_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_4 : Ref sig .tc := ⟨.hbm, 52, rfl⟩
abbrev main_v22 : Ref sig .tc := ⟨.hbm, 53, rfl⟩
abbrev main_v23 : Ref sig .tc := ⟨.hbm, 54, rfl⟩
abbrev main_c_5 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_6 : Ref sig .tc := ⟨.hbm, 80, rfl⟩
abbrev main_v48 : Ref sig .tc := ⟨.hbm, 81, rfl⟩
abbrev main_v49 : Ref sig .tc := ⟨.hbm, 82, rfl⟩
abbrev main_c_7 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_8 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_c_9 : Ref sig .tc := ⟨.hbm, 97, rfl⟩
abbrev main_v62 : Ref sig .tc := ⟨.hbm, 98, rfl⟩
abbrev main_v63 : Ref sig .tc := ⟨.hbm, 99, rfl⟩
abbrev main_c_10 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_11 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_c_12 : Ref sig .tc := ⟨.hbm, 114, rfl⟩
abbrev main_v76 : Ref sig .tc := ⟨.hbm, 115, rfl⟩
abbrev main_v77 : Ref sig .tc := ⟨.hbm, 116, rfl⟩
abbrev main_c_13 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_14 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_c_15 : Ref sig .tc := ⟨.hbm, 131, rfl⟩
abbrev main_v90 : Ref sig .tc := ⟨.hbm, 132, rfl⟩
abbrev main_v91 : Ref sig .tc := ⟨.hbm, 133, rfl⟩
abbrev main_c_16 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_17 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg2_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem2_0 : DmaSem sig := 50
abbrev cc7_sem2_1 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S32_S1x32 : S32.ShapeCasts S1x32
  shapeCasts_S64_S1x64 : S64.ShapeCasts S1x64
  shapeCasts_S128_S1x128 : S128.ShapeCasts S1x128
  shapeCasts_S1_S1x1 : S1.ShapeCasts S1x1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x64_S32x64_0_0 : ∀ a, (![0, 0] : Fin 2 → Nat) a + S32x64.size a ≤ S32x64.size a
  h_S32x64 : 0 < S32x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x128_S64x128_0_0 : ∀ a, (![0, 0] : Fin 2 → Nat) a + S64x128.size a ≤ S64x128.size a
  h_S64x128 : 0 < S64x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x1_S128x1_0_0 : ∀ a, (![0, 0] : Fin 2 → Nat) a + S128x1.size a ≤ S128x1.size a
  h_S128x1 : 0 < S128x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x64_S10000x64_1_0_0_1_n_n_wf : DotDims.WF S10000x32 S32x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x128_S10000x128_1_0_0_1_n_n_wf : DotDims.WF S10000x64 S64x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x1_S10000x1_1_0_0_1_n_n_wf : DotDims.WF S10000x128 S128x1 S10000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x32.size a ≤ S100000x32.size a
  hwx1_6 : ∀ i : grid1.Coords, EltTy.bits .f32 = 32 ∨ (Rect.block (s := S100000x32) S10000x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x64.size a ≤ S32x64.size a
  hwx2_1 : ∀ i : grid2.Coords, EltTy.bits .f32 = 32 ∨ (Rect.block (s := S32x64) S32x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x64.size a ≤ S100000x64.size a
  hwx3_6 : ∀ i : grid3.Coords, EltTy.bits .f32 = 32 ∨ (Rect.block (s := S100000x64) S10000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x128.size a ≤ S100000x128.size a
  hwx5_6 : ∀ i : grid5.Coords, EltTy.bits .f32 = 32 ∨ (Rect.block (s := S100000x128) S10000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x1.size a ≤ S128x1.size a
  hwx6_1 : ∀ i : grid6.Coords, EltTy.bits .f32 = 32 ∨ (Rect.block (s := S128x1) S128x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x1.size a ≤ S100000x1.size a
  hwx6_2 : ∀ i : grid6.Coords, EltTy.bits .f32 = 32 ∨ (Rect.block (s := S100000x1) S10000x1.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x1.size a ≤ S100000x1.size a
  hwx7_0 : ∀ i : grid7.Coords, EltTy.bits .f32 = 32 ∨ (Rect.block (s := S100000x1) S10000x1.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x1.size a ≤ S1x1.size a
  hwx7_1 : ∀ i : grid7.Coords, EltTy.bits .f32 = 32 ∨ (Rect.block (s := S1x1) S1x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x1.size a ≤ S100000x1.size a
  hwx7_2 : ∀ i : grid7.Coords, EltTy.bits .f32 = 32 ∨ (Rect.block (s := S100000x1) S10000x1.size (cc7_transform_2 i) (hinb7_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v47) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v59) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v60) S10000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v60) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v73) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v41) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v42) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v74) S10000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v74) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v87) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v33) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v43) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v44) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v45) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v46) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v88) S10000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v88) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v89) S10000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v100) S10000x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v34) S1x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v101) S10000x1.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S1700000x32 : Shape := ⟨2, ![1700000, 32]⟩
abbrev S1x32 : Shape := ⟨2, ![1, 32]⟩
abbrev S1700000x64 : Shape := ⟨2, ![1700000, 64]⟩
abbrev S1x64 : Shape := ⟨2, ![1, 64]⟩
abbrev S100000x128 : Shape := ⟨2, ![100000, 128]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 257
  | .vmem => 0
  | .smem => 0
  | _ => 0

abbrev hbmTy0_0 (i : Nat) : BufTy := match i % 128 with
  | 0 => ⟨S100000x64, .f32⟩
  | 1 => ⟨S2x1600000, .i32⟩
  | 2 => ⟨S64x32, .f32⟩
  | 3 => ⟨S32, .f32⟩
  | 4 => ⟨S32x64, .f32⟩
  | 5 => ⟨S64, .f32⟩
  | 6 => ⟨S64x128, .f32⟩
  | 7 => ⟨S128, .f32⟩
  | 8 => ⟨S128x1, .f32⟩
  | 9 => ⟨S1, .f32⟩
  | 10 => ⟨S32, .f32⟩
  | 11 => ⟨S32, .f32⟩
  | 12 => ⟨S32, .f32⟩
  | 13 => ⟨S32, .f32⟩
  | 14 => ⟨S64, .f32⟩
  | 15 => ⟨S64, .f32⟩
  | 16 => ⟨S64, .f32⟩
  | 17 => ⟨S64, .f32⟩
  | 18 => ⟨S128, .f32⟩
  | 19 => ⟨S128, .f32⟩
  | 20 => ⟨S128, .f32⟩
  | 21 => ⟨S128, .f32⟩
  | 22 => ⟨S100000, .i32⟩
  | 23 => ⟨S1x1600000, .i32⟩
  | 24 => ⟨S1600000, .i32⟩
  | 25 => ⟨S1700000, .i32⟩
  | 26 => ⟨S1x1600000, .i32⟩
  | 27 => ⟨S1600000, .i32⟩
  | 28 => ⟨S1700000, .i32⟩
  | 29 => ⟨S_, .f32⟩
  | 30 => ⟨S1700000, .f32⟩
  | 31 => ⟨S_, .f32⟩
  | 32 => ⟨S100000, .f32⟩
  | 33 => ⟨S1700000x1, .i32⟩
  | 34 => ⟨S100000, .f32⟩
  | 35 => ⟨S_, .f32⟩
  | 36 => ⟨S100000, .f32⟩
  | 37 => ⟨S100000, .i1⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000, .f32⟩
  | 61 => ⟨S1700000, .f32⟩
  | 62 => ⟨S100000x32, .f32⟩
  | 63 => ⟨S_, .i32⟩
  | 64 => ⟨S1700000, .i32⟩
  | 65 => ⟨S1700000, .i1⟩
  | 66 => ⟨S_, .i32⟩
  | 67 => ⟨S1700000, .i32⟩
  | 68 => ⟨S1700000, .i32⟩
  | 69 => ⟨S1700000, .i32⟩
  | 70 => ⟨S1700000x1, .i32⟩
  | 71 => ⟨S1700000x32, .f32⟩
  | 72 => ⟨S1700000x1, .f32⟩
  | 73 => ⟨S1700000x32, .f32⟩
  | 74 => ⟨S1700000x32, .f32⟩
  | 75 => ⟨S_, .f32⟩
  | 76 => ⟨S100000x32, .f32⟩
  | 77 => ⟨S1700000x1, .i32⟩
  | 78 => ⟨S100000x32, .f32⟩
  | 79 => ⟨S1x32, .f32⟩
  | 80 => ⟨S100000x32, .f32⟩
  | 81 => ⟨S100000x32, .f32⟩
  | 82 => ⟨S1x32, .f32⟩
  | 83 => ⟨S100000x32, .f32⟩
  | 84 => ⟨S100000x32, .f32⟩
  | 85 => ⟨S_, .f32⟩
  | 86 => ⟨S32, .f32⟩
  | 87 => ⟨S32, .f32⟩
  | 88 => ⟨S32, .f32⟩
  | 89 => ⟨S1x32, .f32⟩
  | 90 => ⟨S100000x32, .f32⟩
  | 91 => ⟨S100000x32, .f32⟩
  | 92 => ⟨S1x32, .f32⟩
  | 93 => ⟨S100000x32, .f32⟩
  | 94 => ⟨S100000x32, .f32⟩
  | 95 => ⟨S1x32, .f32⟩
  | 96 => ⟨S100000x32, .f32⟩
  | 97 => ⟨S100000x32, .f32⟩
  | 98 => ⟨S_, .f32⟩
  | 99 => ⟨S100000x32, .f32⟩
  | 100 => ⟨S100000x32, .i1⟩
  | 101 => ⟨S_, .f32⟩
  | 102 => ⟨S100000x32, .f32⟩
  | 103 => ⟨S100000x32, .i1⟩
  | 104 => ⟨S_, .f32⟩
  | 105 => ⟨S_, .f32⟩
  | 106 => ⟨S100000x32, .f32⟩
  | 107 => ⟨S100000x32, .f32⟩
  | 108 => ⟨S100000x32, .f32⟩
  | 109 => ⟨S_, .f32⟩
  | 110 => ⟨S100000x32, .f32⟩
  | 111 => ⟨S100000x32, .f32⟩
  | 112 => ⟨S100000x32, .f32⟩
  | 113 => ⟨S100000x64, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000x64, .f32⟩
  | 123 => ⟨S1700000x1, .f32⟩
  | 124 => ⟨S1700000x64, .f32⟩
  | 125 => ⟨S1700000x64, .f32⟩
  | 126 => ⟨S_, .f32⟩
  | 127 => ⟨S100000x64, .f32⟩
  | _ => ⟨S100000x64, .f32⟩

abbrev hbmTy0_1 (i : Nat) : BufTy := match i % 128 with
  | 0 => ⟨S1700000x1, .i32⟩
  | 1 => ⟨S100000x64, .f32⟩
  | 2 => ⟨S1x64, .f32⟩
  | 3 => ⟨S100000x64, .f32⟩
  | 4 => ⟨S100000x64, .f32⟩
  | 5 => ⟨S1x64, .f32⟩
  | 6 => ⟨S100000x64, .f32⟩
  | 7 => ⟨S100000x64, .f32⟩
  | 8 => ⟨S_, .f32⟩
  | 9 => ⟨S64, .f32⟩
  | 10 => ⟨S64, .f32⟩
  | 11 => ⟨S64, .f32⟩
  | 12 => ⟨S1x64, .f32⟩
  | 13 => ⟨S100000x64, .f32⟩
  | 14 => ⟨S100000x64, .f32⟩
  | 15 => ⟨S1x64, .f32⟩
  | 16 => ⟨S100000x64, .f32⟩
  | 17 => ⟨S100000x64, .f32⟩
  | 18 => ⟨S1x64, .f32⟩
  | 19 => ⟨S100000x64, .f32⟩
  | 20 => ⟨S100000x64, .f32⟩
  | 21 => ⟨S_, .f32⟩
  | 22 => ⟨S100000x64, .f32⟩
  | 23 => ⟨S100000x64, .i1⟩
  | 24 => ⟨S_, .f32⟩
  | 25 => ⟨S100000x64, .f32⟩
  | 26 => ⟨S100000x64, .i1⟩
  | 27 => ⟨S_, .f32⟩
  | 28 => ⟨S_, .f32⟩
  | 29 => ⟨S100000x64, .f32⟩
  | 30 => ⟨S100000x64, .f32⟩
  | 31 => ⟨S100000x64, .f32⟩
  | 32 => ⟨S_, .f32⟩
  | 33 => ⟨S100000x64, .f32⟩
  | 34 => ⟨S100000x64, .f32⟩
  | 35 => ⟨S100000x64, .f32⟩
  | 36 => ⟨S100000x128, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000x128, .f32⟩
  | 46 => ⟨S1700000x1, .f32⟩
  | 47 => ⟨S1700000x128, .f32⟩
  | 48 => ⟨S1700000x128, .f32⟩
  | 49 => ⟨S_, .f32⟩
  | 50 => ⟨S100000x128, .f32⟩
  | 51 => ⟨S1700000x1, .i32⟩
  | 52 => ⟨S100000x128, .f32⟩
  | 53 => ⟨S1x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S_, .f32⟩
  | 60 => ⟨S128, .f32⟩
  | 61 => ⟨S128, .f32⟩
  | 62 => ⟨S128, .f32⟩
  | 63 => ⟨S1x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .i1⟩
  | 75 => ⟨S_, .f32⟩
  | 76 => ⟨S100000x128, .f32⟩
  | 77 => ⟨S100000x128, .i1⟩
  | 78 => ⟨S_, .f32⟩
  | 79 => ⟨S_, .f32⟩
  | 80 => ⟨S100000x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S100000x128, .f32⟩
  | 87 => ⟨S100000x1, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000x1, .f32⟩
  | 97 => ⟨S1700000x1, .f32⟩
  | 98 => ⟨S1700000x1, .f32⟩
  | 99 => ⟨S_, .f32⟩
  | 100 => ⟨S100000x1, .f32⟩
  | 101 => ⟨S1700000x1, .i32⟩
  | 102 => ⟨S100000x1, .f32⟩
  | 103 => ⟨S1x1, .f32⟩
  | 104 => ⟨S100000x1, .f32⟩
  | 105 => ⟨S100000x1, .f32⟩
  | 106 => ⟨S_, .f32⟩
  | 107 => ⟨S100000x1, .f32⟩
  | 108 => ⟨S100000x1, .i1⟩
  | 109 => ⟨S_, .f32⟩
  | 110 => ⟨S100000x1, .f32⟩
  | 111 => ⟨S100000x1, .i1⟩
  | 112 => ⟨S_, .f32⟩
  | 113 => ⟨S_, .f32⟩
  | 114 => ⟨S100000x1, .f32⟩
  | 115 => ⟨S100000x1, .f32⟩
  | 116 => ⟨S100000x1, .f32⟩
  | 117 => ⟨S_, .f32⟩
  | 118 => ⟨S100000x1, .f32⟩
  | 119 => ⟨S100000x1, .f32⟩
  | 120 => ⟨S100000x1, .f32⟩
  | 121 => ⟨S100000x1, .f32⟩
  | 122 => ⟨S100000x1, .f32⟩
  | 123 => ⟨S_, .f32⟩
  | 124 => ⟨S100000x1, .f32⟩
  | 125 => ⟨S100000x1, .f32⟩
  | 126 => ⟨S_, .f32⟩
  | 127 => ⟨S100000x1, .f32⟩
  | _ => ⟨S100000x64, .f32⟩

abbrev hbmTy0_2 (i : Nat) : BufTy := match i % 128 with
  | 0 => ⟨S100000x1, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_1 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_v14 : Ref sig .tc := ⟨.hbm, 42, rfl⟩
abbrev main_c : Ref sig .tc := ⟨.hbm, 43, rfl⟩
abbrev main_v15 : Ref sig .tc := ⟨.hbm, 44, rfl⟩
abbrev main_v16 : Ref sig .tc := ⟨.hbm, 45, rfl⟩
abbrev main_c_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_4 : Ref sig .tc := ⟨.hbm, 52, rfl⟩
abbrev main_v22 : Ref sig .tc := ⟨.hbm, 53, rfl⟩
abbrev main_v23 : Ref sig .tc := ⟨.hbm, 54, rfl⟩
abbrev main_c_5 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_6 : Ref sig .tc := ⟨.hbm, 63, rfl⟩
abbrev main_v31 : Ref sig .tc := ⟨.hbm, 64, rfl⟩
abbrev main_v32 : Ref sig .tc := ⟨.hbm, 65, rfl⟩
abbrev main_c_7 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_8 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_9 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_call1_cst : Ref sig .tc := ⟨.hbm, 98, rfl⟩
abbrev main_call1_v0 : Ref sig .tc := ⟨.hbm, 99, rfl⟩
abbrev main_call1_v1 : Ref sig .tc := ⟨.hbm, 100, rfl⟩
abbrev main_call1_cst_0 : Ref sig .tc := ⟨.hbm, 101, rfl⟩
abbrev main_call1_v2 : Ref sig .tc := ⟨.hbm, 102, rfl⟩
abbrev main_call1_v3 : Ref sig .tc := ⟨.hbm, 103, rfl⟩
abbrev main_call1_cst_1 : Ref sig .tc := ⟨.hbm, 104, rfl⟩
abbrev main_call1_call0_v0 : Ref sig .tc := ⟨.hbm, 105, rfl⟩
abbrev main_call1_call0_v1 : Ref sig .tc := ⟨.hbm, 106, rfl⟩
abbrev main_call1_v4 : Ref sig .tc := ⟨.hbm, 107, rfl⟩
abbrev main_call1_v5 : Ref sig .tc := ⟨.hbm, 108, rfl⟩
abbrev main_call1_cst_2 : Ref sig .tc := ⟨.hbm, 109, rfl⟩
abbrev main_call1_v6 : Ref sig .tc := ⟨.hbm, 110, rfl⟩
abbrev main_call1_v7 : Ref sig .tc := ⟨.hbm, 111, rfl⟩
abbrev main_v62 : Ref sig .tc := ⟨.hbm, 112, rfl⟩
abbrev main_v63 : Ref sig .tc := ⟨.hbm, 113, rfl⟩
abbrev main_c_10 : Ref sig .tc := ⟨.hbm, 114, rfl⟩
abbrev main_v64 : Ref sig .tc := ⟨.hbm, 115, rfl⟩
abbrev main_v65 : Ref sig .tc := ⟨.hbm, 116, rfl⟩
abbrev main_c_11 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_cst_12 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_cst_13 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_call2_cst : Ref sig .tc := ⟨.hbm, 149, rfl⟩
abbrev main_call2_v0 : Ref sig .tc := ⟨.hbm, 150, rfl⟩
abbrev main_call2_v1 : Ref sig .tc := ⟨.hbm, 151, rfl⟩
abbrev main_call2_cst_0 : Ref sig .tc := ⟨.hbm, 152, rfl⟩
abbrev main_call2_v2 : Ref sig .tc := ⟨.hbm, 153, rfl⟩
abbrev main_call2_v3 : Ref sig .tc := ⟨.hbm, 154, rfl⟩
abbrev main_call2_cst_1 : Ref sig .tc := ⟨.hbm, 155, rfl⟩
abbrev main_call2_call0_v0 : Ref sig .tc := ⟨.hbm, 156, rfl⟩
abbrev main_call2_call0_v1 : Ref sig .tc := ⟨.hbm, 157, rfl⟩
abbrev main_call2_v4 : Ref sig .tc := ⟨.hbm, 158, rfl⟩
abbrev main_call2_v5 : Ref sig .tc := ⟨.hbm, 159, rfl⟩
abbrev main_call2_cst_2 : Ref sig .tc := ⟨.hbm, 160, rfl⟩
abbrev main_call2_v6 : Ref sig .tc := ⟨.hbm, 161, rfl⟩
abbrev main_call2_v7 : Ref sig .tc := ⟨.hbm, 162, rfl⟩
abbrev main_v95 : Ref sig .tc := ⟨.hbm, 163, rfl⟩
abbrev main_v96 : Ref sig .tc := ⟨.hbm, 164, rfl⟩
abbrev main_c_14 : Ref sig .tc := ⟨.hbm, 165, rfl⟩
abbrev main_v97 : Ref sig .tc := ⟨.hbm, 166, rfl⟩
abbrev main_v98 : Ref sig .tc := ⟨.hbm, 167, rfl⟩
abbrev main_c_15 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_cst_16 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_cst_17 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_call3_cst : Ref sig .tc := ⟨.hbm, 200, rfl⟩
abbrev main_call3_v0 : Ref sig .tc := ⟨.hbm, 201, rfl⟩
abbrev main_call3_v1 : Ref sig .tc := ⟨.hbm, 202, rfl⟩
abbrev main_call3_cst_0 : Ref sig .tc := ⟨.hbm, 203, rfl⟩
abbrev main_call3_v2 : Ref sig .tc := ⟨.hbm, 204, rfl⟩
abbrev main_call3_v3 : Ref sig .tc := ⟨.hbm, 205, rfl⟩
abbrev main_call3_cst_1 : Ref sig .tc := ⟨.hbm, 206, rfl⟩
abbrev main_call3_call0_v0 : Ref sig .tc := ⟨.hbm, 207, rfl⟩
abbrev main_call3_call0_v1 : Ref sig .tc := ⟨.hbm, 208, rfl⟩
abbrev main_call3_v4 : Ref sig .tc := ⟨.hbm, 209, rfl⟩
abbrev main_call3_v5 : Ref sig .tc := ⟨.hbm, 210, rfl⟩
abbrev main_call3_cst_2 : Ref sig .tc := ⟨.hbm, 211, rfl⟩
abbrev main_call3_v6 : Ref sig .tc := ⟨.hbm, 212, rfl⟩
abbrev main_call3_v7 : Ref sig .tc := ⟨.hbm, 213, rfl⟩
abbrev main_v128 : Ref sig .tc := ⟨.hbm, 214, rfl⟩
abbrev main_v129 : Ref sig .tc := ⟨.hbm, 215, rfl⟩
abbrev main_c_18 : Ref sig .tc := ⟨.hbm, 216, rfl⟩
abbrev main_v130 : Ref sig .tc := ⟨.hbm, 217, rfl⟩
abbrev main_v131 : Ref sig .tc := ⟨.hbm, 218, rfl⟩
abbrev main_c_19 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_20 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_call4_cst : Ref sig .tc := ⟨.hbm, 234, rfl⟩
abbrev main_call4_v0 : Ref sig .tc := ⟨.hbm, 235, rfl⟩
abbrev main_call4_v1 : Ref sig .tc := ⟨.hbm, 236, rfl⟩
abbrev main_call4_cst_0 : Ref sig .tc := ⟨.hbm, 237, rfl⟩
abbrev main_call4_v2 : Ref sig .tc := ⟨.hbm, 238, rfl⟩
abbrev main_call4_v3 : Ref sig .tc := ⟨.hbm, 239, rfl⟩
abbrev main_call4_cst_1 : Ref sig .tc := ⟨.hbm, 240, rfl⟩
abbrev main_call4_call0_v0 : Ref sig .tc := ⟨.hbm, 241, rfl⟩
abbrev main_call4_call0_v1 : Ref sig .tc := ⟨.hbm, 242, rfl⟩
abbrev main_call4_v4 : Ref sig .tc := ⟨.hbm, 243, rfl⟩
abbrev main_call4_v5 : Ref sig .tc := ⟨.hbm, 244, rfl⟩
abbrev main_call4_cst_2 : Ref sig .tc := ⟨.hbm, 245, rfl⟩
abbrev main_call4_v6 : Ref sig .tc := ⟨.hbm, 246, rfl⟩
abbrev main_call4_v7 : Ref sig .tc := ⟨.hbm, 247, rfl⟩
abbrev main_v145 : Ref sig .tc := ⟨.hbm, 248, rfl⟩
abbrev main_v146 : Ref sig .tc := ⟨.hbm, 249, rfl⟩
abbrev main_v147 : Ref sig .tc := ⟨.hbm, 250, rfl⟩
abbrev main_cst_21 : Ref sig .tc := ⟨.hbm, 251, rfl⟩
abbrev main_v148 : Ref sig .tc := ⟨.hbm, 252, rfl⟩
abbrev main_v149 : Ref sig .tc := ⟨.hbm, 253, rfl⟩
abbrev main_cst_22 : Ref sig .tc := ⟨.hbm, 254, rfl⟩
abbrev main_v150 : Ref sig .tc := ⟨.hbm, 255, rfl⟩
abbrev main_v151 : Ref sig .tc := ⟨.hbm, 256, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S32 : S_.BroadcastsInDim S32 (![] : Fin 0 → Fin S32.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x64_S100000x64_1_0_0_1_n_n_wf : DotDims.WF S100000x32 S32x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.Spec.lean ====
/-
  The result both programs compute, as ONE function of the twenty-two argument arrays, stated in the host
  operations of the reference program.

  A graph of 100000 nodes carries 1600000 directed edges (row 0 of the edge table: sources, row 1: targets);
  every node also gets a self loop, so there are 1700000 edge slots.  With deg(v) the number of slots whose target
  is v and dinv = deg^(-1/2) (0 where deg is not positive), slot s carries the weight
  norm(s) = dinv(src s) · dinv(dst s).  One layer sends the node features h to
      agg(h·W)(v) = Σ_{s : dst s = v} (h·W)(src s) · norm(s),
  adds the bias, applies the evaluation-mode batch normalisation ((· − mean) · (var + ε)^(-1/2) · γ + β) and the
  exponential linear unit (y for y > 0, e^y − 1 otherwise).  Three such layers (widths 32, 64, 128) are followed
  by a fourth of width 1 whose unit is followed by the logistic function 1/(1 + e^(−y)).
-/
import proofs.«122410_j40535901339683_1_alg».proof.ReferenceIdeal

noncomputable section

namespace Cert.Spec

open Idealize.ShloMosaic Idealize.SL.Sem Cert.ReferenceIdeal

variable {F : FTy → Type} [FloatOps F] [Facts₀]
open Facts₀

/-- The contents of a buffer of shape `s` and element type `e`. -/
abbrev C (F : FTy → Type) (s : Shape) (e : EltTy) : Type := (⟨s, e⟩ : BufTy).Contents (Elt F)

/-! ## The edge slots -/

/-- One row of the edge table followed by the nodes' own numbers (the self loops): a node word per slot. -/
def slotWords (row : C F S1x1600000 .i32) : C F S1700000 .i32 :=
  concatenate S1700000 0 [⟨S1600000, shapeCast S1600000 row shapeCasts_S1x1600000_S1600000⟩, ⟨S100000, iotaInDim S100000 32 0⟩]
    concatenates_S1600000_S100000_S1700000_d0

/-- The source word of every slot. -/
def srcW (e : C F S2x1600000 .i32) : C F S1700000 .i32 :=
  slotWords (F := F) (extractStridedSlice S1x1600000 ![0, 0] e slices_S2x1600000_S1x1600000_0_0)

/-- The target word of every slot. -/
def dstW (e : C F S2x1600000 .i32) : C F S1700000 .i32 :=
  slotWords (F := F) (extractStridedSlice S1x1600000 ![1, 0] e slices_S2x1600000_S1x1600000_1_0)

/-- Node words as a column. -/
def col (w : C F S1700000 .i32) : C F S1700000x1 .i32 :=
  broadcastInDim S1700000x1 ![0] bcast_S1700000_S1700000x1_0 w

/-- Node words made ready for a gather: a negative word counts from the end (100000 is added), then the column. -/
def wrapCol (w : C F S1700000 .i32) : C F S1700000x1 .i32 :=
  col (F := F) (select (cmpi .slt w (broadcastInDim S1700000 ![] bcast_S_S1700000 (constantI S_ 32 0#32)))
    (addi w (broadcastInDim S1700000 ![] bcast_S_S1700000 (constantI S_ 32 100000#32))) w)

/-- deg(v): the number of slots whose target is v, as a sum of ones. -/
def deg (e : C F S2x1600000 .i32) : C F S100000 .f32 :=
  Host.scatterAdd scatter_S100000_S1700000x1_S1700000_n_0_0_1
    (broadcastInDim S100000 ![] bcast_S_S100000 (constant S_ .f32 0x00000000#32))
    (col (F := F) (dstW (F := F) e))
    (broadcastInDim S1700000 ![] bcast_S_S1700000 (constant S_ .f32 0x3F800000#32))

/-- dinv(v) = deg(v)^(-1/2) where deg(v) > 0, and 0 elsewhere. -/
def dinv (e : C F S2x1600000 .i32) : C F S100000 .f32 :=
  select (cmpf .ogt (deg (F := F) e) (broadcastInDim S100000 ![] bcast_S_S100000 (constant S_ .f32 0x00000000#32)))
    (Host.rsqrt (deg (F := F) e))
    (broadcastInDim S100000 ![] bcast_S_S100000 (id (constant S_ .f32 0x00000000#32)))

/-- norm(s) = dinv(src s) · dinv(dst s). -/
def normW (e : C F S2x1600000 .i32) : C F S1700000 .f32 :=
  mulf (Host.gather gather_S100000_S1700000x1_S1700000_n_0_n_n_0_1_1 (dinv (F := F) e) (wrapCol (F := F) (srcW (F := F) e)))
    (Host.gather gather_S100000_S1700000x1_S1700000_n_0_n_n_0_1_1 (dinv (F := F) e) (wrapCol (F := F) (dstW (F := F) e)))

/-- The slot weights as a column. -/
def normCol (e : C F S2x1600000 .i32) : C F S1700000x1 .f32 :=
  broadcastInDim S1700000x1 ![0] bcast_S1700000_S1700000x1_0 (normW (F := F) e)

/-! ## A layer of width 32 -/

/-- h · W for node features of width 64. -/
def lin32 (h : C F S100000x64 .f32) (W : C F S64x32 .f32) : C F S100000x32 .f32 :=
  Host.dotGeneral dot_S100000x64_S64x32_S100000x32_1_0_0_1_n_n none h W

/-- agg(xw)(v) = Σ over the slots s with target v of xw(src s) · norm(s). -/
def agg32 (e : C F S2x1600000 .i32) (xw : C F S100000x32 .f32) : C F S100000x32 .f32 :=
  Host.scatterAdd scatter_S100000x32_S1700000x1_S1700000x32_1_0_0_1
    (broadcastInDim S100000x32 ![] bcast_S_S100000x32 (constant S_ .f32 0x00000000#32))
    (col (F := F) (dstW (F := F) e))
    (mulf (Host.gather gather_S100000x32_S1700000x1_S1700000x32_1_0_n_n_0_1_132 xw (wrapCol (F := F) (srcW (F := F) e)))
      (broadcastInDim S1700000x32 ![0, 1] bcast_S1700000x1_S1700000x32_0_1 (normCol (F := F) e)))

/-- One row of width 32 repeated for every node. -/
def rows32 (r : C F S1x32 .f32) : C F S100000x32 .f32 :=
  broadcastInDim S100000x32 ![0, 1] bcast_S1x32_S100000x32_0_1 r

/-- Bias and batch normalisation over ROWS [1, 32]: ((a + b − mean) · istd) · γ + β. -/
def bn32 (a : C F S100000x32 .f32) (b g be rm istd : C F S1x32 .f32) : C F S100000x32 .f32 :=
  addf (mulf (mulf (subf (addf a (rows32 (F := F) b)) (rows32 (F := F) rm)) (rows32 (F := F) istd)) (rows32 (F := F) g)) (rows32 (F := F) be)

/-- A vector of width 32 as one row. -/
def row32 (p : C F S32 .f32) : C F S1x32 .f32 :=
  broadcastInDim S1x32 ![1] bcast_S32_S1x32_1 p

/-- (var + ε)^(-1/2) for a vector of variances, ε the single-precision word nearest 10⁻⁵. -/
def istd32 (rv : C F S32 .f32) : C F S32 .f32 :=
  Host.rsqrt (addf rv (broadcastInDim S32 ![] bcast_S_S32 (constant S_ .f32 0x3727C5AC#32)))

/-- The exponential linear unit: y where y > 0, and 1 · (e^z − 1) elsewhere, z being y where y is not positive. -/
def elu32 (y : C F S100000x32 .f32) : C F S100000x32 .f32 :=
  select (cmpf .ogt y (broadcastInDim S100000x32 ![] bcast_S_S100000x32 (constant S_ .f32 0x00000000#32))) y
    (mulf (broadcastInDim S100000x32 ![] bcast_S_S100000x32 (constant S_ .f32 0x3F800000#32))
      (Host.expm1 (select (cmpf .ogt y (broadcastInDim S100000x32 ![] bcast_S_S100000x32 (constant S_ .f32 0x00000000#32)))
        (broadcastInDim S100000x32 ![] bcast_S_S100000x32 (id (constant S_ .f32 0x00000000#32))) y)))

/-- The whole layer of width 32. -/
def layer32 (e : C F S2x1600000 .i32) (h : C F S100000x64 .f32) (W : C F S64x32 .f32) (b g be rm rv : C F S32 .f32) : C F S100000x32 .f32 :=
  elu32 (F := F) (bn32 (F := F) (agg32 (F := F) e (lin32 (F := F) h W)) (row32 (F := F) b) (row32 (F := F) g) (row32 (F := F) be) (row32 (F := F) rm)
    (row32 (F := F) (istd32 (F := F) rv)))

/-! ## A layer of width 64 -/

/-- h · W for node features of width 32. -/
def lin64 (h : C F S100000x32 .f32) (W : C F S32x64 .f32) : C F S100000x64 .f32 :=
  Host.dotGeneral dot_S100000x32_S32x64_S100000x64_1_0_0_1_n_n none h W

/-- agg(xw)(v) = Σ over the slots s with target v of xw(src s) · norm(s). -/
def agg64 (e : C F S2x1600000 .i32) (xw : C F S100000x64 .f32) : C F S100000x64 .f32 :=
  Host.scatterAdd scatter_S100000x64_S1700000x1_S1700000x64_1_0_0_1
    (broadcastInDim S100000x64 ![] bcast_S_S100000x64 (constant S_ .f32 0x00000000#32))
    (col (F := F) (dstW (F := F) e))
    (mulf (Host.gather gather_S100000x64_S1700000x1_S1700000x64_1_0_n_n_0_1_164 xw (wrapCol (F := F) (srcW (F := F) e)))
      (broadcastInDim S1700000x64 ![0, 1] bcast_S1700000x1_S1700000x64_0_1 (normCol (F := F) e)))

/-- One row of width 64 repeated for every node. -/
def rows64 (r : C F S1x64 .f32) : C F S100000x64 .f32 :=
  broadcastInDim S100000x64 ![0, 1] bcast_S1x64_S100000x64_0_1 r

/-- Bias and batch normalisation over ROWS [1, 64]: ((a + b − mean) · istd) · γ + β. -/
def bn64 (a : C F S100000x64 .f32) (b g be rm istd : C F S1x64 .f32) : C F S100000x64 .f32 :=
  addf (mulf (mulf (subf (addf a (rows64 (F := F) b)) (rows64 (F := F) rm)) (rows64 (F := F) istd)) (rows64 (F := F) g)) (rows64 (F := F) be)

/-- A vector of width 64 as one row. -/
def row64 (p : C F S64 .f32) : C F S1x64 .f32 :=
  broadcastInDim S1x64 ![1] bcast_S64_S1x64_1 p

/-- (var + ε)^(-1/2) for a vector of variances, ε the single-precision word nearest 10⁻⁵. -/
def istd64 (rv : C F S64 .f32) : C F S64 .f32 :=
  Host.rsqrt (addf rv (broadcastInDim S64 ![] bcast_S_S64 (constant S_ .f32 0x3727C5AC#32)))

/-- The exponential linear unit: y where y > 0, and 1 · (e^z − 1) elsewhere, z being y where y is not positive. -/
def elu64 (y : C F S100000x64 .f32) : C F S100000x64 .f32 :=
  select (cmpf .ogt y (broadcastInDim S100000x64 ![] bcast_S_S100000x64 (constant S_ .f32 0x00000000#32))) y
    (mulf (broadcastInDim S100000x64 ![] bcast_S_S100000x64 (constant S_ .f32 0x3F800000#32))
      (Host.expm1 (select (cmpf .ogt y (broadcastInDim S100000x64 ![] bcast_S_S100000x64 (constant S_ .f32 0x00000000#32)))
        (broadcastInDim S100000x64 ![] bcast_S_S100000x64 (id (constant S_ .f32 0x00000000#32))) y)))

/-- The whole layer of width 64. -/
def layer64 (e : C F S2x1600000 .i32) (h : C F S100000x32 .f32) (W : C F S32x64 .f32) (b g be rm rv : C F S64 .f32) : C F S100000x64 .f32 :=
  elu64 (F := F) (bn64 (F := F) (agg64 (F := F) e (lin64 (F := F) h W)) (row64 (F := F) b) (row64 (F := F) g) (row64 (F := F) be) (row64 (F := F) rm)
    (row64 (F := F) (istd64 (F := F) rv)))

/-! ## A layer of width 128 -/

/-- h · W for node features of width 64. -/
def lin128 (h : C F S100000x64 .f32) (W : C F S64x128 .f32) : C F S100000x128 .f32 :=
  Host.dotGeneral dot_S100000x64_S64x128_S100000x128_1_0_0_1_n_n none h W

/-- agg(xw)(v) = Σ over the slots s with target v of xw(src s) · norm(s). -/
def agg128 (e : C F S2x1600000 .i32) (xw : C F S100000x128 .f32) : C F S100000x128 .f32 :=
  Host.scatterAdd scatter_S100000x128_S1700000x1_S1700000x128_1_0_0_1
    (broadcastInDim S100000x128 ![] bcast_S_S100000x128 (constant S_ .f32 0x00000000#32))
    (col (F := F) (dstW (F := F) e))
    (mulf (Host.gather gather_S100000x128_S1700000x1_S1700000x128_1_0_n_n_0_1_1128 xw (wrapCol (F := F) (srcW (F := F) e)))
      (broadcastInDim S1700000x128 ![0, 1] bcast_S1700000x1_S1700000x128_0_1 (normCol (F := F) e)))

/-- One row of width 128 repeated for every node. -/
def rows128 (r : C F S1x128 .f32) : C F S100000x128 .f32 :=
  broadcastInDim S100000x128 ![0, 1] bcast_S1x128_S100000x128_0_1 r

/-- Bias and batch normalisation over ROWS [1, 128]: ((a + b − mean) · istd) · γ + β. -/
def bn128 (a : C F S100000x128 .f32) (b g be rm istd : C F S1x128 .f32) : C F S100000x128 .f32 :=
  addf (mulf (mulf (subf (addf a (rows128 (F := F) b)) (rows128 (F := F) rm)) (rows128 (F := F) istd)) (rows128 (F := F) g)) (rows128 (F := F) be)

/-- A vector of width 128 as one row. -/
def row128 (p : C F S128 .f32) : C F S1x128 .f32 :=
  broadcastInDim S1x128 ![1] bcast_S128_S1x128_1 p

/-- (var + ε)^(-1/2) for a vector of variances, ε the single-precision word nearest 10⁻⁵. -/
def istd128 (rv : C F S128 .f32) : C F S128 .f32 :=
  Host.rsqrt (addf rv (broadcastInDim S128 ![] bcast_S_S128 (constant S_ .f32 0x3727C5AC#32)))

/-- The exponential linear unit: y where y > 0, and 1 · (e^z − 1) elsewhere, z being y where y is not positive. -/
def elu128 (y : C F S100000x128 .f32) : C F S100000x128 .f32 :=
  select (cmpf .ogt y (broadcastInDim S100000x128 ![] bcast_S_S100000x128 (constant S_ .f32 0x00000000#32))) y
    (mulf (broadcastInDim S100000x128 ![] bcast_S_S100000x128 (constant S_ .f32 0x3F800000#32))
      (Host.expm1 (select (cmpf .ogt y (broadcastInDim S100000x128 ![] bcast_S_S100000x128 (constant S_ .f32 0x00000000#32)))
        (broadcastInDim S100000x128 ![] bcast_S_S100000x128 (id (constant S_ .f32 0x00000000#32))) y)))

/-- The whole layer of width 128. -/
def layer128 (e : C F S2x1600000 .i32) (h : C F S100000x64 .f32) (W : C F S64x128 .f32) (b g be rm rv : C F S128 .f32) : C F S100000x128 .f32 :=
  elu128 (F := F) (bn128 (F := F) (agg128 (F := F) e (lin128 (F := F) h W)) (row128 (F := F) b) (row128 (F := F) g) (row128 (F := F) be) (row128 (F := F) rm)
    (row128 (F := F) (istd128 (F := F) rv)))

/-! ## A layer of width 1 -/

/-- h · W for node features of width 128. -/
def lin1 (h : C F S100000x128 .f32) (W : C F S128x1 .f32) : C F S100000x1 .f32 :=
  Host.dotGeneral dot_S100000x128_S128x1_S100000x1_1_0_0_1_n_n none h W

/-- agg(xw)(v) = Σ over the slots s with target v of xw(src s) · norm(s). -/
def agg1 (e : C F S2x1600000 .i32) (xw : C F S100000x1 .f32) : C F S100000x1 .f32 :=
  Host.scatterAdd scatter_S100000x1_S1700000x1_S1700000x1_1_0_0_1
    (broadcastInDim S100000x1 ![] bcast_S_S100000x1 (constant S_ .f32 0x00000000#32))
    (col (F := F) (dstW (F := F) e))
    (mulf (Host.gather gather_S100000x1_S1700000x1_S1700000x1_1_0_n_n_0_1_11 xw (wrapCol (F := F) (srcW (F := F) e)))
      (normCol (F := F) e))

/-- One row of width 1 repeated for every node. -/
def rows1 (r : C F S1x1 .f32) : C F S100000x1 .f32 :=
  broadcastInDim S100000x1 ![0, 1] bcast_S1x1_S100000x1_0_1 r

/-- A vector of width 1 as one row. -/
def row1 (p : C F S1 .f32) : C F S1x1 .f32 :=
  broadcastInDim S1x1 ![1] bcast_S1_S1x1_1 p

/-- The exponential linear unit: y where y > 0, and 1 · (e^z − 1) elsewhere, z being y where y is not positive. -/
def elu1 (y : C F S100000x1 .f32) : C F S100000x1 .f32 :=
  select (cmpf .ogt y (broadcastInDim S100000x1 ![] bcast_S_S100000x1 (constant S_ .f32 0x00000000#32))) y
    (mulf (broadcastInDim S100000x1 ![] bcast_S_S100000x1 (constant S_ .f32 0x3F800000#32))
      (Host.expm1 (select (cmpf .ogt y (broadcastInDim S100000x1 ![] bcast_S_S100000x1 (constant S_ .f32 0x00000000#32)))
        (broadcastInDim S100000x1 ![] bcast_S_S100000x1 (id (constant S_ .f32 0x00000000#32))) y)))

/-! ## The whole network -/

/-- Bias over a ROW [1, 1], the unit, and the logistic function 1 / (1 + e^(−y)). -/
def fin1 (a : C F S100000x1 .f32) (b : C F S1x1 .f32) : C F S100000x1 .f32 :=
  Host.divf (broadcastInDim S100000x1 ![] bcast_S_S100000x1 (constant S_ .f32 0x3F800000#32))
    (addf (broadcastInDim S100000x1 ![] bcast_S_S100000x1 (constant S_ .f32 0x3F800000#32))
      (Host.exp (Host.negf (elu1 (F := F) (addf a (rows1 (F := F) b))))))

/-- The last layer. -/
def out (e : C F S2x1600000 .i32) (h : C F S100000x128 .f32) (W : C F S128x1 .f32) (b : C F S1 .f32) : C F S100000x1 .f32 :=
  fin1 (F := F) (agg1 (F := F) e (lin1 (F := F) h W)) (row1 (F := F) b)

/-- The result as a function of the argument arrays, in the order the programs take them. -/
def G (x : C F S100000x64 .f32) (e : C F S2x1600000 .i32) (W1 : C F S64x32 .f32) (b1 : C F S32 .f32) (W2 : C F S32x64 .f32) (b2 : C F S64 .f32)
    (W3 : C F S64x128 .f32) (b3 : C F S128 .f32) (W4 : C F S128x1 .f32) (b4 : C F S1 .f32)
    (g1 be1 rm1 rv1 : C F S32 .f32) (g2 be2 rm2 rv2 : C F S64 .f32) (g3 be3 rm3 rv3 : C F S128 .f32) : C F S100000x1 .f32 :=
  out (F := F) e (layer128 (F := F) e (layer64 (F := F) e (layer32 (F := F) e x W1 b1 g1 be1 rm1 rv1) W2 b2 g2 be2 rm2 rv2) W3 b3 g3 be3 rm3 rv3) W4 b4

end Cert.Spec

end
-- ==== Proof.KRun.lean ====
/-
  The kernel program's run with its RESULT named: every weakly fair execution terminates, nothing faults, the
  argument arrays end as launched, and the result array ends at what the last region's write-backs leave, read in
  the fold of buffer contents through the program's stretches of host operations and regions.
-/
import proofs.«122410_j40535901339683_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the kernel program: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v101) = W15 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v101 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c),
       (h c _ (mem_uc main_arg19 (by decide))).trans (W15_main_arg19 m ρ c),
       (h c _ (mem_uc main_arg20 (by decide))).trans (W15_main_arg20 m ρ c),
       (h c _ (mem_uc main_arg21 (by decide))).trans (W15_main_arg21 m ρ c)⟩)

end Cert.KernelIdeal.KRun

end
-- ==== Proof.KSkip.lean ====
/-
  A buffer that a stretch of host operations does not write keeps its contents through the stretch: for each of the
  kernel program's seven stretches, the list of the references it writes, and the fact.
-/
import proofs.«122410_j40535901339683_1_alg».proof.Proof.Gen.KernelIdeal.Frame
import proofs.«122410_j40535901339683_1_alg».proof.Proof.Gen.ReferenceIdeal
import proofs.«122410_j40535901339683_1_alg».proof.Proof.Spec
import Idealize.ShloMosaic.Lib.StableHlo.Run

set_option maxRecDepth 16384

noncomputable section

namespace Cert.KernelIdeal.KFold

open Idealize.ShloMosaic Idealize.ShloMosaic.TcCoe Idealize.SL.Sem Idealize.ShloMosaic.StableHlo
open Cert.KernelIdeal Cert.KernelIdeal.Gen

variable {F : FTy → Type} [FloatOps F]

/-- The references `hostOps0` writes, in order. -/
def wr0 : List (Ref sig .tc) := [main_v0, main_v1, main_v2, main_v3, main_v4, main_v5, main_v6, main_cst, main_v7, main_cst_0, main_v8, main_v9, main_v10, main_cst_1, main_v11, main_v12, main_v13, main_cst_2]

/-- A reference `hostOps0` does not write keeps its contents. -/
theorem skip0 (V : Valuation τ sig (Elt F)) (r : Ref sig .tc) (hr : r ∉ wr0) :
    StableHlo.after (hostOps0 (F := F)) V (Proc.devRef .tc r) = V (Proc.devRef .tc r) :=
  StableHlo.after_of_writes_sub (W := wr0) _ V (by
    simp only [hostOps0, List.Forall, StableHlo.nullary_writes, StableHlo.unary_writes, StableHlo.binary_writes, StableHlo.ternary_writes,
      StableHlo.quaternary_writes, StableHlo.reshape_writes, StableHlo.binaryIndexed_writes]
    repeat' apply And.intro
    all_goals exact Finset.singleton_subset_iff.mpr (List.mem_toFinset.mpr (List.mem_map.mpr ⟨_, by decide, rfl⟩))) hr

/-- The references `hostOps0_1` writes, in order. -/
def wr0a : List (Ref sig .tc) := [main_call0_v0, main_call0_v1, main_v14]

/-- A reference `hostOps0_1` does not write keeps its contents. -/
theorem skip0a (V : Valuation τ sig (Elt F)) (r : Ref sig .tc) (hr : r ∉ wr0a) :
    StableHlo.after (hostOps0_1 (F := F)) V (Proc.devRef .tc r) = V (Proc.devRef .tc r) :=
  StableHlo.after_of_writes_sub (W := wr0a) _ V (by
    simp only [hostOps0_1, List.Forall, StableHlo.nullary_writes, StableHlo.unary_writes, StableHlo.binary_writes, StableHlo.ternary_writes,
      StableHlo.quaternary_writes, StableHlo.reshape_writes, StableHlo.binaryIndexed_writes]
    repeat' apply And.intro
    all_goals exact Finset.singleton_subset_iff.mpr (List.mem_toFinset.mpr (List.mem_map.mpr ⟨_, by decide, rfl⟩))) hr

/-- The references `hostOps0_2` writes, in order. -/
def wr0b : List (Ref sig .tc) := [main_c, main_v15, main_v16, main_c_3, main_v17, main_v18, main_v19, main_v20, main_v21, main_c_4, main_v22, main_v23, main_c_5, main_v24, main_v25, main_v26, main_v27, main_v28, main_v29, main_v30, main_v31, main_v32, main_v33, main_v34, main_v35, main_v36, main_v37, main_v38, main_v39, main_v40, main_v41, main_v42, main_v43, main_v44, main_v45, main_v46]

/-- A reference `hostOps0_2` does not write keeps its contents. -/
theorem skip0b (V : Valuation τ sig (Elt F)) (r : Ref sig .tc) (hr : r ∉ wr0b) :
    StableHlo.after (hostOps0_2 (F := F)) V (Proc.devRef .tc r) = V (Proc.devRef .tc r) :=
  StableHlo.after_of_writes_sub (W := wr0b) _ V (by
    simp only [hostOps0_2, List.Forall, StableHlo.nullary_writes, StableHlo.unary_writes, StableHlo.binary_writes, StableHlo.ternary_writes,
      StableHlo.quaternary_writes, StableHlo.reshape_writes, StableHlo.binaryIndexed_writes]
    repeat' apply And.intro
    all_goals exact Finset.singleton_subset_iff.mpr (List.mem_toFinset.mpr (List.mem_map.mpr ⟨_, by decide, rfl⟩))) hr

/-- The references `hostOps1` writes, in order. -/
def wr1 : List (Ref sig .tc) := [main_c_6, main_v48, main_v49, main_c_7, main_v50, main_v51, main_v52, main_v53, main_v54, main_v55, main_v56, main_cst_8, main_v57, main_v58, main_v59]

/-- A reference `hostOps1` does not write keeps its contents. -/
theorem skip1 (V : Valuation τ sig (Elt F)) (r : Ref sig .tc) (hr : r ∉ wr1) :
    StableHlo.after (hostOps1 (F := F)) V (Proc.devRef .tc r) = V (Proc.devRef .tc r) :=
  StableHlo.after_of_writes_sub (W := wr1) _ V (by
    simp only [hostOps1, List.Forall, StableHlo.nullary_writes, StableHlo.unary_writes, StableHlo.binary_writes, StableHlo.ternary_writes,
      StableHlo.quaternary_writes, StableHlo.reshape_writes, StableHlo.binaryIndexed_writes]
    repeat' apply And.intro
    all_goals exact Finset.singleton_subset_iff.mpr (List.mem_toFinset.mpr (List.mem_map.mpr ⟨_, by decide, rfl⟩))) hr

/-- The references `hostOps3` writes, in order. -/
def wr3 : List (Ref sig .tc) := [main_c_9, main_v62, main_v63, main_c_10, main_v64, main_v65, main_v66, main_v67, main_v68, main_v69, main_v70, main_cst_11, main_v71, main_v72, main_v73]

/-- A reference `hostOps3` does not write keeps its contents. -/
theorem skip3 (V : Valuation τ sig (Elt F)) (r : Ref sig .tc) (hr : r ∉ wr3) :
    StableHlo.after (hostOps3 (F := F)) V (Proc.devRef .tc r) = V (Proc.devRef .tc r) :=
  StableHlo.after_of_writes_sub (W := wr3) _ V (by
    simp only [hostOps3, List.Forall, StableHlo.nullary_writes, StableHlo.unary_writes, StableHlo.binary_writes, StableHlo.ternary_writes,
      StableHlo.quaternary_writes, StableHlo.reshape_writes, StableHlo.binaryIndexed_writes]
    repeat' apply And.intro
    all_goals exact Finset.singleton_subset_iff.mpr (List.mem_toFinset.mpr (List.mem_map.mpr ⟨_, by decide, rfl⟩))) hr

/-- The references `hostOps5` writes, in order. -/
def wr5 : List (Ref sig .tc) := [main_c_12, main_v76, main_v77, main_c_13, main_v78, main_v79, main_v80, main_v81, main_v82, main_v83, main_v84, main_cst_14, main_v85, main_v86, main_v87]

/-- A reference `hostOps5` does not write keeps its contents. -/
theorem skip5 (V : Valuation τ sig (Elt F)) (r : Ref sig .tc) (hr : r ∉ wr5) :
    StableHlo.after (hostOps5 (F := F)) V (Proc.devRef .tc r) = V (Proc.devRef .tc r) :=
  StableHlo.after_of_writes_sub (W := wr5) _ V (by
    simp only [hostOps5, List.Forall, StableHlo.nullary_writes, StableHlo.unary_writes, StableHlo.binary_writes, StableHlo.ternary_writes,
      StableHlo.quaternary_writes, StableHlo.reshape_writes, StableHlo.binaryIndexed_writes]
    repeat' apply And.intro
    all_goals exact Finset.singleton_subset_iff.mpr (List.mem_toFinset.mpr (List.mem_map.mpr ⟨_, by decide, rfl⟩))) hr

/-- The references `hostOps7` writes, in order. -/
def wr7 : List (Ref sig .tc) := [main_c_15, main_v90, main_v91, main_c_16, main_v92, main_v93, main_v94, main_v95, main_v96, main_v97, main_cst_17, main_v98, main_v99, main_v100]

/-- A reference `hostOps7` does not write keeps its contents. -/
theorem skip7 (V : Valuation τ sig (Elt F)) (r : Ref sig .tc) (hr : r ∉ wr7) :
    StableHlo.after (hostOps7 (F := F)) V (Proc.devRef .tc r) = V (Proc.devRef .tc r) :=
  StableHlo.after_of_writes_sub (W := wr7) _ V (by
    simp only [hostOps7, List.Forall, StableHlo.nullary_writes, StableHlo.unary_writes, StableHlo.binary_writes, StableHlo.ternary_writes,
      StableHlo.quaternary_writes, StableHlo.reshape_writes, StableHlo.binaryIndexed_writes]
    repeat' apply And.intro
    all_goals exact Finset.singleton_subset_iff.mpr (List.mem_toFinset.mpr (List.mem_map.mpr ⟨_, by decide, rfl⟩))) hr

end Cert.KernelIdeal.KFold

end
-- ==== Proof.LibRowVector.lean ====
/-
  A vector laid as a row.

  A vector of length `a` becomes the one row of a `[1, a]` array in two ways: by reading the vector's entries in
  row-major order at the new shape, or by broadcasting it along the second axis. Both arrays have at `(0, i)` the
  vector's entry `i`, so they are the same array.
-/
import Idealize.ShloMosaic.Lib.Pipeline.Value
import Idealize.ShloMosaic.Lib.ValueIdx
import Idealize.ShloMosaic.Lib.ValueLayout

namespace Cert.Lib.RowVector

open Idealize.ShloMosaic Idealize.ShloMosaic.ValueIdx

/-- The reshape of a vector to one row is its broadcast along the second axis. -/
theorem shapeCast_eq_broadcastInDim {α : Type} {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ ![1]) :
    shapeCast ⟨2, ![1, a]⟩ x h = broadcastInDim ⟨2, ![1, a]⟩ ![1] h' x := by
  funext j
  obtain ⟨u, i, rfl⟩ : ∃ (u : Fin 1) (i : Fin a), j = ix2 u i := ⟨j 0, j 1, eq_ix2 j⟩
  rw [shapeCast_a_1a_apply]
  refine (broadcastInDim_apply ![1] h' x (ix2 u i) (ix1 i) (fun ax => ?_)).symm
  match ax with
  | ⟨0, _⟩ =>
    show i.val = if a = 1 then 0 else i.val
    split
    · have := i.isLt; omega
    · rfl

end Cert.Lib.RowVector
-- ==== Proof.KFold0.lean ====
/-
  The buffer contents when the first region is entered, read at the buffers the later stages use: the slots'
  source and target words, the slot weights as a column, and each parameter vector laid as a row.
-/
import proofs.«122410_j40535901339683_1_alg».proof.Proof.Gen.KernelIdeal.Frame
import proofs.«122410_j40535901339683_1_alg».proof.Proof.Gen.ReferenceIdeal
import proofs.«122410_j40535901339683_1_alg».proof.Proof.Spec
import Idealize.ShloMosaic.Lib.StableHlo.Run
import proofs.«122410_j40535901339683_1_alg».proof.Proof.KSkip
import proofs.«122410_j40535901339683_1_alg».proof.Proof.LibRowVector

set_option maxRecDepth 16384

noncomputable section

namespace Cert.KernelIdeal.KFold

open Idealize.ShloMosaic Idealize.ShloMosaic.TcCoe Idealize.SL.Sem Idealize.ShloMosaic.StableHlo
open Cert.KernelIdeal Cert.KernelIdeal.Gen

variable {F : FTy → Type} [FloatOps F]

variable (m : (ℓ : Loc nD τ sig) → Buf (Elt F) ℓ) (ρ : Dev nD → PrngReg) (c : Dev nD)

/-- The slots' source words, before the last stretch. -/
theorem w2_src : W2 m ρ c (Proc.devRef .tc main_v3) = Cert.Spec.srcW (F := F) (m ((c : Thread nD τ).loc main_arg1)) := by
  show StableHlo.after hostOps0_1 (StableHlo.after hostOps0 (W0 m ρ c)) _ = _
  simp only [hostOps0, hostOps0_1]
  after_results
  rfl

/-- The slots' target words, before the last stretch. -/
theorem w2_dst : W2 m ρ c (Proc.devRef .tc main_v6) = Cert.Spec.dstW (F := F) (m ((c : Thread nD τ).loc main_arg1)) := by
  show StableHlo.after hostOps0_1 (StableHlo.after hostOps0 (W0 m ρ c)) _ = _
  simp only [hostOps0, hostOps0_1]
  after_results
  rfl

/-- Where the degrees are positive, after the first stretch. -/
theorem w1_pos : W1 m ρ c (Proc.devRef .tc main_v12) = cmpf .ogt (Cert.Spec.deg (F := F) (m ((c : Thread nD τ).loc main_arg1)))
    (broadcastInDim S100000 ![] Cert.ReferenceIdeal.Facts₀.bcast_S_S100000 (constant S_ .f32 0x00000000#32)) := by
  show StableHlo.after hostOps0 (W0 m ρ c) _ = _
  simp only [hostOps0]
  after_results
  rfl

/-- The inverse square roots of the degrees wherever defined, after the first stretch. -/
theorem w1_rs : W1 m ρ c (Proc.devRef .tc main_v13) = Host.rsqrt (Cert.Spec.deg (F := F) (m ((c : Thread nD τ).loc main_arg1))) := by
  show StableHlo.after hostOps0 (W0 m ρ c) _ = _
  simp only [hostOps0]
  after_results
  rfl

/-- The zero that stands where a degree is not positive, after the first stretch. -/
theorem w1_zero : W1 m ρ c (Proc.devRef .tc main_cst_2) = constant S_ .f32 0x00000000#32 := by
  show StableHlo.after hostOps0 (W0 m ρ c) _ = _
  simp only [hostOps0]
  after_results

/-- The inverse square roots of the degrees, before the last stretch: the selection between the two. -/
theorem w2_dinv : W2 m ρ c (Proc.devRef .tc main_v14) = Cert.Spec.dinv (F := F) (m ((c : Thread nD τ).loc main_arg1)) := by
  have e12 := w1_pos m ρ c
  have e13 := w1_rs m ρ c
  have e0 := w1_zero m ρ c
  show StableHlo.after hostOps0_1 (W1 m ρ c) _ = _
  generalize W1 m ρ c = V1 at e12 e13 e0 ⊢
  simp only [hostOps0_1]
  after_results
  rw [e12, e13, e0]
  rfl

/-- The slots' source words. -/
theorem w3_src : W3 m ρ c (Proc.devRef .tc main_v3) = Cert.Spec.srcW (F := F) (m ((c : Thread nD τ).loc main_arg1)) :=
  (skip0b _ main_v3 (by decide)).trans (w2_src m ρ c)

/-- The slots' target words. -/
theorem w3_dst : W3 m ρ c (Proc.devRef .tc main_v6) = Cert.Spec.dstW (F := F) (m ((c : Thread nD τ).loc main_arg1)) :=
  (skip0b _ main_v6 (by decide)).trans (w2_dst m ρ c)

set_option maxHeartbeats 3200000 in
/-- The slot weights, as a column: the last stretch gathers the inverse square roots at both ends of every slot. -/
theorem w3_norm : W3 m ρ c (Proc.devRef .tc main_v30) = Cert.Spec.normCol (F := F) (m ((c : Thread nD τ).loc main_arg1)) := by
  have e14 := w2_dinv m ρ c
  have e3 := w2_src m ρ c
  have e6 := w2_dst m ρ c
  show StableHlo.after hostOps0_2 (W2 m ρ c) _ = _
  generalize W2 m ρ c = V2 at e14 e3 e6 ⊢
  simp only [hostOps0_2]
  after_results
  rw [e14, e3, e6]
  rfl

/-- The parameter vector b1 as a row: its reshape is its broadcast along the second axis. -/
theorem w3_b1 : W3 m ρ c (Proc.devRef .tc main_v31) = Cert.Spec.row32 (F := F) (m ((c : Thread nD τ).loc main_arg3)) := by
  show StableHlo.after hostOps0_2 (StableHlo.after hostOps0_1 (StableHlo.after hostOps0 (W0 m ρ c))) _ = _
  simp only [hostOps0, hostOps0_1, hostOps0_2]
  after_results
  exact Cert.Lib.RowVector.shapeCast_eq_broadcastInDim (a := 32) _ _ _

/-- The parameter vector g1 as a row: its reshape is its broadcast along the second axis. -/
theorem w3_g1 : W3 m ρ c (Proc.devRef .tc main_v35) = Cert.Spec.row32 (F := F) (m ((c : Thread nD τ).loc main_arg10)) := by
  show StableHlo.after hostOps0_2 (StableHlo.after hostOps0_1 (StableHlo.after hostOps0 (W0 m ρ c))) _ = _
  simp only [hostOps0, hostOps0_1, hostOps0_2]
  after_results
  exact Cert.Lib.RowVector.shapeCast_eq_broadcastInDim (a := 32) _ _ _

/-- The parameter vector be1 as a row: its reshape is its broadcast along the second axis. -/
theorem w3_be1 : W3 m ρ c (Proc.devRef .tc main_v36) = Cert.Spec.row32 (F := F) (m ((c : Thread nD τ).loc main_arg11)) := by
  show StableHlo.after hostOps0_2 (StableHlo.after hostOps0_1 (StableHlo.after hostOps0 (W0 m ρ c))) _ = _
  simp only [hostOps0, hostOps0_1, hostOps0_2]
  after_results
  exact Cert.Lib.RowVector.shapeCast_eq_broadcastInDim (a := 32) _ _ _

/-- The parameter vector rm1 as a row: its reshape is its broadcast along the second axis. -/
theorem w3_rm1 : W3 m ρ c (Proc.devRef .tc main_v37) = Cert.Spec.row32 (F := F) (m ((c : Thread nD τ).loc main_arg12)) := by
  show StableHlo.after hostOps0_2 (StableHlo.after hostOps0_1 (StableHlo.after hostOps0 (W0 m ρ c))) _ = _
  simp only [hostOps0, hostOps0_1, hostOps0_2]
  after_results
  exact Cert.Lib.RowVector.shapeCast_eq_broadcastInDim (a := 32) _ _ _

/-- The parameter vector rv1 as a row: its reshape is its broadcast along the second axis. -/
theorem w3_rv1 : W3 m ρ c (Proc.devRef .tc main_v38) = Cert.Spec.row32 (F := F) (m ((c : Thread nD τ).loc main_arg13)) := by
  show StableHlo.after hostOps0_2 (StableHlo.after hostOps0_1 (StableHlo.after hostOps0 (W0 m ρ c))) _ = _
  simp only [hostOps0, hostOps0_1, hostOps0_2]
  after_results
  exact Cert.Lib.RowVector.shapeCast_eq_broadcastInDim (a := 32) _ _ _

/-- The parameter vector b2 as a row: its reshape is its broadcast along the second axis. -/
theorem w3_b2 : W3 m ρ c (Proc.devRef .tc main_v32) = Cert.Spec.row64 (F := F) (m ((c : Thread nD τ).loc main_arg5)) := by
  show StableHlo.after hostOps0_2 (StableHlo.after hostOps0_1 (StableHlo.after hostOps0 (W0 m ρ c))) _ = _
  simp only [hostOps0, hostOps0_1, hostOps0_2]
  after_results
  exact Cert.Lib.RowVector.shapeCast_eq_broadcastInDim (a := 64) _ _ _

/-- The parameter vector g2 as a row: its reshape is its broadcast along the second axis. -/
theorem w3_g2 : W3 m ρ c (Proc.devRef .tc main_v39) = Cert.Spec.row64 (F := F) (m ((c : Thread nD τ).loc main_arg14)) := by
  show StableHlo.after hostOps0_2 (StableHlo.after hostOps0_1 (StableHlo.after hostOps0 (W0 m ρ c))) _ = _
  simp only [hostOps0, hostOps0_1, hostOps0_2]
  after_results
  exact Cert.Lib.RowVector.shapeCast_eq_broadcastInDim (a := 64) _ _ _

/-- The parameter vector be2 as a row: its reshape is its broadcast along the second axis. -/
theorem w3_be2 : W3 m ρ c (Proc.devRef .tc main_v40) = Cert.Spec.row64 (F := F) (m ((c : Thread nD τ).loc main_arg15)) := by
  show StableHlo.after hostOps0_2 (StableHlo.after hostOps0_1 (StableHlo.after hostOps0 (W0 m ρ c))) _ = _
  simp only [hostOps0, hostOps0_1, hostOps0_2]
  after_results
  exact Cert.Lib.RowVector.shapeCast_eq_broadcastInDim (a := 64) _ _ _

/-- The parameter vector rm2 as a row: its reshape is its broadcast along the second axis. -/
theorem w3_rm2 : W3 m ρ c (Proc.devRef .tc main_v41) = Cert.Spec.row64 (F := F) (m ((c : Thread nD τ).loc main_arg16)) := by
  show StableHlo.after hostOps0_2 (StableHlo.after hostOps0_1 (StableHlo.after hostOps0 (W0 m ρ c))) _ = _
  simp only [hostOps0, hostOps0_1, hostOps0_2]
  after_results
  exact Cert.Lib.RowVector.shapeCast_eq_broadcastInDim (a := 64) _ _ _

/-- The parameter vector rv2 as a row: its reshape is its broadcast along the second axis. -/
theorem w3_rv2 : W3 m ρ c (Proc.devRef .tc main_v42) = Cert.Spec.row64 (F := F) (m ((c : Thread nD τ).loc main_arg17)) := by
  show StableHlo.after hostOps0_2 (StableHlo.after hostOps0_1 (StableHlo.after hostOps0 (W0 m ρ c))) _ = _
  simp only [hostOps0, hostOps0_1, hostOps0_2]
  after_results
  exact Cert.Lib.RowVector.shapeCast_eq_broadcastInDim (a := 64) _ _ _

/-- The parameter vector b3 as a row: its reshape is its broadcast along the second axis. -/
theorem w3_b3 : W3 m ρ c (Proc.devRef .tc main_v33) = Cert.Spec.row128 (F := F) (m ((c : Thread nD τ).loc main_arg7)) := by
  show StableHlo.after hostOps0_2 (StableHlo.after hostOps0_1 (StableHlo.after hostOps0 (W0 m ρ c))) _ = _
  simp only [hostOps0, hostOps0_1, hostOps0_2]
  after_results
  exact Cert.Lib.RowVector.shapeCast_eq_broadcastInDim (a := 128) _ _ _

/-- The parameter vector g3 as a row: its reshape is its broadcast along the second axis. -/
theorem w3_g3 : W3 m ρ c (Proc.devRef .tc main_v43) = Cert.Spec.row128 (F := F) (m ((c : Thread nD τ).loc main_arg18)) := by
  show StableHlo.after hostOps0_2 (StableHlo.after hostOps0_1 (StableHlo.after hostOps0 (W0 m ρ c))) _ = _
  simp only [hostOps0, hostOps0_1, hostOps0_2]
  after_results
  exact Cert.Lib.RowVector.shapeCast_eq_broadcastInDim (a := 128) _ _ _

/-- The parameter vector be3 as a row: its reshape is its broadcast along the second axis. -/
theorem w3_be3 : W3 m ρ c (Proc.devRef .tc main_v44) = Cert.Spec.row128 (F := F) (m ((c : Thread nD τ).loc main_arg19)) := by
  show StableHlo.after hostOps0_2 (StableHlo.after hostOps0_1 (StableHlo.after hostOps0 (W0 m ρ c))) _ = _
  simp only [hostOps0, hostOps0_1, hostOps0_2]
  after_results
  exact Cert.Lib.RowVector.shapeCast_eq_broadcastInDim (a := 128) _ _ _

/-- The parameter vector rm3 as a row: its reshape is its broadcast along the second axis. -/
theorem w3_rm3 : W3 m ρ c (Proc.devRef .tc main_v45) = Cert.Spec.row128 (F := F) (m ((c : Thread nD τ).loc main_arg20)) := by
  show StableHlo.after hostOps0_2 (StableHlo.after hostOps0_1 (StableHlo.after hostOps0 (W0 m ρ c))) _ = _
  simp only [hostOps0, hostOps0_1, hostOps0_2]
  after_results
  exact Cert.Lib.RowVector.shapeCast_eq_broadcastInDim (a := 128) _ _ _

/-- The parameter vector rv3 as a row: its reshape is its broadcast along the second axis. -/
theorem w3_rv3 : W3 m ρ c (Proc.devRef .tc main_v46) = Cert.Spec.row128 (F := F) (m ((c : Thread nD τ).loc main_arg21)) := by
  show StableHlo.after hostOps0_2 (StableHlo.after hostOps0_1 (StableHlo.after hostOps0 (W0 m ρ c))) _ = _
  simp only [hostOps0, hostOps0_1, hostOps0_2]
  after_results
  exact Cert.Lib.RowVector.shapeCast_eq_broadcastInDim (a := 128) _ _ _

/-- The parameter vector b4 as a row: its reshape is its broadcast along the second axis. -/
theorem w3_b4 : W3 m ρ c (Proc.devRef .tc main_v34) = Cert.Spec.row1 (F := F) (m ((c : Thread nD τ).loc main_arg9)) := by
  show StableHlo.after hostOps0_2 (StableHlo.after hostOps0_1 (StableHlo.after hostOps0 (W0 m ρ c))) _ = _
  simp only [hostOps0, hostOps0_1, hostOps0_2]
  after_results
  exact Cert.Lib.RowVector.shapeCast_eq_broadcastInDim (a := 1) _ _ _

/-- Argument 0 is as launched when the first region is entered. -/
theorem w3_arg0 : W3 m ρ c (Proc.devRef .tc main_arg0) = m ((c : Thread nD τ).loc main_arg0) :=
  (skip0b _ main_arg0 (by decide)).trans ((skip0a _ main_arg0 (by decide)).trans (skip0 _ main_arg0 (by decide)))

/-- Argument 2 is as launched when the first region is entered. -/
theorem w3_arg2 : W3 m ρ c (Proc.devRef .tc main_arg2) = m ((c : Thread nD τ).loc main_arg2) :=
  (skip0b _ main_arg2 (by decide)).trans ((skip0a _ main_arg2 (by decide)).trans (skip0 _ main_arg2 (by decide)))

/-- Argument 4 is as launched when the first region is entered. -/
theorem w3_arg4 : W3 m ρ c (Proc.devRef .tc main_arg4) = m ((c : Thread nD τ).loc main_arg4) :=
  (skip0b _ main_arg4 (by decide)).trans ((skip0a _ main_arg4 (by decide)).trans (skip0 _ main_arg4 (by decide)))

/-- Argument 6 is as launched when the first region is entered. -/
theorem w3_arg6 : W3 m ρ c (Proc.devRef .tc main_arg6) = m ((c : Thread nD τ).loc main_arg6) :=
  (skip0b _ main_arg6 (by decide)).trans ((skip0a _ main_arg6 (by decide)).trans (skip0 _ main_arg6 (by decide)))

/-- Argument 8 is as launched when the first region is entered. -/
theorem w3_arg8 : W3 m ρ c (Proc.devRef .tc main_arg8) = m ((c : Thread nD τ).loc main_arg8) :=
  (skip0b _ main_arg8 (by decide)).trans ((skip0a _ main_arg8 (by decide)).trans (skip0 _ main_arg8 (by decide)))

end Cert.KernelIdeal.KFold

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.Lin0.lean ====
/-
  The first matrix-product region: a grid of 10 points over the 100000 rows. Point `t` multiplies rows
  `10000 t … 10000 t + 9999` of the left operand `[100000, 64]` by the whole right operand `[64, 32]` (the casts to
  the narrower float format are the identity on the extended reals, and the accumulator starts at zero) and writes the
  `[10000, 32]` result to the same rows of the output. Entry `(p, q)` of a block product is `∑ k, l(10000 t + p, k) · r(k, q)`,
  which is entry `(10000 t + p, q)` of the whole-array product; row `r` of the output is written by point `r / 10000`, so the
  output array after the region is the whole-array product of the two operand arrays as the region finds them.
-/
import proofs.«122410_j40535901339683_1_alg».proof.Proof.Gen.KernelIdeal.Frame
import proofs.«122410_j40535901339683_1_alg».proof.Proof.Gen.ReferenceIdeal
import proofs.«122410_j40535901339683_1_alg».proof.Proof.LibMatmul
import Idealize.ShloMosaic.Lib.Pipeline.Value

open scoped BigOperators
noncomputable section
namespace Cert.KVal
open Idealize.ShloMosaic Idealize.ShloMosaic.ValueIdx Idealize.ShloMosaic.TcCoe Idealize.SL.Sem
open Idealize.ShloMosaic.Pipeline (Dat)
open Cert.KernelIdeal Cert.KernelIdeal.Gen

/-- The zero offsets of a whole-block access, as a constant function. -/
theorem zero_off0 : (![0, 0] : Fin 2 → Nat) = fun _ => 0 := funext fun a => by fin_cases a <;> rfl

/-- The block product at row `p`, column `q` is the sum over the contracted axis. -/
theorem pay0_apply (x0 : Vec Ideal S10000x64 .f32) (x1 : Vec Ideal S64x32 .f32) (p : Fin 10000) (q : Fin 32) :
    k0_pay1 (F := Ideal) x0 x1 (ix2 p q) = ∑ k : Fin 64, x0 (ix2 p k) * x1 (ix2 k q) := by
  unfold k0_pay1
  exact Cert.MatOps.matmul_plain_zero_apply (M := 10000) (K := 64) (N := 32) (φ₁ := .bf16) (φ₂ := .bf16) none x0 x1 p q

/-- The whole-array product of `l : [100000, 64]` and `r : [64, 32]`. -/
abbrev prod0 (l : FVec Ideal S100000x64 .f32) (r : FVec Ideal S64x32 .f32) : FVec Ideal S100000x32 .f32 :=
  Host.dotGeneral (F := Ideal) Cert.ReferenceIdeal.dot_S100000x64_S64x32_S100000x32_1_0_0_1_n_n none l r

/-- Its entry `(i, q)` is the sum over the contracted axis. -/
theorem prod0_apply (l : FVec Ideal S100000x64 .f32) (r : FVec Ideal S64x32 .f32) (i : Fin 100000) (q : Fin 32) :
    prod0 l r (ix2 i q) = ∑ k : Fin 64, l (ix2 i k) * r (ix2 k q) :=
  Cert.MatOps.dotGeneral_plain_apply (M := 100000) (K := 64) (N := 32) (φ₁ := .f32) (φ₂ := .f32) none l r i q

/-- A row block `x0` of the left operand `l` (row `j 0` of the block is row `e 0` of `l`) times the whole right operand is
    the same rows of the whole product. -/
theorem block0_value (l : FVec Ideal S100000x64 .f32) (r : FVec Ideal S64x32 .f32)
    (x0 : Vec Ideal S10000x64 .f32) (x1 : Vec Ideal S64x32 .f32) (j : S10000x32.Idx) (e : S100000x32.Idx)
    (he : (e 1).val = (j 1).val)
    (h0 : ∀ (y : S10000x64.Idx) (i : S100000x64.Idx), (y 0).val = (j 0).val → (i 0).val = (e 0).val → (i 1).val = (y 1).val → x0 y = l i)
    (h1 : ∀ y : S64x32.Idx, x1 y = r y) :
    k0_pay1 (F := Ideal) x0 x1 j = prod0 l r e := by
  obtain ⟨p, q, rfl⟩ : ∃ (p : Fin 10000) (q : Fin 32), j = ix2 p q := ⟨j 0, j 1, eq_ix2 j⟩
  obtain ⟨i, q', rfl⟩ : ∃ (i : Fin 100000) (q' : Fin 32), e = ix2 i q' := ⟨e 0, e 1, eq_ix2 e⟩
  obtain rfl : q' = q := Fin.ext he
  rw [pay0_apply, prod0_apply]
  refine Finset.sum_congr rfl fun k _ => ?_
  rw [h0 (ix2 p k) (ix2 i k) rfl rfl rfl, h1]

/-- The windows' block indices at every grid point: the two row-block windows sit at block `(t, 0)`, the right operand's at `(0, 0)`. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What grid point `t` writes back is rows `10000 t … 10000 t + 9999` of the whole product. -/
theorem flushed0 (c : Dev nD) (t : Fin cfg0.N) :
    (dat0 (F := Ideal) V c).flushed 2 t = ((cfg0.win 2).blk t).view.read (Elt Ideal)
      (prod0 (V c (Pipeline.arrRef spec0 0)) (V c (Pipeline.arrRef spec0 1))) := by
  show (cfg0.win 2).cut (grid0.coords t) ((dat0 V c).after 2 t) = _
  rw [after0_2]
  unfold out0_2
  rw [View.canon_unit_zero zero_off0]
  simp only [View.ld_unit_zero (S := S10000x64) zero_off0, View.ld_unit_zero (S := S64x32) zero_off0]
  obtain ⟨e0, e1, e2, e3, e4, e5⟩ := idx_facts0 t
  funext j
  show k0_pay1 (iblk0 V c 0 t) (iblk0 V c 1 t) j = prod0 (V c (Pipeline.arrRef spec0 0)) (V c (Pipeline.arrRef spec0 1)) (((cfg0.win 2).blk t).view.emb j)
  refine block0_value _ _ (iblk0 V c 0 t) (iblk0 V c 1 t) j _ ?_ ?_ ?_
  · show win0_2.index t (1 : Fin 2) * 32 + 1 * (j 1).val = (j 1).val
    omega
  · intro y i hy hi0 hi1
    show V c (Pipeline.arrRef spec0 0) (((cfg0.win 0).blk t).view.emb y) = V c (Pipeline.arrRef spec0 0) i
    refine congrArg _ (funext fun a => Fin.ext ?_)
    match a with
    | ⟨0, _⟩ =>
      show win0_0.index t (0 : Fin 2) * 10000 + 1 * (y 0).val = (i 0).val
      have hi0' : (i 0).val = win0_2.index t (0 : Fin 2) * 10000 + 1 * (j 0).val := hi0
      omega
    | ⟨1, _⟩ =>
      show win0_0.index t (1 : Fin 2) * 64 + 1 * (y 1).val = (i 1).val
      omega
  · intro y
    show V c (Pipeline.arrRef spec0 1) (((cfg0.win 1).blk t).view.emb y) = V c (Pipeline.arrRef spec0 1) y
    refine congrArg _ (funext fun a => Fin.ext ?_)
    match a with
    | ⟨0, _⟩ =>
      show win0_1.index t (0 : Fin 2) * 64 + 1 * (y 0).val = (y 0).val
      omega
    | ⟨1, _⟩ =>
      show win0_1.index t (1 : Fin 2) * 32 + 1 * (y 1).val = (y 1).val
      omega

/-- An index of the output array lies in point `t`'s block iff each coordinate lies in the block's range on its axis. -/
theorem mem_blk0 (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v47).slice (win0_2.rect t)).set ↔ _
  rw [View.set_slice_whole, Rect.mem_set_unit]
  exact Iff.rfl

/-- Row `r` of the output is written back by grid point `r / 10000`. -/
theorem cover0 (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 10 := N_0
  have ht : (i 0).val / 10000 < cfg0.N := by rw [hN]; omega
  obtain ⟨e0, e1, e2, e3, e4, e5⟩ := idx_facts0 ⟨(i 0).val / 10000, ht⟩
  refine ⟨⟨(i 0).val / 10000, ht⟩, flush0_2 _, ?_⟩
  rw [mem_blk0]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, ht⟩ (1 : Fin 2) * 32 ≤ (i 1).val ∧ (i 1).val < win0_2.index ⟨(i 0).val / 10000, ht⟩ (1 : Fin 2) * 32 + 32
    rw [e5]
    omega

/-- The output array of the first matrix-product region, after the region, is the whole-array product of the region's two
    operand arrays as the region finds them. -/
theorem lin0 (c : Dev nD) :
    (dat0 (F := Ideal) V c).arrAt 2 cfg0.N
      = Host.dotGeneral (F := Ideal) (φ₁ := .f32) (φ₂ := .f32) Cert.ReferenceIdeal.dot_S100000x64_S64x32_S100000x32_1_0_0_1_n_n none
          (V c (Pipeline.arrRef spec0 0)) (V c (Pipeline.arrRef spec0 1)) :=
  (dat0 V c).arrAt_eq_of_cover 2 (prod0 (V c (Pipeline.arrRef spec0 0)) (V c (Pipeline.arrRef spec0 1))) (fun t _ => flushed0 V c t) cover0
end

end Cert.KVal
-- ==== Proof.Lin2.lean ====
/-
  The second matrix-product region: a grid of 10 points over the 100000 rows. Point `t` multiplies rows
  `10000 t … 10000 t + 9999` of the left operand `[100000, 32]` by the whole right operand `[32, 64]` (the casts to
  the narrower float format are the identity on the extended reals, and the accumulator starts at zero) and writes the
  `[10000, 64]` result to the same rows of the output. Entry `(p, q)` of a block product is `∑ k, l(10000 t + p, k) · r(k, q)`,
  which is entry `(10000 t + p, q)` of the whole-array product; row `r` of the output is written by point `r / 10000`, so the
  output array after the region is the whole-array product of the two operand arrays as the region finds them.
-/
import proofs.«122410_j40535901339683_1_alg».proof.Proof.Gen.KernelIdeal.Frame
import proofs.«122410_j40535901339683_1_alg».proof.Proof.Gen.ReferenceIdeal
import proofs.«122410_j40535901339683_1_alg».proof.Proof.LibMatmul
import Idealize.ShloMosaic.Lib.Pipeline.Value

open scoped BigOperators
noncomputable section
namespace Cert.KVal
open Idealize.ShloMosaic Idealize.ShloMosaic.ValueIdx Idealize.ShloMosaic.TcCoe Idealize.SL.Sem
open Idealize.ShloMosaic.Pipeline (Dat)
open Cert.KernelIdeal Cert.KernelIdeal.Gen

/-- The zero offsets of a whole-block access, as a constant function. -/
theorem zero_off2 : (![0, 0] : Fin 2 → Nat) = fun _ => 0 := funext fun a => by fin_cases a <;> rfl

/-- The block product at row `p`, column `q` is the sum over the contracted axis. -/
theorem pay2_apply (x0 : Vec Ideal S10000x32 .f32) (x1 : Vec Ideal S32x64 .f32) (p : Fin 10000) (q : Fin 64) :
    k2_pay1 (F := Ideal) x0 x1 (ix2 p q) = ∑ k : Fin 32, x0 (ix2 p k) * x1 (ix2 k q) := by
  unfold k2_pay1
  simp only [shapeCast_self]
  exact Cert.MatOps.matmul_plain_zero_apply (M := 10000) (K := 32) (N := 64) (φ₁ := .bf16) (φ₂ := .bf16) none x0 x1 p q

/-- The whole-array product of `l : [100000, 32]` and `r : [32, 64]`. -/
abbrev prod2 (l : FVec Ideal S100000x32 .f32) (r : FVec Ideal S32x64 .f32) : FVec Ideal S100000x64 .f32 :=
  Host.dotGeneral (F := Ideal) Cert.ReferenceIdeal.dot_S100000x32_S32x64_S100000x64_1_0_0_1_n_n none l r

/-- Its entry `(i, q)` is the sum over the contracted axis. -/
theorem prod2_apply (l : FVec Ideal S100000x32 .f32) (r : FVec Ideal S32x64 .f32) (i : Fin 100000) (q : Fin 64) :
    prod2 l r (ix2 i q) = ∑ k : Fin 32, l (ix2 i k) * r (ix2 k q) :=
  Cert.MatOps.dotGeneral_plain_apply (M := 100000) (K := 32) (N := 64) (φ₁ := .f32) (φ₂ := .f32) none l r i q

/-- A row block `x0` of the left operand `l` (row `j 0` of the block is row `e 0` of `l`) times the whole right operand is
    the same rows of the whole product. -/
theorem block2_value (l : FVec Ideal S100000x32 .f32) (r : FVec Ideal S32x64 .f32)
    (x0 : Vec Ideal S10000x32 .f32) (x1 : Vec Ideal S32x64 .f32) (j : S10000x64.Idx) (e : S100000x64.Idx)
    (he : (e 1).val = (j 1).val)
    (h0 : ∀ (y : S10000x32.Idx) (i : S100000x32.Idx), (y 0).val = (j 0).val → (i 0).val = (e 0).val → (i 1).val = (y 1).val → x0 y = l i)
    (h1 : ∀ y : S32x64.Idx, x1 y = r y) :
    k2_pay1 (F := Ideal) x0 x1 j = prod2 l r e := by
  obtain ⟨p, q, rfl⟩ : ∃ (p : Fin 10000) (q : Fin 64), j = ix2 p q := ⟨j 0, j 1, eq_ix2 j⟩
  obtain ⟨i, q', rfl⟩ : ∃ (i : Fin 100000) (q' : Fin 64), e = ix2 i q' := ⟨e 0, e 1, eq_ix2 e⟩
  obtain rfl : q' = q := Fin.ext he
  rw [pay2_apply, prod2_apply]
  refine Finset.sum_congr rfl fun k _ => ?_
  rw [h0 (ix2 p k) (ix2 i k) rfl rfl rfl, h1]

/-- The windows' block indices at every grid point: the two row-block windows sit at block `(t, 0)`, the right operand's at `(0, 0)`. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b))

/-- What grid point `t` writes back is rows `10000 t … 10000 t + 9999` of the whole product. -/
theorem flushed2 (c : Dev nD) (t : Fin cfg2.N) :
    (dat2 (F := Ideal) V c).flushed 2 t = ((cfg2.win 2).blk t).view.read (Elt Ideal)
      (prod2 (V c (Pipeline.arrRef spec2 0)) (V c (Pipeline.arrRef spec2 1))) := by
  show (cfg2.win 2).cut (grid2.coords t) ((dat2 V c).after 2 t) = _
  rw [after2_2]
  unfold out2_2
  rw [View.canon_unit_zero zero_off2]
  simp only [View.ld_unit_zero (S := S10000x32) zero_off2, View.ld_unit_zero (S := S32x64) zero_off2]
  obtain ⟨e0, e1, e2, e3, e4, e5⟩ := idx_facts2 t
  funext j
  show k2_pay1 (iblk2 V c 0 t) (iblk2 V c 1 t) j = prod2 (V c (Pipeline.arrRef spec2 0)) (V c (Pipeline.arrRef spec2 1)) (((cfg2.win 2).blk t).view.emb j)
  refine block2_value _ _ (iblk2 V c 0 t) (iblk2 V c 1 t) j _ ?_ ?_ ?_
  · show win2_2.index t (1 : Fin 2) * 64 + 1 * (j 1).val = (j 1).val
    omega
  · intro y i hy hi0 hi1
    show V c (Pipeline.arrRef spec2 0) (((cfg2.win 0).blk t).view.emb y) = V c (Pipeline.arrRef spec2 0) i
    refine congrArg _ (funext fun a => Fin.ext ?_)
    match a with
    | ⟨0, _⟩ =>
      show win2_0.index t (0 : Fin 2) * 10000 + 1 * (y 0).val = (i 0).val
      have hi0' : (i 0).val = win2_2.index t (0 : Fin 2) * 10000 + 1 * (j 0).val := hi0
      omega
    | ⟨1, _⟩ =>
      show win2_0.index t (1 : Fin 2) * 32 + 1 * (y 1).val = (i 1).val
      omega
  · intro y
    show V c (Pipeline.arrRef spec2 1) (((cfg2.win 1).blk t).view.emb y) = V c (Pipeline.arrRef spec2 1) y
    refine congrArg _ (funext fun a => Fin.ext ?_)
    match a with
    | ⟨0, _⟩ =>
      show win2_1.index t (0 : Fin 2) * 32 + 1 * (y 0).val = (y 0).val
      omega
    | ⟨1, _⟩ =>
      show win2_1.index t (1 : Fin 2) * 64 + 1 * (y 1).val = (y 1).val
      omega

/-- An index of the output array lies in point `t`'s block iff each coordinate lies in the block's range on its axis. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v61).slice (win2_2.rect t)).set ↔ _
  rw [View.set_slice_whole, Rect.mem_set_unit]
  exact Iff.rfl

/-- Row `r` of the output is written back by grid point `r / 10000`. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  have ht : (i 0).val / 10000 < cfg2.N := by rw [hN]; omega
  obtain ⟨e0, e1, e2, e3, e4, e5⟩ := idx_facts2 ⟨(i 0).val / 10000, ht⟩
  refine ⟨⟨(i 0).val / 10000, ht⟩, flush2_2 _, ?_⟩
  rw [mem_blk2]
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, ht⟩ (1 : Fin 2) * 64 ≤ (i 1).val ∧ (i 1).val < win2_2.index ⟨(i 0).val / 10000, ht⟩ (1 : Fin 2) * 64 + 64
    rw [e5]
    omega

/-- The output array of the second matrix-product region, after the region, is the whole-array product of the region's two
    operand arrays as the region finds them. -/
theorem lin2 (c : Dev nD) :
    (dat2 (F := Ideal) V c).arrAt 2 cfg2.N
      = Host.dotGeneral (F := Ideal) (φ₁ := .f32) (φ₂ := .f32) Cert.ReferenceIdeal.dot_S100000x32_S32x64_S100000x64_1_0_0_1_n_n none
          (V c (Pipeline.arrRef spec2 0)) (V c (Pipeline.arrRef spec2 1)) :=
  (dat2 V c).arrAt_eq_of_cover 2 (prod2 (V c (Pipeline.arrRef spec2 0)) (V c (Pipeline.arrRef spec2 1))) (fun t _ => flushed2 V c t) cover2
end

end Cert.KVal
-- ==== Proof.Lin4.lean ====
/-
  The third matrix-product region: a grid of 10 points over the 100000 rows. Point `t` multiplies rows
  `10000 t … 10000 t + 9999` of the left operand `[100000, 64]` by the whole right operand `[64, 128]` (the casts to
  the narrower float format are the identity on the extended reals, and the accumulator starts at zero) and writes the
  `[10000, 128]` result to the same rows of the output. Entry `(p, q)` of a block product is `∑ k, l(10000 t + p, k) · r(k, q)`,
  which is entry `(10000 t + p, q)` of the whole-array product; row `r` of the output is written by point `r / 10000`, so the
  output array after the region is the whole-array product of the two operand arrays as the region finds them.
-/
import proofs.«122410_j40535901339683_1_alg».proof.Proof.Gen.KernelIdeal.Frame
import proofs.«122410_j40535901339683_1_alg».proof.Proof.Gen.ReferenceIdeal
import proofs.«122410_j40535901339683_1_alg».proof.Proof.LibMatmul
import Idealize.ShloMosaic.Lib.Pipeline.Value

open scoped BigOperators
noncomputable section
namespace Cert.KVal
open Idealize.ShloMosaic Idealize.ShloMosaic.ValueIdx Idealize.ShloMosaic.TcCoe Idealize.SL.Sem
open Idealize.ShloMosaic.Pipeline (Dat)
open Cert.KernelIdeal Cert.KernelIdeal.Gen

/-- The zero offsets of a whole-block access, as a constant function. -/
theorem zero_off4 : (![0, 0] : Fin 2 → Nat) = fun _ => 0 := funext fun a => by fin_cases a <;> rfl

/-- The block product at row `p`, column `q` is the sum over the contracted axis. -/
theorem pay4_apply (x0 : Vec Ideal S10000x64 .f32) (x1 : Vec Ideal S64x128 .f32) (p : Fin 10000) (q : Fin 128) :
    k4_pay1 (F := Ideal) x0 x1 (ix2 p q) = ∑ k : Fin 64, x0 (ix2 p k) * x1 (ix2 k q) := by
  unfold k4_pay1
  simp only [shapeCast_self]
  exact Cert.MatOps.matmul_plain_zero_apply (M := 10000) (K := 64) (N := 128) (φ₁ := .bf16) (φ₂ := .bf16) none x0 x1 p q

/-- The whole-array product of `l : [100000, 64]` and `r : [64, 128]`. -/
abbrev prod4 (l : FVec Ideal S100000x64 .f32) (r : FVec Ideal S64x128 .f32) : FVec Ideal S100000x128 .f32 :=
  Host.dotGeneral (F := Ideal) Cert.ReferenceIdeal.dot_S100000x64_S64x128_S100000x128_1_0_0_1_n_n none l r

/-- Its entry `(i, q)` is the sum over the contracted axis. -/
theorem prod4_apply (l : FVec Ideal S100000x64 .f32) (r : FVec Ideal S64x128 .f32) (i : Fin 100000) (q : Fin 128) :
    prod4 l r (ix2 i q) = ∑ k : Fin 64, l (ix2 i k) * r (ix2 k q) :=
  Cert.MatOps.dotGeneral_plain_apply (M := 100000) (K := 64) (N := 128) (φ₁ := .f32) (φ₂ := .f32) none l r i q

/-- A row block `x0` of the left operand `l` (row `j 0` of the block is row `e 0` of `l`) times the whole right operand is
    the same rows of the whole product. -/
theorem block4_value (l : FVec Ideal S100000x64 .f32) (r : FVec Ideal S64x128 .f32)
    (x0 : Vec Ideal S10000x64 .f32) (x1 : Vec Ideal S64x128 .f32) (j : S10000x128.Idx) (e : S100000x128.Idx)
    (he : (e 1).val = (j 1).val)
    (h0 : ∀ (y : S10000x64.Idx) (i : S100000x64.Idx), (y 0).val = (j 0).val → (i 0).val = (e 0).val → (i 1).val = (y 1).val → x0 y = l i)
    (h1 : ∀ y : S64x128.Idx, x1 y = r y) :
    k4_pay1 (F := Ideal) x0 x1 j = prod4 l r e := by
  obtain ⟨p, q, rfl⟩ : ∃ (p : Fin 10000) (q : Fin 128), j = ix2 p q := ⟨j 0, j 1, eq_ix2 j⟩
  obtain ⟨i, q', rfl⟩ : ∃ (i : Fin 100000) (q' : Fin 128), e = ix2 i q' := ⟨e 0, e 1, eq_ix2 e⟩
  obtain rfl : q' = q := Fin.ext he
  rw [pay4_apply, prod4_apply]
  refine Finset.sum_congr rfl fun k _ => ?_
  rw [h0 (ix2 p k) (ix2 i k) rfl rfl rfl, h1]

/-- The windows' block indices at every grid point: the two row-block windows sit at block `(t, 0)`, the right operand's at `(0, 0)`. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

section
variable (V : (c : Dev nD) → (b : Ref sig .tc) → Buf (Elt Ideal) ((c : Thread nD τ).loc b))

/-- What grid point `t` writes back is rows `10000 t … 10000 t + 9999` of the whole product. -/
theorem flushed4 (c : Dev nD) (t : Fin cfg4.N) :
    (dat4 (F := Ideal) V c).flushed 2 t = ((cfg4.win 2).blk t).view.read (Elt Ideal)
      (prod4 (V c (Pipeline.arrRef spec4 0)) (V c (Pipeline.arrRef spec4 1))) := by
  show (cfg4.win 2).cut (grid4.coords t) ((dat4 V c).after 2 t) = _
  rw [after4_2]
  unfold out4_2
  rw [View.canon_unit_zero zero_off4]
  simp only [View.ld_unit_zero (S := S10000x64) zero_off4, View.ld_unit_zero (S := S64x128) zero_off4]
  obtain ⟨e0, e1, e2, e3, e4, e5⟩ := idx_facts4 t
  funext j
  show k4_pay1 (iblk4 V c 0 t) (iblk4 V c 1 t) j = prod4 (V c (Pipeline.arrRef spec4 0)) (V c (Pipeline.arrRef spec4 1)) (((cfg4.win 2).blk t).view.emb j)
  refine block4_value _ _ (iblk4 V c 0 t) (iblk4 V c 1 t) j _ ?_ ?_ ?_
  · show win4_2.index t (1 : Fin 2) * 128 + 1 * (j 1).val = (j 1).val
    omega
  · intro y i hy hi0 hi1
    show V c (Pipeline.arrRef spec4 0) (((cfg4.win 0).blk t).view.emb y) = V c (Pipeline.arrRef spec4 0) i
    refine congrArg _ (funext fun a => Fin.ext ?_)
    match a with
    | ⟨0, _⟩ =>
      show win4_0.index t (0 : Fin 2) * 10000 + 1 * (y 0).val = (i 0).val
      have hi0' : (i 0).val = win4_2.index t (0 : Fin 2) * 10000 + 1 * (j 0).val := hi0
      omega
    | ⟨1, _⟩ =>
      show win4_0.index t (1 : Fin 2) * 64 + 1 * (y 1).val = (i 1).val
      omega
  · intro y
    show V c (Pipeline.arrRef spec4 1) (((cfg4.win 1).blk t).view.emb y) = V c (Pipeline.arrRef spec4 1) y
    refine congrArg _ (funext fun a => Fin.ext ?_)
    match a with
    | ⟨0, _⟩ =>
      show win4_1.index t (0 : Fin 2) * 64 + 1 * (y 0).val = (y 0).val
      omega
    | ⟨1, _⟩ =>
      show win4_1.index t (1 : Fin 2) * 128 + 1 * (y 1).val = (y 1).val
      omega

/-- An index of the output array lies in point `t`'s block iff each coordinate lies in the block's range on its axis. -/
theorem mem_blk4 (t : Fin cfg4.N) (i : S100000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v75).slice (win4_2.rect t)).set ↔ _
  rw [View.set_slice_whole, Rect.mem_set_unit]
  exact Iff.rfl

/-- Row `r` of the output is written back by grid point `r / 10000`. -/
theorem cover4 (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 10 := N_4
  have ht : (i 0).val / 10000 < cfg4.N := by rw [hN]; omega
  obtain ⟨e0, e1, e2, e3, e4, e5⟩ := idx_facts4 ⟨(i 0).val / 10000, ht⟩
  refine ⟨⟨(i 0).val / 10000, ht⟩, flush4_2 _, ?_⟩
  rw [mem_blk4]
  intro a
  match a with
  | ⟨0, _⟩ =>
    show win4_2.index ⟨(i 0).val / 10000, ht⟩ (0 : Fin 2) * 10000 ≤ (i 0).val ∧ (i 0).val < win4_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win4_2.index ⟨(i 0).val / 10000, ht⟩ (1 : Fin 2) * 128 ≤ (i 1).val ∧ (i 1).val < win4_2.index ⟨(i 0).val / 10000, ht⟩ (1 : Fin 2) * 128 + 128
    rw [e5]
    omega

/-- The output array of the third matrix-product region, after the region, is the whole-array product of the region's two
    operand arrays as the region finds them. -/
theorem lin4 (c : Dev nD) :
    (dat4 (F := Ideal) V c).arrAt 2 cfg4.N
      = Host.dotGeneral (F := Ideal) (φ₁ := .f32) (φ₂ := .f32) Cert.ReferenceIdeal.dot_S100000x64_S64x128_S100000x128_1_0_0_1_n_n none
          (V c (Pipeline.arrRef spec4 0)) (V c (Pipeline.arrRef spec4 1)) :=
  (dat4 V c).arrAt_eq_of_cover 2 (prod4 (V c (Pipeline.arrRef spec4 0)) (V c (Pipeline.arrRef spec4 1))) (fun t _ => flushed4 V c t) cover4
end

end Cert.KVal
-- ==== Proof.Lin6.lean ====
/-
  The fourth matrix-product region: a grid of 10 points over the 100000 rows. Point `t` multiplies rows
  `10000 t … 10000 t + 9999` of the left operand `[100000, 128]` by the whole right operand `[128, 1]` (the casts to
  the narrower float format are the identity on the extended reals, and the accumulator starts at zero) and writes the
  `[10000, 1]` result to the same rows of the output. Entry `(p, q)` of a block product is `∑ k, l(10000 t + p, k) · r(k, q)`,
  which is entry `(10000 t + p, q)` of the whole-array product; row `r` of the output is written by point `r / 10000`, so the
  output array after the region is the whole-array product of the two operand arrays as the region finds them.
-/
import proofs.«122410_j40535901339683_1_alg».proof.Proof.Gen.KernelIdeal.Frame
import proofs.«122410_j40535901339683_1_alg».proof.Proof.Gen.ReferenceIdeal
import proofs.«122410_j40535901339683_1_alg».proof.Proof.LibMatmul
import Idealize.ShloMosaic.Lib.Pipeline.Value

open scoped BigOperators
noncomputable section
namespace Cert.KVal
open Idealize.ShloMosaic Idealize.ShloMosaic.ValueIdx Idealize.ShloMosaic.TcCoe Idealize.SL.Sem
open Idealize.ShloMosaic.Pipeline (Dat)
open Cert.KernelIdeal Cert.KernelIdeal.Gen

/-- The zero offsets of a whole-block access, as a constant function. -/
theorem zero_off6 : (![0, 0] : Fin 2 → Nat) = fun _ => 0 := funext fun a => by fin_cases a <;> rfl

/-- The block product at row `p`, column `q` is the sum over the contracted axis. -/
theorem pay6_apply (x0 : Vec Ideal S10000x128 .f32) (x1 : Vec Ideal S128x1 .f32) (p : Fin 10000) (q : Fin 1) :
    k6_pay1 (F := Ideal) x0 x1 (ix2 p q) = ∑ k : Fin 128, x0 (ix2 p k) * x1 (ix2 k q) := by
  unfold k6_pay1
  simp only [shapeCast_self]
  exact Cert.MatOps.matmul_plain_zero_apply (M := 10000) (K := 128) (N := 1) (φ₁ := .bf16) (φ₂ := .bf16) none x0 x1 p q

/-- The whole-array product of `l : [100000, 128]` and `r : [128, 1]`. -/
abbrev prod6 (l : FVec Ideal S100000x128 .f32) (r : FVec Ideal S128x1 .f32) : FVec Ideal S100000x1 .f32 :=
  Host.dotGeneral (F := Ideal) Cert.ReferenceIdeal.dot_S100000x128_S128x1_S100000x1_1_0_0_1_n_n none l r

/-- Its entry `(i, q)` is the sum over the contracted axis. -/
theorem prod6_apply (l : FVec Ideal S100000x128 .f32) (r : FVec Ideal S128x1 .f32) (i : Fin 100000) (q : Fin 1) :
    prod6 l r (ix2 i q) = ∑ k : Fin 128, l (ix2 i k) * r (ix2 k q) :=
  Cert.MatOps.dotGeneral_plain_apply (M := 100000) (K := 128) (N := 1) (φ₁ := .f32) (φ₂ := .f32) none l r i q

/-- A row block `x0` of the left operand `l` (row `j 0` of the block is row `e 0` of `l`) times the whole right operand is
    the same rows of the whole product. -/
theorem block6_value (l : FVec Ideal S100000x128 .f32) (r : FVec Ideal S128x1 .f32)
    (x0 : Vec Ideal S10000x128 .f32) (x1 : Vec Ideal S128x1 .f32) (j : S10000x1.Idx) (e : S100000x1.Idx)
    (he : (e 1).val = (j 1).val)
    (h0 : ∀ (y : S10000x128.Idx) (i : S100000x128.Idx), (y 0).val = (j 0).val → (i 0).val = (e 0).val → (i 1).val = (y 1).val → x0 y = l i)
    (h1 : ∀ y : S128x1.Idx, x1 y = r y) :
    k6_pay1 (F := Ideal) x0 x1 j = prod6 l r e := by
  obtain ⟨p, q, rfl⟩ : ∃ (p : Fin 10000) (q : Fin 1), j = ix2 p q := ⟨j 0, j 1, eq_ix2 j⟩
  obtain ⟨i, q', rfl⟩ : ∃ (i : Fin 100000) (q' : Fin 1), e = ix2 i q' := ⟨e 0, e 1, eq_ix2 e⟩
  obtain rfl : q' = q := Fin.ext he
  rw [pay6_apply, prod6_apply]
  refine Finset.sum_congr rfl fun k _ => ?_
  rw [h0 (ix2 p k) (ix2 i k) rfl rfl rfl, h1]

/-- The windows' block indices at every grid point: the two row-block windows sit at block `(t, 0)`, the right operand's at `(0, 0)`. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

section
variable (V : (c : Dev nD) → (b : Ref sig .tc) → Buf (Elt Ideal) ((c : Thread nD τ).loc b))

/-- What grid point `t` writes back is rows `10000 t … 10000 t + 9999` of the whole product. -/
theorem flushed6 (c : Dev nD) (t : Fin cfg6.N) :
    (dat6 (F := Ideal) V c).flushed 2 t = ((cfg6.win 2).blk t).view.read (Elt Ideal)
      (prod6 (V c (Pipeline.arrRef spec6 0)) (V c (Pipeline.arrRef spec6 1))) := by
  show (cfg6.win 2).cut (grid6.coords t) ((dat6 V c).after 2 t) = _
  rw [after6_2]
  unfold out6_2
  rw [View.canon_unit_zero zero_off6]
  simp only [View.ld_unit_zero (S := S10000x128) zero_off6, View.ld_unit_zero (S := S128x1) zero_off6]
  obtain ⟨e0, e1, e2, e3, e4, e5⟩ := idx_facts6 t
  funext j
  show k6_pay1 (iblk6 V c 0 t) (iblk6 V c 1 t) j = prod6 (V c (Pipeline.arrRef spec6 0)) (V c (Pipeline.arrRef spec6 1)) (((cfg6.win 2).blk t).view.emb j)
  refine block6_value _ _ (iblk6 V c 0 t) (iblk6 V c 1 t) j _ ?_ ?_ ?_
  · show win6_2.index t (1 : Fin 2) * 1 + 1 * (j 1).val = (j 1).val
    omega
  · intro y i hy hi0 hi1
    show V c (Pipeline.arrRef spec6 0) (((cfg6.win 0).blk t).view.emb y) = V c (Pipeline.arrRef spec6 0) i
    refine congrArg _ (funext fun a => Fin.ext ?_)
    match a with
    | ⟨0, _⟩ =>
      show win6_0.index t (0 : Fin 2) * 10000 + 1 * (y 0).val = (i 0).val
      have hi0' : (i 0).val = win6_2.index t (0 : Fin 2) * 10000 + 1 * (j 0).val := hi0
      omega
    | ⟨1, _⟩ =>
      show win6_0.index t (1 : Fin 2) * 128 + 1 * (y 1).val = (i 1).val
      omega
  · intro y
    show V c (Pipeline.arrRef spec6 1) (((cfg6.win 1).blk t).view.emb y) = V c (Pipeline.arrRef spec6 1) y
    refine congrArg _ (funext fun a => Fin.ext ?_)
    match a with
    | ⟨0, _⟩ =>
      show win6_1.index t (0 : Fin 2) * 128 + 1 * (y 0).val = (y 0).val
      omega
    | ⟨1, _⟩ =>
      show win6_1.index t (1 : Fin 2) * 1 + 1 * (y 1).val = (y 1).val
      omega

/-- An index of the output array lies in point `t`'s block iff each coordinate lies in the block's range on its axis. -/
theorem mem_blk6 (t : Fin cfg6.N) (i : S100000x1.Idx) :
    i ∈ ((cfg6.win 2).blk t).view.set ↔ ∀ a : Fin 2, win6_2.index t a * S10000x1.size a ≤ (i a).val ∧ (i a).val < win6_2.index t a * S10000x1.size a + S10000x1.size a := by
  show i ∈ ((View.whole main_v89).slice (win6_2.rect t)).set ↔ _
  rw [View.set_slice_whole, Rect.mem_set_unit]
  exact Iff.rfl

/-- Row `r` of the output is written back by grid point `r / 10000`. -/
theorem cover6 (i : S100000x1.Idx) : ∃ t : Fin cfg6.N, (cfg6.win 2).flush t = true ∧ i ∈ ((cfg6.win 2).blk t).view.set := by
  have hi0 : (i 0).val < 100000 := (i 0).isLt
  have hi1 : (i 1).val < 1 := (i 1).isLt
  have hN : cfg6.N = 10 := N_6
  have ht : (i 0).val / 10000 < cfg6.N := by rw [hN]; omega
  obtain ⟨e0, e1, e2, e3, e4, e5⟩ := idx_facts6 ⟨(i 0).val / 10000, ht⟩
  refine ⟨⟨(i 0).val / 10000, ht⟩, flush6_2 _, ?_⟩
  rw [mem_blk6]
  intro a
  match a with
  | ⟨0, _⟩ =>
    show win6_2.index ⟨(i 0).val / 10000, ht⟩ (0 : Fin 2) * 10000 ≤ (i 0).val ∧ (i 0).val < win6_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win6_2.index ⟨(i 0).val / 10000, ht⟩ (1 : Fin 2) * 1 ≤ (i 1).val ∧ (i 1).val < win6_2.index ⟨(i 0).val / 10000, ht⟩ (1 : Fin 2) * 1 + 1
    rw [e5]
    omega

/-- The output array of the fourth matrix-product region, after the region, is the whole-array product of the region's two
    operand arrays as the region finds them. -/
theorem lin6 (c : Dev nD) :
    (dat6 (F := Ideal) V c).arrAt 2 cfg6.N
      = Host.dotGeneral (F := Ideal) (φ₁ := .f32) (φ₂ := .f32) Cert.ReferenceIdeal.dot_S100000x128_S128x1_S100000x1_1_0_0_1_n_n none
          (V c (Pipeline.arrRef spec6 0)) (V c (Pipeline.arrRef spec6 1)) :=
  (dat6 V c).arrAt_eq_of_cover 2 (prod6 (V c (Pipeline.arrRef spec6 0)) (V c (Pipeline.arrRef spec6 1))) (fun t _ => flushed6 V c t) cover6
end

end Cert.KVal
-- ==== Proof.LibBnUnit.lean ====
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal
import Idealize.ShloMosaic.PureOps.Ideal.Laws

/-!
# Batch normalisation, the exponential linear unit and the logistic function, entry by entry

Over the extended reals, with exact operations, one entry of a normalised and activated layer is a function of six
numbers: the aggregated activation `a`, the bias `b`, the scale `γ`, the shift `β`, the running mean `μ` and the
running variance `v`:

    y = ((a + b − μ) · (v + ε)^(-1/2)) · γ + β,      unit(y) = y  if y > 0,  e^y − 1  otherwise.

The last layer has no normalisation and ends with the logistic function: 1 / (1 + e^(−unit(a + b))).

The exponential linear unit has two spellings that agree entry by entry. One computes e^y − 1 from y itself on both
branches of the choice; the other first replaces y by 0 where y > 0 (so that the exponential is never taken of a large
positive number), takes e^z − 1 of the result z and multiplies by the constant 1. Where y > 0 both are y; elsewhere
z = y and 1 · (e^y − 1) = e^y − 1. No finiteness is needed: the law used is `1 · x = x`, which holds for every
extended real.
-/

noncomputable section

namespace Cert.KVal

open Idealize.ShloMosaic Idealize.ShloMosaic.ValueIdx

/-- ε of the normalisation: the single-precision word nearest 10⁻⁵, as an extended real. -/
def eps : EReal := Ideal.ofBits .f32 0x3727C5AC#32

/-- (v + ε)^(-1/2) for one variance. -/
def istdS (v : EReal) : EReal := Ideal.rsqrt (v + eps)

/-- The exponential linear unit at one entry: y where y > 0, e^y − 1 elsewhere. -/
def eluS (y : EReal) : EReal := Scalar.select (Ideal.cmp .ogt y 0) y (Ideal.exp y - 1)

/-- Bias and normalisation at one entry, the inverse standard deviation given: ((a + b − μ) · s) · γ + β. -/
def bnS (a b g be rm s : EReal) : EReal := ((a + b - rm) * s) * g + be

/-- The logistic function of the unit of a biased entry: 1 / (1 + e^(−unit(a + b))). -/
def sigS (a b : EReal) : EReal := Ideal.div 1 (1 + Ideal.exp (-(eluS (a + b))))

/-- The unit spelt with a guarded exponent and a multiplication by one is the unit: where y > 0 both are y, elsewhere the
    guard leaves y and 1 · (e^y − 1) = e^y − 1. -/
theorem elu_guarded (y : EReal) :
    Scalar.select (Ideal.cmp .ogt y 0) y (1 * (Ideal.exp (Scalar.select (Ideal.cmp .ogt y 0) 0 y) - 1)) = eluS y := by
  unfold eluS
  by_cases h : Ideal.cmp .ogt y 0 = 1#1
  · rw [h, ValueIdx.select_one, ValueIdx.select_one]
  · rw [ValueIdx.eq_zero_of_ne_one h, ValueIdx.select_zero, ValueIdx.select_zero, ValueIdx.select_zero, one_mul]

/-- Zero minus x is −x on the extended reals. -/
theorem zero_sub_ereal (x : EReal) : 0 - x = -x := zero_sub x

/-- The exponential of a vector, at an entry. -/
theorem exp_apply {s : Shape} {φ : FTy} (a : FVec Ideal s φ) (i : s.Idx) : exp a i = Ideal.exp (a i) := rfl

/-- The inverse square root of a vector, at an entry. -/
theorem rsqrt_apply {s : Shape} {φ : FTy} (a : FVec Ideal s φ) (i : s.Idx) : rsqrt a i = Ideal.rsqrt (a i) := rfl

/-- The host's e^x − 1 of a vector, at an entry. -/
theorem hostExpm1_apply {s : Shape} {φ : FTy} (a : FVec Ideal s φ) (i : s.Idx) : Host.expm1 a i = Ideal.exp (a i) - 1 := rfl

/-- The host's exponential of a vector, at an entry. -/
theorem hostExp_apply {s : Shape} {φ : FTy} (a : FVec Ideal s φ) (i : s.Idx) : Host.exp a i = Ideal.exp (a i) := rfl

/-- The host's negation of a vector, at an entry. -/
theorem hostNegf_apply {s : Shape} {φ : FTy} (a : FVec Ideal s φ) (i : s.Idx) : Host.negf a i = -(a i) := rfl

/-- The unit as vector operations (e^y − 1 of y itself), entry by entry. -/
theorem vec_elu {s : Shape} (y : FVec Ideal s .f32) :
    select (cmpf .ogt y (broadcast s (Scalar.ofBits .f32 0x00000000#32))) y
      (subf (exp y) (broadcast s (Scalar.ofBits .f32 0x3F800000#32))) = fun i => eluS (y i) := by
  funext i
  simp only [select_apply, cmpf_apply, subf_apply, exp_apply, broadcast_apply]
  show Scalar.select (Ideal.cmp .ogt _ (Ideal.ofBits .f32 0x00000000#32)) _ (Ideal.exp _ - Ideal.ofBits .f32 0x3F800000#32) = _
  rw [Ideal.ofBits_zero_f32, Ideal.ofBits_one_f32]
  rfl

/-- The unit as the host spells it (guarded exponent, multiplication by one), entry by entry. -/
theorem host_elu {s : Shape} (hs : (⟨0, ![]⟩ : Shape).BroadcastsInDim s (![] : Fin 0 → Fin s.rank)) (y : FVec Ideal s .f32) :
    select (cmpf .ogt y (broadcastInDim s ![] hs (constant (F := Ideal) ⟨0, ![]⟩ .f32 0x00000000#32))) y
      (mulf (broadcastInDim s ![] hs (constant (F := Ideal) ⟨0, ![]⟩ .f32 0x3F800000#32))
        (Host.expm1 (select (cmpf .ogt y (broadcastInDim s ![] hs (constant (F := Ideal) ⟨0, ![]⟩ .f32 0x00000000#32)))
          (broadcastInDim s ![] hs (id (constant (F := Ideal) ⟨0, ![]⟩ .f32 0x00000000#32))) y)))
      = fun i => eluS (y i) := by
  funext i
  simp only [select_apply, cmpf_apply, mulf_apply, hostExpm1_apply, broadcastInDim_scalar_apply, constant_apply, id_eq]
  show Scalar.select (Ideal.cmp .ogt _ (Ideal.ofBits .f32 0x00000000#32)) _ (Ideal.ofBits .f32 0x3F800000#32 * (Ideal.exp (Scalar.select (Ideal.cmp .ogt _ (Ideal.ofBits .f32 0x00000000#32)) (Ideal.ofBits .f32 0x00000000#32) _) - 1)) = _
  rw [Ideal.ofBits_zero_f32, Ideal.ofBits_one_f32]
  exact elu_guarded _

/-! ## Whole arrays: a layer's rows against its parameter rows -/

section Arrays
variable {m n : ℕ}

/-- One entry of the normalised and activated layer in column q: the unit of bnS at the activation a and the
    parameter rows' entries q. -/
def bnEluAt (a : EReal) (B G BE RM S : (⟨2, ![1, n]⟩ : Shape).Idx → EReal) (q : Fin n) : EReal :=
  eluS (bnS a (B (ix2 (0 : Fin 1) q)) (G (ix2 (0 : Fin 1) q)) (BE (ix2 (0 : Fin 1) q)) (RM (ix2 (0 : Fin 1) q)) (S (ix2 (0 : Fin 1) q)))

/-- One entry of the last layer in column q. -/
def sigAt (a : EReal) (B : (⟨2, ![1, n]⟩ : Shape).Idx → EReal) (q : Fin n) : EReal := sigS a (B (ix2 (0 : Fin 1) q))

/-- The normalised and activated layer as one function of the activations [m, n] and the five parameter ROWS [1, n]
    (bias, γ, β, mean, inverse standard deviation): entry (r, q) is the unit of bnS at a(r, q) and the rows' entries q. -/
def bnEluArr (A : (⟨2, ![m, n]⟩ : Shape).Idx → EReal) (B G BE RM S : (⟨2, ![1, n]⟩ : Shape).Idx → EReal) :
    (⟨2, ![m, n]⟩ : Shape).Idx → EReal :=
  fun i => bnEluAt (A i) B G BE RM S (i 1)

/-- (v + ε)^(-1/2) along a row of variances, index by index. -/
def istdRow (RV : (⟨2, ![1, n]⟩ : Shape).Idx → EReal) : (⟨2, ![1, n]⟩ : Shape).Idx → EReal := fun k => istdS (RV k)

/-- The last layer as one function of the activations [m, n] and the bias ROW [1, n]. -/
def sigArr (A : (⟨2, ![m, n]⟩ : Shape).Idx → EReal) (B : (⟨2, ![1, n]⟩ : Shape).Idx → EReal) :
    (⟨2, ![m, n]⟩ : Shape).Idx → EReal :=
  fun i => sigAt (A i) B (i 1)

/-- The vector operations of a normalise-and-activate block, read entry by entry: the rows are laid along every row of
    the block, the inverse standard deviation is computed on the row of variances, and the unit takes e^y − 1 of y itself. -/
theorem vec_bn_elu (hc : (⟨2, ![m, n]⟩ : Shape).ShapeCasts ⟨2, ![m, n]⟩) (hr : (⟨2, ![1, n]⟩ : Shape).ShapeCasts ⟨2, ![1, n]⟩)
    (hb : (⟨2, ![1, n]⟩ : Shape).Broadcasts ⟨2, ![m, n]⟩)
    (x0 : FVec Ideal ⟨2, ![m, n]⟩ .f32) (b rv rm g be : FVec Ideal ⟨2, ![1, n]⟩ .f32) :
    (let y : FVec Ideal ⟨2, ![m, n]⟩ .f32 :=
      addf (mulf (mulf (subf (addf (shapeCast ⟨2, ![m, n]⟩ x0 hc) (broadcastTo ⟨2, ![m, n]⟩ (shapeCast ⟨2, ![1, n]⟩ b hr) hb))
          (broadcastTo ⟨2, ![m, n]⟩ (shapeCast ⟨2, ![1, n]⟩ rm hr) hb))
          (broadcastTo ⟨2, ![m, n]⟩ (rsqrt (addf (shapeCast ⟨2, ![1, n]⟩ rv hr) (broadcast ⟨2, ![1, n]⟩ (Scalar.ofBits .f32 0x3727C5AC#32)))) hb))
          (broadcastTo ⟨2, ![m, n]⟩ (shapeCast ⟨2, ![1, n]⟩ g hr) hb))
        (broadcastTo ⟨2, ![m, n]⟩ (shapeCast ⟨2, ![1, n]⟩ be hr) hb)
     select (cmpf .ogt y (broadcast ⟨2, ![m, n]⟩ (Scalar.ofBits .f32 0x00000000#32))) y
       (subf (exp y) (broadcast ⟨2, ![m, n]⟩ (Scalar.ofBits .f32 0x3F800000#32))))
      = bnEluArr x0 b g be rm (istdRow rv) := by
  funext i
  obtain ⟨p, q, rfl⟩ : ∃ (p : Fin m) (q : Fin n), i = ix2 p q := ⟨i 0, i 1, eq_ix2 i⟩
  simp only [shapeCast_self]
  simp only [select_apply, cmpf_apply, subf_apply, addf_apply, mulf_apply, exp_apply, rsqrt_apply, broadcast_apply, broadcastTo_1b_ab_apply]
  show Scalar.select (Ideal.cmp .ogt _ (Ideal.ofBits .f32 0x00000000#32)) _ (Ideal.exp _ - Ideal.ofBits .f32 0x3F800000#32) = _
  rw [Ideal.ofBits_zero_f32, Ideal.ofBits_one_f32]
  rfl

/-- A row repeated for every row of an array of m rows, read at (p, q), is the row's entry q. -/
theorem rows_apply (hrows : (⟨2, ![1, n]⟩ : Shape).BroadcastsInDim ⟨2, ![m, n]⟩ (![0, 1] : Fin 2 → Fin 2))
    (y : (⟨2, ![1, n]⟩ : Shape).Idx → EReal) (p : Fin m) (q : Fin n) :
    broadcastInDim ⟨2, ![m, n]⟩ ![0, 1] hrows y (ix2 p q) = y (ix2 (0 : Fin 1) q) :=
  broadcastInDim_oneRow_apply hrows y p q

/-- The host's normalise-and-activate operations, read entry by entry: each parameter row is repeated for every row of
    the array, the inverse standard deviation is given as a row, and the unit is the guarded spelling. -/
theorem host_bn_elu (hrows : (⟨2, ![1, n]⟩ : Shape).BroadcastsInDim ⟨2, ![m, n]⟩ (![0, 1] : Fin 2 → Fin 2))
    (hs : (⟨0, ![]⟩ : Shape).BroadcastsInDim ⟨2, ![m, n]⟩ (![] : Fin 0 → Fin 2))
    (A : FVec Ideal ⟨2, ![m, n]⟩ .f32) (B G BE RM S : FVec Ideal ⟨2, ![1, n]⟩ .f32) :
    (let y : FVec Ideal ⟨2, ![m, n]⟩ .f32 :=
      addf (mulf (mulf (subf (addf A (broadcastInDim ⟨2, ![m, n]⟩ ![0, 1] hrows B)) (broadcastInDim ⟨2, ![m, n]⟩ ![0, 1] hrows RM))
        (broadcastInDim ⟨2, ![m, n]⟩ ![0, 1] hrows S)) (broadcastInDim ⟨2, ![m, n]⟩ ![0, 1] hrows G)) (broadcastInDim ⟨2, ![m, n]⟩ ![0, 1] hrows BE)
     select (cmpf .ogt y (broadcastInDim ⟨2, ![m, n]⟩ ![] hs (constant (F := Ideal) ⟨0, ![]⟩ .f32 0x00000000#32))) y
      (mulf (broadcastInDim ⟨2, ![m, n]⟩ ![] hs (constant (F := Ideal) ⟨0, ![]⟩ .f32 0x3F800000#32))
        (Host.expm1 (select (cmpf .ogt y (broadcastInDim ⟨2, ![m, n]⟩ ![] hs (constant (F := Ideal) ⟨0, ![]⟩ .f32 0x00000000#32)))
          (broadcastInDim ⟨2, ![m, n]⟩ ![] hs (id (constant (F := Ideal) ⟨0, ![]⟩ .f32 0x00000000#32))) y))))
      = bnEluArr A B G BE RM S := by
  dsimp only
  rw [host_elu hs]
  funext i
  obtain ⟨p, q, rfl⟩ : ∃ (p : Fin m) (q : Fin n), i = ix2 p q := ⟨i 0, i 1, eq_ix2 i⟩
  simp only [addf_apply, mulf_apply, subf_apply]
  rw [rows_apply hrows B p q, rows_apply hrows RM p q, rows_apply hrows S p q, rows_apply hrows G p q, rows_apply hrows BE p q]
  rfl

/-- The vector operations of the last block, read entry by entry: bias row laid along every row, the unit, the logistic
    function with 0 − x for −x. -/
theorem vec_sig (hc : (⟨2, ![m, n]⟩ : Shape).ShapeCasts ⟨2, ![m, n]⟩) (hr : (⟨2, ![1, n]⟩ : Shape).ShapeCasts ⟨2, ![1, n]⟩)
    (hb : (⟨2, ![1, n]⟩ : Shape).Broadcasts ⟨2, ![m, n]⟩)
    (x0 : FVec Ideal ⟨2, ![m, n]⟩ .f32) (b : FVec Ideal ⟨2, ![1, n]⟩ .f32) :
    (let v : FVec Ideal ⟨2, ![m, n]⟩ .f32 := addf (shapeCast ⟨2, ![m, n]⟩ x0 hc) (broadcastTo ⟨2, ![m, n]⟩ (shapeCast ⟨2, ![1, n]⟩ b hr) hb)
     let e : FVec Ideal ⟨2, ![m, n]⟩ .f32 := select (cmpf .ogt v (broadcast ⟨2, ![m, n]⟩ (Scalar.ofBits .f32 0x00000000#32))) v
       (subf (exp v) (broadcast ⟨2, ![m, n]⟩ (Scalar.ofBits .f32 0x3F800000#32)))
     divf (broadcast ⟨2, ![m, n]⟩ (Scalar.ofBits .f32 0x3F800000#32))
       (addf (broadcast ⟨2, ![m, n]⟩ (Scalar.ofBits .f32 0x3F800000#32))
         (exp (subf (broadcast ⟨2, ![m, n]⟩ (Scalar.ofBits .f32 0x00000000#32)) e))))
      = sigArr x0 b := by
  dsimp only
  rw [vec_elu]
  funext i
  obtain ⟨p, q, rfl⟩ : ∃ (p : Fin m) (q : Fin n), i = ix2 p q := ⟨i 0, i 1, eq_ix2 i⟩
  simp only [shapeCast_self]
  simp only [divf_apply, addf_apply, subf_apply, exp_apply, broadcast_apply, broadcastTo_1b_ab_apply]
  show Ideal.div (Ideal.ofBits .f32 0x3F800000#32) (Ideal.ofBits .f32 0x3F800000#32 + Ideal.exp (Ideal.ofBits .f32 0x00000000#32 - _)) = _
  rw [Ideal.ofBits_zero_f32, Ideal.ofBits_one_f32, zero_sub]
  rfl

/-- The host's operations of the last layer, read entry by entry. -/
theorem host_sig (hrows : (⟨2, ![1, n]⟩ : Shape).BroadcastsInDim ⟨2, ![m, n]⟩ (![0, 1] : Fin 2 → Fin 2))
    (hs : (⟨0, ![]⟩ : Shape).BroadcastsInDim ⟨2, ![m, n]⟩ (![] : Fin 0 → Fin 2))
    (A : FVec Ideal ⟨2, ![m, n]⟩ .f32) (B : FVec Ideal ⟨2, ![1, n]⟩ .f32) :
    (let v : FVec Ideal ⟨2, ![m, n]⟩ .f32 := addf A (broadcastInDim ⟨2, ![m, n]⟩ ![0, 1] hrows B)
     let e : FVec Ideal ⟨2, ![m, n]⟩ .f32 :=
      select (cmpf .ogt v (broadcastInDim ⟨2, ![m, n]⟩ ![] hs (constant (F := Ideal) ⟨0, ![]⟩ .f32 0x00000000#32))) v
      (mulf (broadcastInDim ⟨2, ![m, n]⟩ ![] hs (constant (F := Ideal) ⟨0, ![]⟩ .f32 0x3F800000#32))
        (Host.expm1 (select (cmpf .ogt v (broadcastInDim ⟨2, ![m, n]⟩ ![] hs (constant (F := Ideal) ⟨0, ![]⟩ .f32 0x00000000#32)))
          (broadcastInDim ⟨2, ![m, n]⟩ ![] hs (id (constant (F := Ideal) ⟨0, ![]⟩ .f32 0x00000000#32))) v)))
     Host.divf (broadcastInDim ⟨2, ![m, n]⟩ ![] hs (constant (F := Ideal) ⟨0, ![]⟩ .f32 0x3F800000#32))
       (addf (broadcastInDim ⟨2, ![m, n]⟩ ![] hs (constant (F := Ideal) ⟨0, ![]⟩ .f32 0x3F800000#32)) (Host.exp (Host.negf e))))
      = sigArr A B := by
  dsimp only
  rw [host_elu hs]
  funext i
  obtain ⟨p, q, rfl⟩ : ∃ (p : Fin m) (q : Fin n), i = ix2 p q := ⟨i 0, i 1, eq_ix2 i⟩
  simp only [hostDivf_apply, addf_apply, hostExp_apply, hostNegf_apply]
  rw [rows_apply hrows B p q]
  show Ideal.div (Ideal.ofBits .f32 0x3F800000#32) (Ideal.ofBits .f32 0x3F800000#32 + _) = _
  rw [Ideal.ofBits_one_f32]
  rfl

/-- Reading the layer through an embedding of a block's indices that keeps the column is the layer of the activations
    read through it: the parameter rows do not depend on the row of the entry. -/
theorem bnEluArr_comp {k : ℕ} (A : (⟨2, ![m, n]⟩ : Shape).Idx → EReal) (B G BE RM S : (⟨2, ![1, n]⟩ : Shape).Idx → EReal)
    (e : (⟨2, ![k, n]⟩ : Shape).Idx → (⟨2, ![m, n]⟩ : Shape).Idx) (he : ∀ j, (e j 1).val = (j 1).val) :
    (fun j => bnEluArr A B G BE RM S (e j)) = bnEluArr (fun j => A (e j)) B G BE RM S := by
  exact funext fun j => congrArg (bnEluAt (A (e j)) B G BE RM S) (Fin.ext (he j) : (e j 1 : Fin n) = j 1)

/-- The same for the last layer. -/
theorem sigArr_comp {k : ℕ} (A : (⟨2, ![m, n]⟩ : Shape).Idx → EReal) (B : (⟨2, ![1, n]⟩ : Shape).Idx → EReal)
    (e : (⟨2, ![k, n]⟩ : Shape).Idx → (⟨2, ![m, n]⟩ : Shape).Idx) (he : ∀ j, (e j 1).val = (j 1).val) :
    (fun j => sigArr A B (e j)) = sigArr (fun j => A (e j)) B := by
  exact funext fun j => congrArg (sigAt (A (e j)) B) (Fin.ext (he j) : (e j 1 : Fin n) = j 1)

end Arrays

end Cert.KVal

end
-- ==== Proof.Bn1.lean ====
import proofs.«122410_j40535901339683_1_alg».proof.Proof.Spec
import proofs.«122410_j40535901339683_1_alg».proof.Proof.Gen.ReferenceIdeal
import proofs.«122410_j40535901339683_1_alg».proof.Proof.Gen.KernelIdeal.Frame
import proofs.«122410_j40535901339683_1_alg».proof.Proof.LibBnUnit
import Idealize.ShloMosaic.Lib.Pipeline.Value

/-!
# The layer of width 32: what its normalise-and-activate region leaves

The region walks the 100000 rows of the aggregated activations in ten blocks of 10000 rows. At each block it adds the
bias row, subtracts the mean row, multiplies by (variance + ε)^(-1/2) computed on the variance row, by the γ row, adds the
β row, and applies the exponential linear unit; the five parameter rows are whole [1, 32] arrays, the same at every block.
Entry (r, q) of the result therefore depends on the activation (r, q) and on the entries q of the rows only, and row r is
written by block r / 10000. Hence the array the region leaves is the specification's layer function of the arrays the
region found, with the inverse standard deviation taken on the row of variances.
-/

noncomputable section

open Idealize.ShloMosaic Idealize.ShloMosaic.TcCoe Idealize.SL.Sem
open Idealize.ShloMosaic.Pipeline (Dat)
open Idealize.ShloMosaic.ValueIdx

namespace Cert.KVal

open Cert.KernelIdeal Cert.KernelIdeal.Gen

variable (V : (c : Dev nD) → (b : Ref sig .tc) → Buf (Elt Ideal) ((c : Thread nD τ).loc b))

/-- The zero offsets of a whole-buffer access, spelt as a constant function. -/
theorem hz1 : (![0, 0] : Fin 2 → Nat) = fun _ => 0 := funext fun a => by fin_cases a <;> rfl

/-- (variance + ε)^(-1/2) computed on a ROW [1, 32] of variances, index by index. -/
def istdRow32 (rvRow : Cert.Spec.C Ideal S1x32 .f32) : Cert.Spec.C Ideal S1x32 .f32 :=
  fun k => Ideal.rsqrt (rvRow k + Ideal.ofBits .f32 0x3727C5AC#32)

/-- Taking it on the row of a vector of variances is the row of the vector's inverse standard deviations: a row's entry
    (0, q) is the vector's entry q on both sides. -/
theorem istdRow32_row (rv : Cert.Spec.C Ideal S32 .f32) :
    istdRow32 (Cert.Spec.row32 (F := Ideal) rv) = Cert.Spec.row32 (F := Ideal) (Cert.Spec.istd32 (F := Ideal) rv) := rfl

/-- The block's arithmetic is the layer function of the block of activations and the parameter rows (windows in the
    order activations, bias, γ, β, mean, variance). -/
theorem pay1_eq (x0 : Vec Ideal S10000x32 .f32) (x1 x2 x3 x4 x5 : Vec Ideal S1x32 .f32) :
    k1_pay1 x0 x1 x5 x4 x2 x3 = bnEluArr x0 x1 x2 x3 x4 (istdRow x5) :=
  vec_bn_elu _ _ _ x0 x1 x5 x4 x2 x3

/-- The specification's layer of width 32 is the same function of the whole arrays. -/
theorem spec1_eq (A : Cert.Spec.C Ideal S100000x32 .f32) (B G BE RM S : Cert.Spec.C Ideal S1x32 .f32) :
    Cert.Spec.elu32 (F := Ideal) (Cert.Spec.bn32 (F := Ideal) A B G BE RM S) = bnEluArr A B G BE RM S :=
  host_bn_elu _ _ A B G BE RM S

/-- Where the blocks sit: the activations' block and the result's block at point t are both block (t, 0); every
    parameter row's block is block (0, 0). -/
theorem idx_facts1 : ∀ t : Fin cfg1.N,
    win1_0.index t (0 : Fin 2) = t.val ∧ win1_0.index t (1 : Fin 2) = 0
    ∧ win1_6.index t (0 : Fin 2) = t.val ∧ win1_6.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- The activations' block at point t is the activations read through the result's block at t. -/
theorem iblk1_0 (c : Dev nD) (t : Fin cfg1.N) :
    (iblk1 V c 0 t : Vec Ideal S10000x32 .f32)
      = fun j => (V c (Pipeline.arrRef spec1 0) : S100000x32.Idx → EReal) (((cfg1.win 6).blk t).view.emb j) := by
  obtain ⟨e0, e1, e2, e3, -⟩ := idx_facts1 t
  funext j
  show V c (Pipeline.arrRef spec1 0) (((cfg1.win 0).blk t).view.emb j) = V c (Pipeline.arrRef spec1 0) (((cfg1.win 6).blk t).view.emb j)
  have h0 : ((cfg1.win 0).blk t).view.emb j = ((cfg1.win 6).blk t).view.emb j := by
    funext a; apply Fin.ext
    match a with
    | ⟨0, _⟩ => show win1_0.index t (0 : Fin 2) * 10000 + 1 * (j 0).val = win1_6.index t (0 : Fin 2) * 10000 + 1 * (j 0).val; omega
    | ⟨1, _⟩ => show win1_0.index t (1 : Fin 2) * 32 + 1 * (j 1).val = win1_6.index t (1 : Fin 2) * 32 + 1 * (j 1).val; omega
  rw [h0]

/-- Window 1's block at any point is its whole row. -/
theorem iblk1_1 (c : Dev nD) (t : Fin cfg1.N) :
    (iblk1 V c 1 t : Vec Ideal S1x32 .f32) = (V c (Pipeline.arrRef spec1 1) : S1x32.Idx → EReal) := by
  obtain ⟨-, -, -, -, e1a, e1b, e2a, e2b, e3a, e3b, e4a, e4b, e5a, e5b⟩ := idx_facts1 t
  funext j
  show V c (Pipeline.arrRef spec1 1) (((cfg1.win 1).blk t).view.emb j) = V c (Pipeline.arrRef spec1 1) j
  have h0 : ((cfg1.win 1).blk t).view.emb j = j := by
    funext a; apply Fin.ext
    match a with
    | ⟨0, _⟩ => show win1_1.index t (0 : Fin 2) * 1 + 1 * (j 0).val = (j 0).val; omega
    | ⟨1, _⟩ => show win1_1.index t (1 : Fin 2) * 32 + 1 * (j 1).val = (j 1).val; omega
  rw [h0]

/-- Window 2's block at any point is its whole row. -/
theorem iblk1_2 (c : Dev nD) (t : Fin cfg1.N) :
    (iblk1 V c 2 t : Vec Ideal S1x32 .f32) = (V c (Pipeline.arrRef spec1 2) : S1x32.Idx → EReal) := by
  obtain ⟨-, -, -, -, e1a, e1b, e2a, e2b, e3a, e3b, e4a, e4b, e5a, e5b⟩ := idx_facts1 t
  funext j
  show V c (Pipeline.arrRef spec1 2) (((cfg1.win 2).blk t).view.emb j) = V c (Pipeline.arrRef spec1 2) j
  have h0 : ((cfg1.win 2).blk t).view.emb j = j := by
    funext a; apply Fin.ext
    match a with
    | ⟨0, _⟩ => show win1_2.index t (0 : Fin 2) * 1 + 1 * (j 0).val = (j 0).val; omega
    | ⟨1, _⟩ => show win1_2.index t (1 : Fin 2) * 32 + 1 * (j 1).val = (j 1).val; omega
  rw [h0]

/-- Window 3's block at any point is its whole row. -/
theorem iblk1_3 (c : Dev nD) (t : Fin cfg1.N) :
    (iblk1 V c 3 t : Vec Ideal S1x32 .f32) = (V c (Pipeline.arrRef spec1 3) : S1x32.Idx → EReal) := by
  obtain ⟨-, -, -, -, e1a, e1b, e2a, e2b, e3a, e3b, e4a, e4b, e5a, e5b⟩ := idx_facts1 t
  funext j
  show V c (Pipeline.arrRef spec1 3) (((cfg1.win 3).blk t).view.emb j) = V c (Pipeline.arrRef spec1 3) j
  have h0 : ((cfg1.win 3).blk t).view.emb j = j := by
    funext a; apply Fin.ext
    match a with
    | ⟨0, _⟩ => show win1_3.index t (0 : Fin 2) * 1 + 1 * (j 0).val = (j 0).val; omega
    | ⟨1, _⟩ => show win1_3.index t (1 : Fin 2) * 32 + 1 * (j 1).val = (j 1).val; omega
  rw [h0]

/-- Window 4's block at any point is its whole row. -/
theorem iblk1_4 (c : Dev nD) (t : Fin cfg1.N) :
    (iblk1 V c 4 t : Vec Ideal S1x32 .f32) = (V c (Pipeline.arrRef spec1 4) : S1x32.Idx → EReal) := by
  obtain ⟨-, -, -, -, e1a, e1b, e2a, e2b, e3a, e3b, e4a, e4b, e5a, e5b⟩ := idx_facts1 t
  funext j
  show V c (Pipeline.arrRef spec1 4) (((cfg1.win 4).blk t).view.emb j) = V c (Pipeline.arrRef spec1 4) j
  have h0 : ((cfg1.win 4).blk t).view.emb j = j := by
    funext a; apply Fin.ext
    match a with
    | ⟨0, _⟩ => show win1_4.index t (0 : Fin 2) * 1 + 1 * (j 0).val = (j 0).val; omega
    | ⟨1, _⟩ => show win1_4.index t (1 : Fin 2) * 32 + 1 * (j 1).val = (j 1).val; omega
  rw [h0]

/-- Window 5's block at any point is its whole row. -/
theorem iblk1_5 (c : Dev nD) (t : Fin cfg1.N) :
    (iblk1 V c 5 t : Vec Ideal S1x32 .f32) = (V c (Pipeline.arrRef spec1 5) : S1x32.Idx → EReal) := by
  obtain ⟨-, -, -, -, e1a, e1b, e2a, e2b, e3a, e3b, e4a, e4b, e5a, e5b⟩ := idx_facts1 t
  funext j
  show V c (Pipeline.arrRef spec1 5) (((cfg1.win 5).blk t).view.emb j) = V c (Pipeline.arrRef spec1 5) j
  have h0 : ((cfg1.win 5).blk t).view.emb j = j := by
    funext a; apply Fin.ext
    match a with
    | ⟨0, _⟩ => show win1_5.index t (0 : Fin 2) * 1 + 1 * (j 0).val = (j 0).val; omega
    | ⟨1, _⟩ => show win1_5.index t (1 : Fin 2) * 32 + 1 * (j 1).val = (j 1).val; omega
  rw [h0]

/-- The layer function of the arrays the region finds: what the result array ends holding. -/
abbrev G1 (c : Dev nD) : S100000x32.Idx → EReal :=
  bnEluArr (V c (Pipeline.arrRef spec1 0) : S100000x32.Idx → EReal) (V c (Pipeline.arrRef spec1 1) : S1x32.Idx → EReal)
    (V c (Pipeline.arrRef spec1 2) : S1x32.Idx → EReal) (V c (Pipeline.arrRef spec1 3) : S1x32.Idx → EReal)
    (V c (Pipeline.arrRef spec1 4) : S1x32.Idx → EReal) (istdRow (V c (Pipeline.arrRef spec1 5) : S1x32.Idx → EReal))

/-- What point t writes back is block t of the layer function of the arrays the region finds. -/
theorem flushed1_eq (c : Dev nD) (t : Fin cfg1.N) :
    (dat1 (F := Ideal) V c).flushed 6 t = ((cfg1.win 6).blk t).view.read (Elt Ideal) (G1 V c) := by
  show (cfg1.win 6).cut (grid1.coords t) ((dat1 V c).after 6 t) = _
  rw [after1_6]
  unfold out1_6
  rw [View.canon_unit_zero hz1]
  simp only [View.ld_unit_zero (S := S10000x32) hz1, View.ld_unit_zero (S := S1x32) hz1]
  rw [pay1_eq (iblk1 V c 0 t) (iblk1 V c 1 t) (iblk1 V c 2 t) (iblk1 V c 3 t) (iblk1 V c 4 t) (iblk1 V c 5 t)]
  rw [iblk1_0 V c t, iblk1_1 V c t, iblk1_2 V c t, iblk1_3 V c t, iblk1_4 V c t, iblk1_5 V c t]
  obtain ⟨-, -, -, e3, -⟩ := idx_facts1 t
  exact (bnEluArr_comp _ _ _ _ _ _ (fun j => ((cfg1.win 6).blk t).view.emb j) (fun j => by
    show win1_6.index t (1 : Fin 2) * 32 + 1 * (j 1).val = (j 1).val; omega)).symm

/-- An index of the array is in point t's block iff each coordinate is in the block's range on its axis. -/
theorem mem_blk1 (t : Fin cfg1.N) (i : S100000x32.Idx) :
    i ∈ ((cfg1.win 6).blk t).view.set ↔ ∀ a : Fin 2, win1_6.index t a * S10000x32.size a ≤ (i a).val ∧ (i a).val < win1_6.index t a * S10000x32.size a + S10000x32.size a := by
  show i ∈ ((View.whole main_v60).slice (win1_6.rect t)).set ↔ _
  rw [View.set_slice_whole, Rect.mem_set_unit]
  exact Iff.rfl

/-- Row r of the array is written by point r / 10000. -/
theorem cover1 (i : S100000x32.Idx) : ∃ t : Fin cfg1.N, (cfg1.win 6).flush t = true ∧ i ∈ ((cfg1.win 6).blk t).view.set := by
  have hi0 : (i 0).val < 100000 := (i 0).isLt
  have hi1 : (i 1).val < 32 := (i 1).isLt
  have hN : grid1.N = 10 := N_1
  have ht : (i 0).val / 10000 < cfg1.N := by show _ < grid1.N; omega
  obtain ⟨-, -, e2, e3, -⟩ := idx_facts1 ⟨(i 0).val / 10000, ht⟩
  refine ⟨⟨(i 0).val / 10000, ht⟩, flush1_6 _, ?_⟩
  rw [mem_blk1]
  intro a
  match a with
  | ⟨0, _⟩ => show win1_6.index ⟨(i 0).val / 10000, ht⟩ (0 : Fin 2) * 10000 ≤ (i 0).val ∧ (i 0).val < win1_6.index ⟨(i 0).val / 10000, ht⟩ (0 : Fin 2) * 10000 + 10000
              rw [e2]; show (i 0).val / 10000 * 10000 ≤ (i 0).val ∧ (i 0).val < (i 0).val / 10000 * 10000 + 10000; omega
  | ⟨1, _⟩ => show win1_6.index ⟨(i 0).val / 10000, ht⟩ (1 : Fin 2) * 32 ≤ (i 1).val ∧ (i 1).val < win1_6.index ⟨(i 0).val / 10000, ht⟩ (1 : Fin 2) * 32 + 32
              rw [e3]; omega

/-- THE RESULT ARRAY after the region: the specification's layer of width 32 of the arrays the region found — activations,
    bias, γ, β, mean in windows 0 to 4, and the inverse standard deviation taken on the row of variances (window 5). -/
theorem bn1 (c : Dev nD) :
    (dat1 (F := Ideal) V c).arrAt 6 cfg1.N
      = Cert.Spec.elu32 (F := Ideal) (Cert.Spec.bn32 (F := Ideal) (V c (Pipeline.arrRef spec1 0)) (V c (Pipeline.arrRef spec1 1))
          (V c (Pipeline.arrRef spec1 2)) (V c (Pipeline.arrRef spec1 3)) (V c (Pipeline.arrRef spec1 4))
          (istdRow32 (V c (Pipeline.arrRef spec1 5)))) :=
  ((dat1 (F := Ideal) V c).arrAt_eq_of_cover 6 (G1 V c) (fun t _ => flushed1_eq V c t) cover1).trans
    (spec1_eq (V c (Pipeline.arrRef spec1 0)) (V c (Pipeline.arrRef spec1 1)) (V c (Pipeline.arrRef spec1 2))
      (V c (Pipeline.arrRef spec1 3)) (V c (Pipeline.arrRef spec1 4)) (istdRow32 (V c (Pipeline.arrRef spec1 5)))).symm

end Cert.KVal

end
-- ==== Proof.Bn3.lean ====
import proofs.«122410_j40535901339683_1_alg».proof.Proof.Spec
import proofs.«122410_j40535901339683_1_alg».proof.Proof.Gen.ReferenceIdeal
import proofs.«122410_j40535901339683_1_alg».proof.Proof.Gen.KernelIdeal.Frame
import proofs.«122410_j40535901339683_1_alg».proof.Proof.LibBnUnit
import Idealize.ShloMosaic.Lib.Pipeline.Value

/-!
# The layer of width 64: what its normalise-and-activate region leaves

The region walks the 100000 rows of the aggregated activations in ten blocks of 10000 rows. At each block it adds the
bias row, subtracts the mean row, multiplies by (variance + ε)^(-1/2) computed on the variance row, by the γ row, adds the
β row, and applies the exponential linear unit; the five parameter rows are whole [1, 64] arrays, the same at every block.
Entry (r, q) of the result therefore depends on the activation (r, q) and on the entries q of the rows only, and row r is
written by block r / 10000. Hence the array the region leaves is the specification's layer function of the arrays the
region found, with the inverse standard deviation taken on the row of variances.
-/

noncomputable section

open Idealize.ShloMosaic Idealize.ShloMosaic.TcCoe Idealize.SL.Sem
open Idealize.ShloMosaic.Pipeline (Dat)
open Idealize.ShloMosaic.ValueIdx

namespace Cert.KVal

open Cert.KernelIdeal Cert.KernelIdeal.Gen

variable (V : (c : Dev nD) → (b : Ref sig .tc) → Buf (Elt Ideal) ((c : Thread nD τ).loc b))

/-- The zero offsets of a whole-buffer access, spelt as a constant function. -/
theorem hz3 : (![0, 0] : Fin 2 → Nat) = fun _ => 0 := funext fun a => by fin_cases a <;> rfl

/-- (variance + ε)^(-1/2) computed on a ROW [1, 64] of variances, index by index. -/
def istdRow64 (rvRow : Cert.Spec.C Ideal S1x64 .f32) : Cert.Spec.C Ideal S1x64 .f32 :=
  fun k => Ideal.rsqrt (rvRow k + Ideal.ofBits .f32 0x3727C5AC#32)

/-- Taking it on the row of a vector of variances is the row of the vector's inverse standard deviations: a row's entry
    (0, q) is the vector's entry q on both sides. -/
theorem istdRow64_row (rv : Cert.Spec.C Ideal S64 .f32) :
    istdRow64 (Cert.Spec.row64 (F := Ideal) rv) = Cert.Spec.row64 (F := Ideal) (Cert.Spec.istd64 (F := Ideal) rv) := rfl

/-- The block's arithmetic is the layer function of the block of activations and the parameter rows (windows in the
    order activations, bias, γ, β, mean, variance). -/
theorem pay3_eq (x0 : Vec Ideal S10000x64 .f32) (x1 x2 x3 x4 x5 : Vec Ideal S1x64 .f32) :
    k3_pay1 x0 x1 x5 x4 x2 x3 = bnEluArr x0 x1 x2 x3 x4 (istdRow x5) :=
  vec_bn_elu _ _ _ x0 x1 x5 x4 x2 x3

/-- The specification's layer of width 64 is the same function of the whole arrays. -/
theorem spec3_eq (A : Cert.Spec.C Ideal S100000x64 .f32) (B G BE RM S : Cert.Spec.C Ideal S1x64 .f32) :
    Cert.Spec.elu64 (F := Ideal) (Cert.Spec.bn64 (F := Ideal) A B G BE RM S) = bnEluArr A B G BE RM S :=
  host_bn_elu _ _ A B G BE RM S

/-- Where the blocks sit: the activations' block and the result's block at point t are both block (t, 0); every
    parameter row's block is block (0, 0). -/
theorem idx_facts3 : ∀ t : Fin cfg3.N,
    win3_0.index t (0 : Fin 2) = t.val ∧ win3_0.index t (1 : Fin 2) = 0
    ∧ win3_6.index t (0 : Fin 2) = t.val ∧ win3_6.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- The activations' block at point t is the activations read through the result's block at t. -/
theorem iblk3_0 (c : Dev nD) (t : Fin cfg3.N) :
    (iblk3 V c 0 t : Vec Ideal S10000x64 .f32)
      = fun j => (V c (Pipeline.arrRef spec3 0) : S100000x64.Idx → EReal) (((cfg3.win 6).blk t).view.emb j) := by
  obtain ⟨e0, e1, e2, e3, -⟩ := idx_facts3 t
  funext j
  show V c (Pipeline.arrRef spec3 0) (((cfg3.win 0).blk t).view.emb j) = V c (Pipeline.arrRef spec3 0) (((cfg3.win 6).blk t).view.emb j)
  have h0 : ((cfg3.win 0).blk t).view.emb j = ((cfg3.win 6).blk t).view.emb j := by
    funext a; apply Fin.ext
    match a with
    | ⟨0, _⟩ => show win3_0.index t (0 : Fin 2) * 10000 + 1 * (j 0).val = win3_6.index t (0 : Fin 2) * 10000 + 1 * (j 0).val; omega
    | ⟨1, _⟩ => show win3_0.index t (1 : Fin 2) * 64 + 1 * (j 1).val = win3_6.index t (1 : Fin 2) * 64 + 1 * (j 1).val; omega
  rw [h0]

/-- Window 1's block at any point is its whole row. -/
theorem iblk3_1 (c : Dev nD) (t : Fin cfg3.N) :
    (iblk3 V c 1 t : Vec Ideal S1x64 .f32) = (V c (Pipeline.arrRef spec3 1) : S1x64.Idx → EReal) := by
  obtain ⟨-, -, -, -, e1a, e1b, e2a, e2b, e3a, e3b, e4a, e4b, e5a, e5b⟩ := idx_facts3 t
  funext j
  show V c (Pipeline.arrRef spec3 1) (((cfg3.win 1).blk t).view.emb j) = V c (Pipeline.arrRef spec3 1) j
  have h0 : ((cfg3.win 1).blk t).view.emb j = j := by
    funext a; apply Fin.ext
    match a with
    | ⟨0, _⟩ => show win3_1.index t (0 : Fin 2) * 1 + 1 * (j 0).val = (j 0).val; omega
    | ⟨1, _⟩ => show win3_1.index t (1 : Fin 2) * 64 + 1 * (j 1).val = (j 1).val; omega
  rw [h0]

/-- Window 2's block at any point is its whole row. -/
theorem iblk3_2 (c : Dev nD) (t : Fin cfg3.N) :
    (iblk3 V c 2 t : Vec Ideal S1x64 .f32) = (V c (Pipeline.arrRef spec3 2) : S1x64.Idx → EReal) := by
  obtain ⟨-, -, -, -, e1a, e1b, e2a, e2b, e3a, e3b, e4a, e4b, e5a, e5b⟩ := idx_facts3 t
  funext j
  show V c (Pipeline.arrRef spec3 2) (((cfg3.win 2).blk t).view.emb j) = V c (Pipeline.arrRef spec3 2) j
  have h0 : ((cfg3.win 2).blk t).view.emb j = j := by
    funext a; apply Fin.ext
    match a with
    | ⟨0, _⟩ => show win3_2.index t (0 : Fin 2) * 1 + 1 * (j 0).val = (j 0).val; omega
    | ⟨1, _⟩ => show win3_2.index t (1 : Fin 2) * 64 + 1 * (j 1).val = (j 1).val; omega
  rw [h0]

/-- Window 3's block at any point is its whole row. -/
theorem iblk3_3 (c : Dev nD) (t : Fin cfg3.N) :
    (iblk3 V c 3 t : Vec Ideal S1x64 .f32) = (V c (Pipeline.arrRef spec3 3) : S1x64.Idx → EReal) := by
  obtain ⟨-, -, -, -, e1a, e1b, e2a, e2b, e3a, e3b, e4a, e4b, e5a, e5b⟩ := idx_facts3 t
  funext j
  show V c (Pipeline.arrRef spec3 3) (((cfg3.win 3).blk t).view.emb j) = V c (Pipeline.arrRef spec3 3) j
  have h0 : ((cfg3.win 3).blk t).view.emb j = j := by
    funext a; apply Fin.ext
    match a with
    | ⟨0, _⟩ => show win3_3.index t (0 : Fin 2) * 1 + 1 * (j 0).val = (j 0).val; omega
    | ⟨1, _⟩ => show win3_3.index t (1 : Fin 2) * 64 + 1 * (j 1).val = (j 1).val; omega
  rw [h0]

/-- Window 4's block at any point is its whole row. -/
theorem iblk3_4 (c : Dev nD) (t : Fin cfg3.N) :
    (iblk3 V c 4 t : Vec Ideal S1x64 .f32) = (V c (Pipeline.arrRef spec3 4) : S1x64.Idx → EReal) := by
  obtain ⟨-, -, -, -, e1a, e1b, e2a, e2b, e3a, e3b, e4a, e4b, e5a, e5b⟩ := idx_facts3 t
  funext j
  show V c (Pipeline.arrRef spec3 4) (((cfg3.win 4).blk t).view.emb j) = V c (Pipeline.arrRef spec3 4) j
  have h0 : ((cfg3.win 4).blk t).view.emb j = j := by
    funext a; apply Fin.ext
    match a with
    | ⟨0, _⟩ => show win3_4.index t (0 : Fin 2) * 1 + 1 * (j 0).val = (j 0).val; omega
    | ⟨1, _⟩ => show win3_4.index t (1 : Fin 2) * 64 + 1 * (j 1).val = (j 1).val; omega
  rw [h0]

/-- Window 5's block at any point is its whole row. -/
theorem iblk3_5 (c : Dev nD) (t : Fin cfg3.N) :
    (iblk3 V c 5 t : Vec Ideal S1x64 .f32) = (V c (Pipeline.arrRef spec3 5) : S1x64.Idx → EReal) := by
  obtain ⟨-, -, -, -, e1a, e1b, e2a, e2b, e3a, e3b, e4a, e4b, e5a, e5b⟩ := idx_facts3 t
  funext j
  show V c (Pipeline.arrRef spec3 5) (((cfg3.win 5).blk t).view.emb j) = V c (Pipeline.arrRef spec3 5) j
  have h0 : ((cfg3.win 5).blk t).view.emb j = j := by
    funext a; apply Fin.ext
    match a with
    | ⟨0, _⟩ => show win3_5.index t (0 : Fin 2) * 1 + 1 * (j 0).val = (j 0).val; omega
    | ⟨1, _⟩ => show win3_5.index t (1 : Fin 2) * 64 + 1 * (j 1).val = (j 1).val; omega
  rw [h0]

/-- The layer function of the arrays the region finds: what the result array ends holding. -/
abbrev G3 (c : Dev nD) : S100000x64.Idx → EReal :=
  bnEluArr (V c (Pipeline.arrRef spec3 0) : S100000x64.Idx → EReal) (V c (Pipeline.arrRef spec3 1) : S1x64.Idx → EReal)
    (V c (Pipeline.arrRef spec3 2) : S1x64.Idx → EReal) (V c (Pipeline.arrRef spec3 3) : S1x64.Idx → EReal)
    (V c (Pipeline.arrRef spec3 4) : S1x64.Idx → EReal) (istdRow (V c (Pipeline.arrRef spec3 5) : S1x64.Idx → EReal))

/-- What point t writes back is block t of the layer function of the arrays the region finds. -/
theorem flushed3_eq (c : Dev nD) (t : Fin cfg3.N) :
    (dat3 (F := Ideal) V c).flushed 6 t = ((cfg3.win 6).blk t).view.read (Elt Ideal) (G3 V c) := by
  show (cfg3.win 6).cut (grid3.coords t) ((dat3 V c).after 6 t) = _
  rw [after3_6]
  unfold out3_6
  rw [View.canon_unit_zero hz3]
  simp only [View.ld_unit_zero (S := S10000x64) hz3, View.ld_unit_zero (S := S1x64) hz3]
  rw [pay3_eq (iblk3 V c 0 t) (iblk3 V c 1 t) (iblk3 V c 2 t) (iblk3 V c 3 t) (iblk3 V c 4 t) (iblk3 V c 5 t)]
  rw [iblk3_0 V c t, iblk3_1 V c t, iblk3_2 V c t, iblk3_3 V c t, iblk3_4 V c t, iblk3_5 V c t]
  obtain ⟨-, -, -, e3, -⟩ := idx_facts3 t
  exact (bnEluArr_comp _ _ _ _ _ _ (fun j => ((cfg3.win 6).blk t).view.emb j) (fun j => by
    show win3_6.index t (1 : Fin 2) * 64 + 1 * (j 1).val = (j 1).val; omega)).symm

/-- An index of the array is in point t's block iff each coordinate is in the block's range on its axis. -/
theorem mem_blk3 (t : Fin cfg3.N) (i : S100000x64.Idx) :
    i ∈ ((cfg3.win 6).blk t).view.set ↔ ∀ a : Fin 2, win3_6.index t a * S10000x64.size a ≤ (i a).val ∧ (i a).val < win3_6.index t a * S10000x64.size a + S10000x64.size a := by
  show i ∈ ((View.whole main_v74).slice (win3_6.rect t)).set ↔ _
  rw [View.set_slice_whole, Rect.mem_set_unit]
  exact Iff.rfl

/-- Row r of the array is written by point r / 10000. -/
theorem cover3 (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  have hN : grid3.N = 10 := N_3
  have ht : (i 0).val / 10000 < cfg3.N := by show _ < grid3.N; omega
  obtain ⟨-, -, e2, e3, -⟩ := idx_facts3 ⟨(i 0).val / 10000, ht⟩
  refine ⟨⟨(i 0).val / 10000, ht⟩, flush3_6 _, ?_⟩
  rw [mem_blk3]
  intro a
  match a with
  | ⟨0, _⟩ => show win3_6.index ⟨(i 0).val / 10000, ht⟩ (0 : Fin 2) * 10000 ≤ (i 0).val ∧ (i 0).val < win3_6.index ⟨(i 0).val / 10000, ht⟩ (0 : Fin 2) * 10000 + 10000
              rw [e2]; show (i 0).val / 10000 * 10000 ≤ (i 0).val ∧ (i 0).val < (i 0).val / 10000 * 10000 + 10000; omega
  | ⟨1, _⟩ => show win3_6.index ⟨(i 0).val / 10000, ht⟩ (1 : Fin 2) * 64 ≤ (i 1).val ∧ (i 1).val < win3_6.index ⟨(i 0).val / 10000, ht⟩ (1 : Fin 2) * 64 + 64
              rw [e3]; omega

/-- THE RESULT ARRAY after the region: the specification's layer of width 64 of the arrays the region found — activations,
    bias, γ, β, mean in windows 0 to 4, and the inverse standard deviation taken on the row of variances (window 5). -/
theorem bn3 (c : Dev nD) :
    (dat3 (F := Ideal) V c).arrAt 6 cfg3.N
      = Cert.Spec.elu64 (F := Ideal) (Cert.Spec.bn64 (F := Ideal) (V c (Pipeline.arrRef spec3 0)) (V c (Pipeline.arrRef spec3 1))
          (V c (Pipeline.arrRef spec3 2)) (V c (Pipeline.arrRef spec3 3)) (V c (Pipeline.arrRef spec3 4))
          (istdRow64 (V c (Pipeline.arrRef spec3 5)))) :=
  ((dat3 (F := Ideal) V c).arrAt_eq_of_cover 6 (G3 V c) (fun t _ => flushed3_eq V c t) cover3).trans
    (spec3_eq (V c (Pipeline.arrRef spec3 0)) (V c (Pipeline.arrRef spec3 1)) (V c (Pipeline.arrRef spec3 2))
      (V c (Pipeline.arrRef spec3 3)) (V c (Pipeline.arrRef spec3 4)) (istdRow64 (V c (Pipeline.arrRef spec3 5)))).symm

end Cert.KVal

end
-- ==== Proof.Bn5.lean ====
import proofs.«122410_j40535901339683_1_alg».proof.Proof.Spec
import proofs.«122410_j40535901339683_1_alg».proof.Proof.Gen.ReferenceIdeal
import proofs.«122410_j40535901339683_1_alg».proof.Proof.Gen.KernelIdeal.Frame
import proofs.«122410_j40535901339683_1_alg».proof.Proof.LibBnUnit
import Idealize.ShloMosaic.Lib.Pipeline.Value

/-!
# The layer of width 128: what its normalise-and-activate region leaves

The region walks the 100000 rows of the aggregated activations in ten blocks of 10000 rows. At each block it adds the
bias row, subtracts the mean row, multiplies by (variance + ε)^(-1/2) computed on the variance row, by the γ row, adds the
β row, and applies the exponential linear unit; the five parameter rows are whole [1, 128] arrays, the same at every block.
Entry (r, q) of the result therefore depends on the activation (r, q) and on the entries q of the rows only, and row r is
written by block r / 10000. Hence the array the region leaves is the specification's layer function of the arrays the
region found, with the inverse standard deviation taken on the row of variances.
-/

noncomputable section

open Idealize.ShloMosaic Idealize.ShloMosaic.TcCoe Idealize.SL.Sem
open Idealize.ShloMosaic.Pipeline (Dat)
open Idealize.ShloMosaic.ValueIdx

namespace Cert.KVal

open Cert.KernelIdeal Cert.KernelIdeal.Gen

variable (V : (c : Dev nD) → (b : Ref sig .tc) → Buf (Elt Ideal) ((c : Thread nD τ).loc b))

/-- The zero offsets of a whole-buffer access, spelt as a constant function. -/
theorem hz5 : (![0, 0] : Fin 2 → Nat) = fun _ => 0 := funext fun a => by fin_cases a <;> rfl

/-- (variance + ε)^(-1/2) computed on a ROW [1, 128] of variances, index by index. -/
def istdRow128 (rvRow : Cert.Spec.C Ideal S1x128 .f32) : Cert.Spec.C Ideal S1x128 .f32 :=
  fun k => Ideal.rsqrt (rvRow k + Ideal.ofBits .f32 0x3727C5AC#32)

/-- Taking it on the row of a vector of variances is the row of the vector's inverse standard deviations: a row's entry
    (0, q) is the vector's entry q on both sides. -/
theorem istdRow128_row (rv : Cert.Spec.C Ideal S128 .f32) :
    istdRow128 (Cert.Spec.row128 (F := Ideal) rv) = Cert.Spec.row128 (F := Ideal) (Cert.Spec.istd128 (F := Ideal) rv) := rfl

/-- The block's arithmetic is the layer function of the block of activations and the parameter rows (windows in the
    order activations, bias, γ, β, mean, variance). -/
theorem pay5_eq (x0 : Vec Ideal S10000x128 .f32) (x1 x2 x3 x4 x5 : Vec Ideal S1x128 .f32) :
    k5_pay1 x0 x1 x5 x4 x2 x3 = bnEluArr x0 x1 x2 x3 x4 (istdRow x5) :=
  vec_bn_elu _ _ _ x0 x1 x5 x4 x2 x3

/-- The specification's layer of width 128 is the same function of the whole arrays. -/
theorem spec5_eq (A : Cert.Spec.C Ideal S100000x128 .f32) (B G BE RM S : Cert.Spec.C Ideal S1x128 .f32) :
    Cert.Spec.elu128 (F := Ideal) (Cert.Spec.bn128 (F := Ideal) A B G BE RM S) = bnEluArr A B G BE RM S :=
  host_bn_elu _ _ A B G BE RM S

/-- Where the blocks sit: the activations' block and the result's block at point t are both block (t, 0); every
    parameter row's block is block (0, 0). -/
theorem idx_facts5 : ∀ t : Fin cfg5.N,
    win5_0.index t (0 : Fin 2) = t.val ∧ win5_0.index t (1 : Fin 2) = 0
    ∧ win5_6.index t (0 : Fin 2) = t.val ∧ win5_6.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-- The activations' block at point t is the activations read through the result's block at t. -/
theorem iblk5_0 (c : Dev nD) (t : Fin cfg5.N) :
    (iblk5 V c 0 t : Vec Ideal S10000x128 .f32)
      = fun j => (V c (Pipeline.arrRef spec5 0) : S100000x128.Idx → EReal) (((cfg5.win 6).blk t).view.emb j) := by
  obtain ⟨e0, e1, e2, e3, -⟩ := idx_facts5 t
  funext j
  show V c (Pipeline.arrRef spec5 0) (((cfg5.win 0).blk t).view.emb j) = V c (Pipeline.arrRef spec5 0) (((cfg5.win 6).blk t).view.emb j)
  have h0 : ((cfg5.win 0).blk t).view.emb j = ((cfg5.win 6).blk t).view.emb j := by
    funext a; apply Fin.ext
    match a with
    | ⟨0, _⟩ => show win5_0.index t (0 : Fin 2) * 10000 + 1 * (j 0).val = win5_6.index t (0 : Fin 2) * 10000 + 1 * (j 0).val; omega
    | ⟨1, _⟩ => show win5_0.index t (1 : Fin 2) * 128 + 1 * (j 1).val = win5_6.index t (1 : Fin 2) * 128 + 1 * (j 1).val; omega
  rw [h0]

/-- Window 1's block at any point is its whole row. -/
theorem iblk5_1 (c : Dev nD) (t : Fin cfg5.N) :
    (iblk5 V c 1 t : Vec Ideal S1x128 .f32) = (V c (Pipeline.arrRef spec5 1) : S1x128.Idx → EReal) := by
  obtain ⟨-, -, -, -, e1a, e1b, e2a, e2b, e3a, e3b, e4a, e4b, e5a, e5b⟩ := idx_facts5 t
  funext j
  show V c (Pipeline.arrRef spec5 1) (((cfg5.win 1).blk t).view.emb j) = V c (Pipeline.arrRef spec5 1) j
  have h0 : ((cfg5.win 1).blk t).view.emb j = j := by
    funext a; apply Fin.ext
    match a with
    | ⟨0, _⟩ => show win5_1.index t (0 : Fin 2) * 1 + 1 * (j 0).val = (j 0).val; omega
    | ⟨1, _⟩ => show win5_1.index t (1 : Fin 2) * 128 + 1 * (j 1).val = (j 1).val; omega
  rw [h0]

/-- Window 2's block at any point is its whole row. -/
theorem iblk5_2 (c : Dev nD) (t : Fin cfg5.N) :
    (iblk5 V c 2 t : Vec Ideal S1x128 .f32) = (V c (Pipeline.arrRef spec5 2) : S1x128.Idx → EReal) := by
  obtain ⟨-, -, -, -, e1a, e1b, e2a, e2b, e3a, e3b, e4a, e4b, e5a, e5b⟩ := idx_facts5 t
  funext j
  show V c (Pipeline.arrRef spec5 2) (((cfg5.win 2).blk t).view.emb j) = V c (Pipeline.arrRef spec5 2) j
  have h0 : ((cfg5.win 2).blk t).view.emb j = j := by
    funext a; apply Fin.ext
    match a with
    | ⟨0, _⟩ => show win5_2.index t (0 : Fin 2) * 1 + 1 * (j 0).val = (j 0).val; omega
    | ⟨1, _⟩ => show win5_2.index t (1 : Fin 2) * 128 + 1 * (j 1).val = (j 1).val; omega
  rw [h0]

/-- Window 3's block at any point is its whole row. -/
theorem iblk5_3 (c : Dev nD) (t : Fin cfg5.N) :
    (iblk5 V c 3 t : Vec Ideal S1x128 .f32) = (V c (Pipeline.arrRef spec5 3) : S1x128.Idx → EReal) := by
  obtain ⟨-, -, -, -, e1a, e1b, e2a, e2b, e3a, e3b, e4a, e4b, e5a, e5b⟩ := idx_facts5 t
  funext j
  show V c (Pipeline.arrRef spec5 3) (((cfg5.win 3).blk t).view.emb j) = V c (Pipeline.arrRef spec5 3) j
  have h0 : ((cfg5.win 3).blk t).view.emb j = j := by
    funext a; apply Fin.ext
    match a with
    | ⟨0, _⟩ => show win5_3.index t (0 : Fin 2) * 1 + 1 * (j 0).val = (j 0).val; omega
    | ⟨1, _⟩ => show win5_3.index t (1 : Fin 2) * 128 + 1 * (j 1).val = (j 1).val; omega
  rw [h0]

/-- Window 4's block at any point is its whole row. -/
theorem iblk5_4 (c : Dev nD) (t : Fin cfg5.N) :
    (iblk5 V c 4 t : Vec Ideal S1x128 .f32) = (V c (Pipeline.arrRef spec5 4) : S1x128.Idx → EReal) := by
  obtain ⟨-, -, -, -, e1a, e1b, e2a, e2b, e3a, e3b, e4a, e4b, e5a, e5b⟩ := idx_facts5 t
  funext j
  show V c (Pipeline.arrRef spec5 4) (((cfg5.win 4).blk t).view.emb j) = V c (Pipeline.arrRef spec5 4) j
  have h0 : ((cfg5.win 4).blk t).view.emb j = j := by
    funext a; apply Fin.ext
    match a with
    | ⟨0, _⟩ => show win5_4.index t (0 : Fin 2) * 1 + 1 * (j 0).val = (j 0).val; omega
    | ⟨1, _⟩ => show win5_4.index t (1 : Fin 2) * 128 + 1 * (j 1).val = (j 1).val; omega
  rw [h0]

/-- Window 5's block at any point is its whole row. -/
theorem iblk5_5 (c : Dev nD) (t : Fin cfg5.N) :
    (iblk5 V c 5 t : Vec Ideal S1x128 .f32) = (V c (Pipeline.arrRef spec5 5) : S1x128.Idx → EReal) := by
  obtain ⟨-, -, -, -, e1a, e1b, e2a, e2b, e3a, e3b, e4a, e4b, e5a, e5b⟩ := idx_facts5 t
  funext j
  show V c (Pipeline.arrRef spec5 5) (((cfg5.win 5).blk t).view.emb j) = V c (Pipeline.arrRef spec5 5) j
  have h0 : ((cfg5.win 5).blk t).view.emb j = j := by
    funext a; apply Fin.ext
    match a with
    | ⟨0, _⟩ => show win5_5.index t (0 : Fin 2) * 1 + 1 * (j 0).val = (j 0).val; omega
    | ⟨1, _⟩ => show win5_5.index t (1 : Fin 2) * 128 + 1 * (j 1).val = (j 1).val; omega
  rw [h0]

/-- The layer function of the arrays the region finds: what the result array ends holding. -/
abbrev G5 (c : Dev nD) : S100000x128.Idx → EReal :=
  bnEluArr (V c (Pipeline.arrRef spec5 0) : S100000x128.Idx → EReal) (V c (Pipeline.arrRef spec5 1) : S1x128.Idx → EReal)
    (V c (Pipeline.arrRef spec5 2) : S1x128.Idx → EReal) (V c (Pipeline.arrRef spec5 3) : S1x128.Idx → EReal)
    (V c (Pipeline.arrRef spec5 4) : S1x128.Idx → EReal) (istdRow (V c (Pipeline.arrRef spec5 5) : S1x128.Idx → EReal))

/-- What point t writes back is block t of the layer function of the arrays the region finds. -/
theorem flushed5_eq (c : Dev nD) (t : Fin cfg5.N) :
    (dat5 (F := Ideal) V c).flushed 6 t = ((cfg5.win 6).blk t).view.read (Elt Ideal) (G5 V c) := by
  show (cfg5.win 6).cut (grid5.coords t) ((dat5 V c).after 6 t) = _
  rw [after5_6]
  unfold out5_6
  rw [View.canon_unit_zero hz5]
  simp only [View.ld_unit_zero (S := S10000x128) hz5, View.ld_unit_zero (S := S1x128) hz5]
  rw [pay5_eq (iblk5 V c 0 t) (iblk5 V c 1 t) (iblk5 V c 2 t) (iblk5 V c 3 t) (iblk5 V c 4 t) (iblk5 V c 5 t)]
  rw [iblk5_0 V c t, iblk5_1 V c t, iblk5_2 V c t, iblk5_3 V c t, iblk5_4 V c t, iblk5_5 V c t]
  obtain ⟨-, -, -, e3, -⟩ := idx_facts5 t
  exact (bnEluArr_comp _ _ _ _ _ _ (fun j => ((cfg5.win 6).blk t).view.emb j) (fun j => by
    show win5_6.index t (1 : Fin 2) * 128 + 1 * (j 1).val = (j 1).val; omega)).symm

/-- An index of the array is in point t's block iff each coordinate is in the block's range on its axis. -/
theorem mem_blk5 (t : Fin cfg5.N) (i : S100000x128.Idx) :
    i ∈ ((cfg5.win 6).blk t).view.set ↔ ∀ a : Fin 2, win5_6.index t a * S10000x128.size a ≤ (i a).val ∧ (i a).val < win5_6.index t a * S10000x128.size a + S10000x128.size a := by
  show i ∈ ((View.whole main_v88).slice (win5_6.rect t)).set ↔ _
  rw [View.set_slice_whole, Rect.mem_set_unit]
  exact Iff.rfl

/-- Row r of the array is written by point r / 10000. -/
theorem cover5 (i : S100000x128.Idx) : ∃ t : Fin cfg5.N, (cfg5.win 6).flush t = true ∧ i ∈ ((cfg5.win 6).blk t).view.set := by
  have hi0 : (i 0).val < 100000 := (i 0).isLt
  have hi1 : (i 1).val < 128 := (i 1).isLt
  have hN : grid5.N = 10 := N_5
  have ht : (i 0).val / 10000 < cfg5.N := by show _ < grid5.N; omega
  obtain ⟨-, -, e2, e3, -⟩ := idx_facts5 ⟨(i 0).val / 10000, ht⟩
  refine ⟨⟨(i 0).val / 10000, ht⟩, flush5_6 _, ?_⟩
  rw [mem_blk5]
  intro a
  match a with
  | ⟨0, _⟩ => show win5_6.index ⟨(i 0).val / 10000, ht⟩ (0 : Fin 2) * 10000 ≤ (i 0).val ∧ (i 0).val < win5_6.index ⟨(i 0).val / 10000, ht⟩ (0 : Fin 2) * 10000 + 10000
              rw [e2]; show (i 0).val / 10000 * 10000 ≤ (i 0).val ∧ (i 0).val < (i 0).val / 10000 * 10000 + 10000; omega
  | ⟨1, _⟩ => show win5_6.index ⟨(i 0).val / 10000, ht⟩ (1 : Fin 2) * 128 ≤ (i 1).val ∧ (i 1).val < win5_6.index ⟨(i 0).val / 10000, ht⟩ (1 : Fin 2) * 128 + 128
              rw [e3]; omega

/-- THE RESULT ARRAY after the region: the specification's layer of width 128 of the arrays the region found — activations,
    bias, γ, β, mean in windows 0 to 4, and the inverse standard deviation taken on the row of variances (window 5). -/
theorem bn5 (c : Dev nD) :
    (dat5 (F := Ideal) V c).arrAt 6 cfg5.N
      = Cert.Spec.elu128 (F := Ideal) (Cert.Spec.bn128 (F := Ideal) (V c (Pipeline.arrRef spec5 0)) (V c (Pipeline.arrRef spec5 1))
          (V c (Pipeline.arrRef spec5 2)) (V c (Pipeline.arrRef spec5 3)) (V c (Pipeline.arrRef spec5 4))
          (istdRow128 (V c (Pipeline.arrRef spec5 5)))) :=
  ((dat5 (F := Ideal) V c).arrAt_eq_of_cover 6 (G5 V c) (fun t _ => flushed5_eq V c t) cover5).trans
    (spec5_eq (V c (Pipeline.arrRef spec5 0)) (V c (Pipeline.arrRef spec5 1)) (V c (Pipeline.arrRef spec5 2))
      (V c (Pipeline.arrRef spec5 3)) (V c (Pipeline.arrRef spec5 4)) (istdRow128 (V c (Pipeline.arrRef spec5 5)))).symm

end Cert.KVal

end
-- ==== Proof.Sig7.lean ====
/-
  The last region: bias, the exponential linear unit and the logistic function on the width-1 layer. A grid of 10
  points over the 100000 rows; point `t` takes rows `10000 t … 10000 t + 9999` of the activation column `[100000, 1]`
  and the whole bias row `[1, 1]`, and writes `1 / (1 + e^(−u))`, `u` the unit of activation plus bias (`y` for `y > 0`,
  `e^y − 1` otherwise), to the same rows of the output. Entry by entry this is one function of the activation's entry and
  the bias, so a block of the result is the block of that function of the whole arrays; row `r` of the output is
  written by point `r / 10000`. The host's spelling of the same function (a guarded argument of `e^z − 1`, a product
  with the constant one, a negation where the kernel subtracts from zero) agrees with it entry by entry.
-/
import proofs.«122410_j40535901339683_1_alg».proof.Proof.Gen.KernelIdeal.Frame
import proofs.«122410_j40535901339683_1_alg».proof.Proof.Gen.ReferenceIdeal
import proofs.«122410_j40535901339683_1_alg».proof.Proof.Spec
import proofs.«122410_j40535901339683_1_alg».proof.Proof.LibBnUnit
import Idealize.ShloMosaic.Lib.Pipeline.Value

noncomputable section
namespace Cert.KVal
open Idealize.ShloMosaic Idealize.ShloMosaic.ValueIdx Idealize.ShloMosaic.TcCoe Idealize.SL.Sem
open Idealize.ShloMosaic.Pipeline (Dat)
open Cert.KernelIdeal Cert.KernelIdeal.Gen

/-- The zero offsets of a whole-block access, as a constant function. -/
theorem zero_off7 : (![0, 0] : Fin 2 → Nat) = fun _ => 0 := funext fun a => by fin_cases a <;> rfl

/-- The block's result, entry by entry: the logistic function of the unit of activation plus bias. -/
theorem pay7_eq (x0 : Vec Ideal S10000x1 .f32) (x1 : Vec Ideal S1x1 .f32) :
    k7_pay1 (F := Ideal) x0 x1 = sigArr (m := 10000) (n := 1) x0 x1 := by
  unfold k7_pay1
  exact vec_sig (m := 10000) (n := 1) _ _ _ x0 x1

/-- The host's spelling of the last layer's unit and logistic function, entry by entry: the same function. -/
theorem fin1_eq (A : FVec Ideal S100000x1 .f32) (B : FVec Ideal S1x1 .f32) :
    Cert.Spec.fin1 (F := Ideal) A B = sigArr (m := 100000) (n := 1) A B := by
  unfold Cert.Spec.fin1 Cert.Spec.elu1 Cert.Spec.rows1
  exact host_sig (m := 100000) (n := 1) _ _ A B

/-- A block entry of the result is the whole-array function at the entry of the array the block entry comes from. -/
theorem block7_value (l : FVec Ideal S100000x1 .f32) (r : FVec Ideal S1x1 .f32)
    (x0 : Vec Ideal S10000x1 .f32) (x1 : Vec Ideal S1x1 .f32) (j : S10000x1.Idx) (e : S100000x1.Idx)
    (he : (e 1).val = (j 1).val) (h0 : x0 j = l e) (h1 : ∀ y : S1x1.Idx, x1 y = r y) :
    k7_pay1 (F := Ideal) x0 x1 j = sigArr (m := 100000) (n := 1) l r e := by
  rw [pay7_eq]
  obtain rfl : x1 = r := funext h1
  show sigAt (x0 j) x1 (j 1) = sigAt (l e) x1 (e 1)
  rw [h0]
  exact congrArg (sigAt (l e) x1) (Fin.ext he.symm : (j 1 : Fin 1) = e 1)

/-- The windows' block indices at every grid point: the two row-block windows sit at block `(t, 0)`, the bias row's at `(0, 0)`. -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

section
variable (V : (c : Dev nD) → (b : Ref sig .tc) → Buf (Elt Ideal) ((c : Thread nD τ).loc b))

/-- What grid point `t` writes back is rows `10000 t … 10000 t + 9999` of the whole-array function. -/
theorem flushed7 (c : Dev nD) (t : Fin cfg7.N) :
    (dat7 (F := Ideal) V c).flushed 2 t = ((cfg7.win 2).blk t).view.read (Elt Ideal)
      (sigArr (m := 100000) (n := 1) (V c (Pipeline.arrRef spec7 0)) (V c (Pipeline.arrRef spec7 1))) := by
  show (cfg7.win 2).cut (grid7.coords t) ((dat7 V c).after 2 t) = _
  rw [after7_2]
  unfold out7_2
  rw [View.canon_unit_zero zero_off7]
  simp only [View.ld_unit_zero (S := S10000x1) zero_off7, View.ld_unit_zero (S := S1x1) zero_off7]
  obtain ⟨e0, e1, e2, e3, e4, e5⟩ := idx_facts7 t
  funext j
  show k7_pay1 (iblk7 V c 0 t) (iblk7 V c 1 t) j = sigArr (m := 100000) (n := 1) (V c (Pipeline.arrRef spec7 0)) (V c (Pipeline.arrRef spec7 1)) (((cfg7.win 2).blk t).view.emb j)
  refine block7_value _ _ (iblk7 V c 0 t) (iblk7 V c 1 t) j _ ?_ ?_ ?_
  · show win7_2.index t (1 : Fin 2) * 1 + 1 * (j 1).val = (j 1).val
    omega
  · show V c (Pipeline.arrRef spec7 0) (((cfg7.win 0).blk t).view.emb j) = V c (Pipeline.arrRef spec7 0) (((cfg7.win 2).blk t).view.emb j)
    refine congrArg _ (funext fun a => Fin.ext ?_)
    match a with
    | ⟨0, _⟩ =>
      show win7_0.index t (0 : Fin 2) * 10000 + 1 * (j 0).val = win7_2.index t (0 : Fin 2) * 10000 + 1 * (j 0).val
      omega
    | ⟨1, _⟩ =>
      show win7_0.index t (1 : Fin 2) * 1 + 1 * (j 1).val = win7_2.index t (1 : Fin 2) * 1 + 1 * (j 1).val
      omega
  · intro y
    show V c (Pipeline.arrRef spec7 1) (((cfg7.win 1).blk t).view.emb y) = V c (Pipeline.arrRef spec7 1) y
    refine congrArg _ (funext fun a => Fin.ext ?_)
    match a with
    | ⟨0, _⟩ =>
      show win7_1.index t (0 : Fin 2) * 1 + 1 * (y 0).val = (y 0).val
      omega
    | ⟨1, _⟩ =>
      show win7_1.index t (1 : Fin 2) * 1 + 1 * (y 1).val = (y 1).val
      omega

/-- An index of the output array lies in point `t`'s block iff each coordinate lies in the block's range on its axis. -/
theorem mem_blk7 (t : Fin cfg7.N) (i : S100000x1.Idx) :
    i ∈ ((cfg7.win 2).blk t).view.set ↔ ∀ a : Fin 2, win7_2.index t a * S10000x1.size a ≤ (i a).val ∧ (i a).val < win7_2.index t a * S10000x1.size a + S10000x1.size a := by
  show i ∈ ((View.whole main_v101).slice (win7_2.rect t)).set ↔ _
  rw [View.set_slice_whole, Rect.mem_set_unit]
  exact Iff.rfl

/-- Row `r` of the output is written back by grid point `r / 10000`. -/
theorem cover7 (i : S100000x1.Idx) : ∃ t : Fin cfg7.N, (cfg7.win 2).flush t = true ∧ i ∈ ((cfg7.win 2).blk t).view.set := by
  have hi0 : (i 0).val < 100000 := (i 0).isLt
  have hi1 : (i 1).val < 1 := (i 1).isLt
  have hN : cfg7.N = 10 := N_7
  have ht : (i 0).val / 10000 < cfg7.N := by rw [hN]; omega
  obtain ⟨e0, e1, e2, e3, e4, e5⟩ := idx_facts7 ⟨(i 0).val / 10000, ht⟩
  refine ⟨⟨(i 0).val / 10000, ht⟩, flush7_2 _, ?_⟩
  rw [mem_blk7]
  intro a
  match a with
  | ⟨0, _⟩ =>
    show win7_2.index ⟨(i 0).val / 10000, ht⟩ (0 : Fin 2) * 10000 ≤ (i 0).val ∧ (i 0).val < win7_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win7_2.index ⟨(i 0).val / 10000, ht⟩ (1 : Fin 2) * 1 ≤ (i 1).val ∧ (i 1).val < win7_2.index ⟨(i 0).val / 10000, ht⟩ (1 : Fin 2) * 1 + 1
    rw [e5]
    omega

/-- The output array of the last region, after the region, is the host's spelling of bias, unit and logistic function of
    the region's activation column and bias row as the region finds them. -/
theorem sig7 (c : Dev nD) :
    (dat7 (F := Ideal) V c).arrAt 2 cfg7.N
      = Cert.Spec.fin1 (F := Ideal) (V c (Pipeline.arrRef spec7 0)) (V c (Pipeline.arrRef spec7 1)) :=
  ((dat7 V c).arrAt_eq_of_cover 2 (sigArr (m := 100000) (n := 1) (V c (Pipeline.arrRef spec7 0)) (V c (Pipeline.arrRef spec7 1)))
    (fun t _ => flushed7 V c t) cover7).trans (fin1_eq _ _).symm
end

end Cert.KVal
-- ==== Proof.KChain.lean ====
/-
  The result buffer of the kernel program, read through the fold of buffer contents: stage by stage, each matrix
  region leaves the product of the features with the layer's weights, each stretch of host operations after it
  leaves the aggregation over the edge slots, and each pointwise region leaves the layer's output; the slot words,
  the slot weights and the parameter rows are carried unchanged from the contents at the first region's entry,
  because no later stage writes them.
-/
import proofs.«122410_j40535901339683_1_alg».proof.Proof.Gen.KernelIdeal.Frame
import proofs.«122410_j40535901339683_1_alg».proof.Proof.Gen.ReferenceIdeal
import proofs.«122410_j40535901339683_1_alg».proof.Proof.Spec
import Idealize.ShloMosaic.Lib.StableHlo.Run
import proofs.«122410_j40535901339683_1_alg».proof.Proof.KSkip
import proofs.«122410_j40535901339683_1_alg».proof.Proof.KFold0
import proofs.«122410_j40535901339683_1_alg».proof.Proof.Lin0
import proofs.«122410_j40535901339683_1_alg».proof.Proof.Lin2
import proofs.«122410_j40535901339683_1_alg».proof.Proof.Lin4
import proofs.«122410_j40535901339683_1_alg».proof.Proof.Lin6
import proofs.«122410_j40535901339683_1_alg».proof.Proof.Bn1
import proofs.«122410_j40535901339683_1_alg».proof.Proof.Bn3
import proofs.«122410_j40535901339683_1_alg».proof.Proof.Bn5
import proofs.«122410_j40535901339683_1_alg».proof.Proof.Sig7

set_option maxRecDepth 16384

noncomputable section

namespace Cert.KernelIdeal.KFold

open Idealize.ShloMosaic Idealize.ShloMosaic.TcCoe Idealize.SL.Sem Idealize.ShloMosaic.StableHlo
open Cert.KernelIdeal Cert.KernelIdeal.Gen

variable {F : FTy → Type} [FloatOps F]

variable (m : (ℓ : Loc nD τ sig) → Buf (Elt Ideal) ℓ) (ρ : Dev nD → PrngReg) (c : Dev nD)

/-- The node features entering layer 1: the argument array. -/
def H0 : Cert.Spec.C Ideal Cert.ReferenceIdeal.S100000x64 .f32 := (m ((c : Thread nD τ).loc main_arg0))

/-- The node features leaving layer 1. -/
def H1 : Cert.Spec.C Ideal Cert.ReferenceIdeal.S100000x32 .f32 :=
  Cert.Spec.layer32 (F := Ideal) (m ((c : Thread nD τ).loc main_arg1)) (H0 m c) (m ((c : Thread nD τ).loc main_arg2)) (m ((c : Thread nD τ).loc main_arg3)) (m ((c : Thread nD τ).loc main_arg10)) (m ((c : Thread nD τ).loc main_arg11)) (m ((c : Thread nD τ).loc main_arg12)) (m ((c : Thread nD τ).loc main_arg13))

/-- Layer 1's product with the weights: what the matrix region's write-backs leave. -/
theorem w4_xw : W4 m ρ c (Proc.devRef .tc main_v47) = Cert.Spec.lin32 (F := Ideal) (H0 m c) (m ((c : Thread nD τ).loc main_arg2)) :=
  ((W4_arr m ρ c 2).trans (Cert.KVal.lin0 (V3 m ρ) c)).trans
    (congrArg₂ (fun a b => Cert.Spec.lin32 (F := Ideal) a b) (w3_arg0 m ρ c) (w3_arg2 m ρ c))

set_option maxHeartbeats 1600000 in
/-- Layer 1's aggregation over the slots: the stretch of host operations after the matrix region. -/
theorem w5_agg : W5 m ρ c (Proc.devRef .tc main_v59) = Cert.Spec.agg32 (F := Ideal) (m ((c : Thread nD τ).loc main_arg1)) (Cert.Spec.lin32 (F := Ideal) (H0 m c) (m ((c : Thread nD τ).loc main_arg2))) := by
  have e3 : W4 m ρ c (Proc.devRef .tc main_v3) = _ := ((W4_of_ne m ρ c main_v3 (by decide)).trans (w3_src m ρ c))
  have e6 : W4 m ρ c (Proc.devRef .tc main_v6) = _ := ((W4_of_ne m ρ c main_v6 (by decide)).trans (w3_dst m ρ c))
  have e30 : W4 m ρ c (Proc.devRef .tc main_v30) = _ := ((W4_of_ne m ρ c main_v30 (by decide)).trans (w3_norm m ρ c))
  have exw := w4_xw m ρ c
  show StableHlo.after hostOps1 (W4 m ρ c) (Proc.devRef .tc main_v59) = _
  generalize W4 m ρ c = Vin at e3 e6 e30 exw ⊢
  simp only [hostOps1]
  after_results
  rw [e3, e6, e30, exw]
  rfl

/-- Layer 1's output: bias, normalisation and unit, what the pointwise region's write-backs leave. -/
theorem w6_h : W6 m ρ c (Proc.devRef .tc main_v60) = H1 m c := by
  have h : W6 m ρ c (Proc.devRef .tc main_v60)
      = Cert.Spec.elu32 (F := Ideal) (Cert.Spec.bn32 (F := Ideal) (W5 m ρ c (Proc.devRef .tc main_v59)) (W5 m ρ c (Proc.devRef .tc main_v31)) (W5 m ρ c (Proc.devRef .tc main_v35)) (W5 m ρ c (Proc.devRef .tc main_v36)) (W5 m ρ c (Proc.devRef .tc main_v37))
          (Cert.KVal.istdRow32 (W5 m ρ c (Proc.devRef .tc main_v38)))) :=
    (W6_arr m ρ c 6).trans (Cert.KVal.bn1 (V5 m ρ) c)
  rw [w5_agg m ρ c,
    show W5 m ρ c (Proc.devRef .tc main_v31) = _ from (((skip1 (W4 m ρ c) main_v31 (by decide)).trans (W4_of_ne m ρ c main_v31 (by decide))).trans (w3_b1 m ρ c)),
    show W5 m ρ c (Proc.devRef .tc main_v35) = _ from (((skip1 (W4 m ρ c) main_v35 (by decide)).trans (W4_of_ne m ρ c main_v35 (by decide))).trans (w3_g1 m ρ c)),
    show W5 m ρ c (Proc.devRef .tc main_v36) = _ from (((skip1 (W4 m ρ c) main_v36 (by decide)).trans (W4_of_ne m ρ c main_v36 (by decide))).trans (w3_be1 m ρ c)),
    show W5 m ρ c (Proc.devRef .tc main_v37) = _ from (((skip1 (W4 m ρ c) main_v37 (by decide)).trans (W4_of_ne m ρ c main_v37 (by decide))).trans (w3_rm1 m ρ c)),
    show W5 m ρ c (Proc.devRef .tc main_v38) = _ from (((skip1 (W4 m ρ c) main_v38 (by decide)).trans (W4_of_ne m ρ c main_v38 (by decide))).trans (w3_rv1 m ρ c)),
    Cert.KVal.istdRow32_row] at h
  exact h

/-- The node features leaving layer 2. -/
def H2 : Cert.Spec.C Ideal Cert.ReferenceIdeal.S100000x64 .f32 :=
  Cert.Spec.layer64 (F := Ideal) (m ((c : Thread nD τ).loc main_arg1)) (H1 m c) (m ((c : Thread nD τ).loc main_arg4)) (m ((c : Thread nD τ).loc main_arg5)) (m ((c : Thread nD τ).loc main_arg14)) (m ((c : Thread nD τ).loc main_arg15)) (m ((c : Thread nD τ).loc main_arg16)) (m ((c : Thread nD τ).loc main_arg17))

/-- Layer 2's product with the weights: what the matrix region's write-backs leave. -/
theorem w7_xw : W7 m ρ c (Proc.devRef .tc main_v61) = Cert.Spec.lin64 (F := Ideal) (H1 m c) (m ((c : Thread nD τ).loc main_arg4)) :=
  ((W7_arr m ρ c 2).trans (Cert.KVal.lin2 (V6 m ρ) c)).trans
    (congrArg₂ (fun a b => Cert.Spec.lin64 (F := Ideal) a b) (w6_h m ρ c) (((W6_of_ne m ρ c main_arg4 (by decide)).trans ((skip1 (W4 m ρ c) main_arg4 (by decide)).trans (W4_of_ne m ρ c main_arg4 (by decide)))).trans (w3_arg4 m ρ c)))

set_option maxHeartbeats 1600000 in
/-- Layer 2's aggregation over the slots: the stretch of host operations after the matrix region. -/
theorem w8_agg : W8 m ρ c (Proc.devRef .tc main_v73) = Cert.Spec.agg64 (F := Ideal) (m ((c : Thread nD τ).loc main_arg1)) (Cert.Spec.lin64 (F := Ideal) (H1 m c) (m ((c : Thread nD τ).loc main_arg4))) := by
  have e3 : W7 m ρ c (Proc.devRef .tc main_v3) = _ := (((W7_of_ne m ρ c main_v3 (by decide)).trans ((W6_of_ne m ρ c main_v3 (by decide)).trans ((skip1 (W4 m ρ c) main_v3 (by decide)).trans (W4_of_ne m ρ c main_v3 (by decide))))).trans (w3_src m ρ c))
  have e6 : W7 m ρ c (Proc.devRef .tc main_v6) = _ := (((W7_of_ne m ρ c main_v6 (by decide)).trans ((W6_of_ne m ρ c main_v6 (by decide)).trans ((skip1 (W4 m ρ c) main_v6 (by decide)).trans (W4_of_ne m ρ c main_v6 (by decide))))).trans (w3_dst m ρ c))
  have e30 : W7 m ρ c (Proc.devRef .tc main_v30) = _ := (((W7_of_ne m ρ c main_v30 (by decide)).trans ((W6_of_ne m ρ c main_v30 (by decide)).trans ((skip1 (W4 m ρ c) main_v30 (by decide)).trans (W4_of_ne m ρ c main_v30 (by decide))))).trans (w3_norm m ρ c))
  have exw := w7_xw m ρ c
  show StableHlo.after hostOps3 (W7 m ρ c) (Proc.devRef .tc main_v73) = _
  generalize W7 m ρ c = Vin at e3 e6 e30 exw ⊢
  simp only [hostOps3]
  after_results
  rw [e3, e6, e30, exw]
  rfl

/-- Layer 2's output: bias, normalisation and unit, what the pointwise region's write-backs leave. -/
theorem w9_h : W9 m ρ c (Proc.devRef .tc main_v74) = H2 m c := by
  have h : W9 m ρ c (Proc.devRef .tc main_v74)
      = Cert.Spec.elu64 (F := Ideal) (Cert.Spec.bn64 (F := Ideal) (W8 m ρ c (Proc.devRef .tc main_v73)) (W8 m ρ c (Proc.devRef .tc main_v32)) (W8 m ρ c (Proc.devRef .tc main_v39)) (W8 m ρ c (Proc.devRef .tc main_v40)) (W8 m ρ c (Proc.devRef .tc main_v41))
          (Cert.KVal.istdRow64 (W8 m ρ c (Proc.devRef .tc main_v42)))) :=
    (W9_arr m ρ c 6).trans (Cert.KVal.bn3 (V8 m ρ) c)
  rw [w8_agg m ρ c,
    show W8 m ρ c (Proc.devRef .tc main_v32) = _ from (((skip3 (W7 m ρ c) main_v32 (by decide)).trans ((W7_of_ne m ρ c main_v32 (by decide)).trans ((W6_of_ne m ρ c main_v32 (by decide)).trans ((skip1 (W4 m ρ c) main_v32 (by decide)).trans (W4_of_ne m ρ c main_v32 (by decide)))))).trans (w3_b2 m ρ c)),
    show W8 m ρ c (Proc.devRef .tc main_v39) = _ from (((skip3 (W7 m ρ c) main_v39 (by decide)).trans ((W7_of_ne m ρ c main_v39 (by decide)).trans ((W6_of_ne m ρ c main_v39 (by decide)).trans ((skip1 (W4 m ρ c) main_v39 (by decide)).trans (W4_of_ne m ρ c main_v39 (by decide)))))).trans (w3_g2 m ρ c)),
    show W8 m ρ c (Proc.devRef .tc main_v40) = _ from (((skip3 (W7 m ρ c) main_v40 (by decide)).trans ((W7_of_ne m ρ c main_v40 (by decide)).trans ((W6_of_ne m ρ c main_v40 (by decide)).trans ((skip1 (W4 m ρ c) main_v40 (by decide)).trans (W4_of_ne m ρ c main_v40 (by decide)))))).trans (w3_be2 m ρ c)),
    show W8 m ρ c (Proc.devRef .tc main_v41) = _ from (((skip3 (W7 m ρ c) main_v41 (by decide)).trans ((W7_of_ne m ρ c main_v41 (by decide)).trans ((W6_of_ne m ρ c main_v41 (by decide)).trans ((skip1 (W4 m ρ c) main_v41 (by decide)).trans (W4_of_ne m ρ c main_v41 (by decide)))))).trans (w3_rm2 m ρ c)),
    show W8 m ρ c (Proc.devRef .tc main_v42) = _ from (((skip3 (W7 m ρ c) main_v42 (by decide)).trans ((W7_of_ne m ρ c main_v42 (by decide)).trans ((W6_of_ne m ρ c main_v42 (by decide)).trans ((skip1 (W4 m ρ c) main_v42 (by decide)).trans (W4_of_ne m ρ c main_v42 (by decide)))))).trans (w3_rv2 m ρ c)),
    Cert.KVal.istdRow64_row] at h
  exact h

/-- The node features leaving layer 3. -/
def H3 : Cert.Spec.C Ideal Cert.ReferenceIdeal.S100000x128 .f32 :=
  Cert.Spec.layer128 (F := Ideal) (m ((c : Thread nD τ).loc main_arg1)) (H2 m c) (m ((c : Thread nD τ).loc main_arg6)) (m ((c : Thread nD τ).loc main_arg7)) (m ((c : Thread nD τ).loc main_arg18)) (m ((c : Thread nD τ).loc main_arg19)) (m ((c : Thread nD τ).loc main_arg20)) (m ((c : Thread nD τ).loc main_arg21))

/-- Layer 3's product with the weights: what the matrix region's write-backs leave. -/
theorem w10_xw : W10 m ρ c (Proc.devRef .tc main_v75) = Cert.Spec.lin128 (F := Ideal) (H2 m c) (m ((c : Thread nD τ).loc main_arg6)) :=
  ((W10_arr m ρ c 2).trans (Cert.KVal.lin4 (V9 m ρ) c)).trans
    (congrArg₂ (fun a b => Cert.Spec.lin128 (F := Ideal) a b) (w9_h m ρ c) (((W9_of_ne m ρ c main_arg6 (by decide)).trans ((skip3 (W7 m ρ c) main_arg6 (by decide)).trans ((W7_of_ne m ρ c main_arg6 (by decide)).trans ((W6_of_ne m ρ c main_arg6 (by decide)).trans ((skip1 (W4 m ρ c) main_arg6 (by decide)).trans (W4_of_ne m ρ c main_arg6 (by decide))))))).trans (w3_arg6 m ρ c)))

set_option maxHeartbeats 1600000 in
/-- Layer 3's aggregation over the slots: the stretch of host operations after the matrix region. -/
theorem w11_agg : W11 m ρ c (Proc.devRef .tc main_v87) = Cert.Spec.agg128 (F := Ideal) (m ((c : Thread nD τ).loc main_arg1)) (Cert.Spec.lin128 (F := Ideal) (H2 m c) (m ((c : Thread nD τ).loc main_arg6))) := by
  have e3 : W10 m ρ c (Proc.devRef .tc main_v3) = _ := (((W10_of_ne m ρ c main_v3 (by decide)).trans ((W9_of_ne m ρ c main_v3 (by decide)).trans ((skip3 (W7 m ρ c) main_v3 (by decide)).trans ((W7_of_ne m ρ c main_v3 (by decide)).trans ((W6_of_ne m ρ c main_v3 (by decide)).trans ((skip1 (W4 m ρ c) main_v3 (by decide)).trans (W4_of_ne m ρ c main_v3 (by decide)))))))).trans (w3_src m ρ c))
  have e6 : W10 m ρ c (Proc.devRef .tc main_v6) = _ := (((W10_of_ne m ρ c main_v6 (by decide)).trans ((W9_of_ne m ρ c main_v6 (by decide)).trans ((skip3 (W7 m ρ c) main_v6 (by decide)).trans ((W7_of_ne m ρ c main_v6 (by decide)).trans ((W6_of_ne m ρ c main_v6 (by decide)).trans ((skip1 (W4 m ρ c) main_v6 (by decide)).trans (W4_of_ne m ρ c main_v6 (by decide)))))))).trans (w3_dst m ρ c))
  have e30 : W10 m ρ c (Proc.devRef .tc main_v30) = _ := (((W10_of_ne m ρ c main_v30 (by decide)).trans ((W9_of_ne m ρ c main_v30 (by decide)).trans ((skip3 (W7 m ρ c) main_v30 (by decide)).trans ((W7_of_ne m ρ c main_v30 (by decide)).trans ((W6_of_ne m ρ c main_v30 (by decide)).trans ((skip1 (W4 m ρ c) main_v30 (by decide)).trans (W4_of_ne m ρ c main_v30 (by decide)))))))).trans (w3_norm m ρ c))
  have exw := w10_xw m ρ c
  show StableHlo.after hostOps5 (W10 m ρ c) (Proc.devRef .tc main_v87) = _
  generalize W10 m ρ c = Vin at e3 e6 e30 exw ⊢
  simp only [hostOps5]
  after_results
  rw [e3, e6, e30, exw]
  rfl

/-- Layer 3's output: bias, normalisation and unit, what the pointwise region's write-backs leave. -/
theorem w12_h : W12 m ρ c (Proc.devRef .tc main_v88) = H3 m c := by
  have h : W12 m ρ c (Proc.devRef .tc main_v88)
      = Cert.Spec.elu128 (F := Ideal) (Cert.Spec.bn128 (F := Ideal) (W11 m ρ c (Proc.devRef .tc main_v87)) (W11 m ρ c (Proc.devRef .tc main_v33)) (W11 m ρ c (Proc.devRef .tc main_v43)) (W11 m ρ c (Proc.devRef .tc main_v44)) (W11 m ρ c (Proc.devRef .tc main_v45))
          (Cert.KVal.istdRow128 (W11 m ρ c (Proc.devRef .tc main_v46)))) :=
    (W12_arr m ρ c 6).trans (Cert.KVal.bn5 (V11 m ρ) c)
  rw [w11_agg m ρ c,
    show W11 m ρ c (Proc.devRef .tc main_v33) = _ from (((skip5 (W10 m ρ c) main_v33 (by decide)).trans ((W10_of_ne m ρ c main_v33 (by decide)).trans ((W9_of_ne m ρ c main_v33 (by decide)).trans ((skip3 (W7 m ρ c) main_v33 (by decide)).trans ((W7_of_ne m ρ c main_v33 (by decide)).trans ((W6_of_ne m ρ c main_v33 (by decide)).trans ((skip1 (W4 m ρ c) main_v33 (by decide)).trans (W4_of_ne m ρ c main_v33 (by decide))))))))).trans (w3_b3 m ρ c)),
    show W11 m ρ c (Proc.devRef .tc main_v43) = _ from (((skip5 (W10 m ρ c) main_v43 (by decide)).trans ((W10_of_ne m ρ c main_v43 (by decide)).trans ((W9_of_ne m ρ c main_v43 (by decide)).trans ((skip3 (W7 m ρ c) main_v43 (by decide)).trans ((W7_of_ne m ρ c main_v43 (by decide)).trans ((W6_of_ne m ρ c main_v43 (by decide)).trans ((skip1 (W4 m ρ c) main_v43 (by decide)).trans (W4_of_ne m ρ c main_v43 (by decide))))))))).trans (w3_g3 m ρ c)),
    show W11 m ρ c (Proc.devRef .tc main_v44) = _ from (((skip5 (W10 m ρ c) main_v44 (by decide)).trans ((W10_of_ne m ρ c main_v44 (by decide)).trans ((W9_of_ne m ρ c main_v44 (by decide)).trans ((skip3 (W7 m ρ c) main_v44 (by decide)).trans ((W7_of_ne m ρ c main_v44 (by decide)).trans ((W6_of_ne m ρ c main_v44 (by decide)).trans ((skip1 (W4 m ρ c) main_v44 (by decide)).trans (W4_of_ne m ρ c main_v44 (by decide))))))))).trans (w3_be3 m ρ c)),
    show W11 m ρ c (Proc.devRef .tc main_v45) = _ from (((skip5 (W10 m ρ c) main_v45 (by decide)).trans ((W10_of_ne m ρ c main_v45 (by decide)).trans ((W9_of_ne m ρ c main_v45 (by decide)).trans ((skip3 (W7 m ρ c) main_v45 (by decide)).trans ((W7_of_ne m ρ c main_v45 (by decide)).trans ((W6_of_ne m ρ c main_v45 (by decide)).trans ((skip1 (W4 m ρ c) main_v45 (by decide)).trans (W4_of_ne m ρ c main_v45 (by decide))))))))).trans (w3_rm3 m ρ c)),
    show W11 m ρ c (Proc.devRef .tc main_v46) = _ from (((skip5 (W10 m ρ c) main_v46 (by decide)).trans ((W10_of_ne m ρ c main_v46 (by decide)).trans ((W9_of_ne m ρ c main_v46 (by decide)).trans ((skip3 (W7 m ρ c) main_v46 (by decide)).trans ((W7_of_ne m ρ c main_v46 (by decide)).trans ((W6_of_ne m ρ c main_v46 (by decide)).trans ((skip1 (W4 m ρ c) main_v46 (by decide)).trans (W4_of_ne m ρ c main_v46 (by decide))))))))).trans (w3_rv3 m ρ c)),
    Cert.KVal.istdRow128_row] at h
  exact h

/-- The last layer's product with the weights. -/
theorem w13_xw : W13 m ρ c (Proc.devRef .tc main_v89) = Cert.Spec.lin1 (F := Ideal) (H3 m c) (m ((c : Thread nD τ).loc main_arg8)) :=
  ((W13_arr m ρ c 2).trans (Cert.KVal.lin6 (V12 m ρ) c)).trans
    (congrArg₂ (fun a b => Cert.Spec.lin1 (F := Ideal) a b) (w12_h m ρ c) (((W12_of_ne m ρ c main_arg8 (by decide)).trans ((skip5 (W10 m ρ c) main_arg8 (by decide)).trans ((W10_of_ne m ρ c main_arg8 (by decide)).trans ((W9_of_ne m ρ c main_arg8 (by decide)).trans ((skip3 (W7 m ρ c) main_arg8 (by decide)).trans ((W7_of_ne m ρ c main_arg8 (by decide)).trans ((W6_of_ne m ρ c main_arg8 (by decide)).trans ((skip1 (W4 m ρ c) main_arg8 (by decide)).trans (W4_of_ne m ρ c main_arg8 (by decide)))))))))).trans (w3_arg8 m ρ c)))

set_option maxHeartbeats 1600000 in
/-- The last layer's aggregation over the slots. -/
theorem w14_agg : W14 m ρ c (Proc.devRef .tc main_v100) = Cert.Spec.agg1 (F := Ideal) (m ((c : Thread nD τ).loc main_arg1)) (Cert.Spec.lin1 (F := Ideal) (H3 m c) (m ((c : Thread nD τ).loc main_arg8))) := by
  have e3 : W13 m ρ c (Proc.devRef .tc main_v3) = _ := (((W13_of_ne m ρ c main_v3 (by decide)).trans ((W12_of_ne m ρ c main_v3 (by decide)).trans ((skip5 (W10 m ρ c) main_v3 (by decide)).trans ((W10_of_ne m ρ c main_v3 (by decide)).trans ((W9_of_ne m ρ c main_v3 (by decide)).trans ((skip3 (W7 m ρ c) main_v3 (by decide)).trans ((W7_of_ne m ρ c main_v3 (by decide)).trans ((W6_of_ne m ρ c main_v3 (by decide)).trans ((skip1 (W4 m ρ c) main_v3 (by decide)).trans (W4_of_ne m ρ c main_v3 (by decide))))))))))).trans (w3_src m ρ c))
  have e6 : W13 m ρ c (Proc.devRef .tc main_v6) = _ := (((W13_of_ne m ρ c main_v6 (by decide)).trans ((W12_of_ne m ρ c main_v6 (by decide)).trans ((skip5 (W10 m ρ c) main_v6 (by decide)).trans ((W10_of_ne m ρ c main_v6 (by decide)).trans ((W9_of_ne m ρ c main_v6 (by decide)).trans ((skip3 (W7 m ρ c) main_v6 (by decide)).trans ((W7_of_ne m ρ c main_v6 (by decide)).trans ((W6_of_ne m ρ c main_v6 (by decide)).trans ((skip1 (W4 m ρ c) main_v6 (by decide)).trans (W4_of_ne m ρ c main_v6 (by decide))))))))))).trans (w3_dst m ρ c))
  have e30 : W13 m ρ c (Proc.devRef .tc main_v30) = _ := (((W13_of_ne m ρ c main_v30 (by decide)).trans ((W12_of_ne m ρ c main_v30 (by decide)).trans ((skip5 (W10 m ρ c) main_v30 (by decide)).trans ((W10_of_ne m ρ c main_v30 (by decide)).trans ((W9_of_ne m ρ c main_v30 (by decide)).trans ((skip3 (W7 m ρ c) main_v30 (by decide)).trans ((W7_of_ne m ρ c main_v30 (by decide)).trans ((W6_of_ne m ρ c main_v30 (by decide)).trans ((skip1 (W4 m ρ c) main_v30 (by decide)).trans (W4_of_ne m ρ c main_v30 (by decide))))))))))).trans (w3_norm m ρ c))
  have exw := w13_xw m ρ c
  show StableHlo.after hostOps7 (W13 m ρ c) (Proc.devRef .tc main_v100) = _
  generalize W13 m ρ c = Vin at e3 e6 e30 exw ⊢
  simp only [hostOps7]
  after_results
  rw [e3, e6, e30, exw]
  rfl

/-- The result: bias, unit and logistic function, what the last region's write-backs leave, is the specification's
    function of the argument arrays. -/
theorem w15_out : W15 m ρ c (Proc.devRef .tc main_v101)
    = Cert.Spec.G (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have h : W15 m ρ c (Proc.devRef .tc main_v101)
      = Cert.Spec.fin1 (F := Ideal) (W14 m ρ c (Proc.devRef .tc main_v100)) (W14 m ρ c (Proc.devRef .tc main_v34)) :=
    (W15_arr m ρ c 2).trans (Cert.KVal.sig7 (V14 m ρ) c)
  rw [w14_agg m ρ c, show W14 m ρ c (Proc.devRef .tc main_v34) = _ from (((skip7 (W13 m ρ c) main_v34 (by decide)).trans ((W13_of_ne m ρ c main_v34 (by decide)).trans ((W12_of_ne m ρ c main_v34 (by decide)).trans ((skip5 (W10 m ρ c) main_v34 (by decide)).trans ((W10_of_ne m ρ c main_v34 (by decide)).trans ((W9_of_ne m ρ c main_v34 (by decide)).trans ((skip3 (W7 m ρ c) main_v34 (by decide)).trans ((W7_of_ne m ρ c main_v34 (by decide)).trans ((W6_of_ne m ρ c main_v34 (by decide)).trans ((skip1 (W4 m ρ c) main_v34 (by decide)).trans (W4_of_ne m ρ c main_v34 (by decide)))))))))))).trans (w3_b4 m ρ c))] at h
  exact h

end Cert.KernelIdeal.KFold

end
-- ==== Proof.LibAfterAssign.lean ====
import Idealize.ShloMosaic.Lib.StableHlo.Run

/-!
# Reading a long straight line of operations one operation at a time

`StableHlo.after ops V` is the contents of every buffer after the operations `ops`, in order, from the
contents `V`: each operation rewrites the buffers it writes and leaves the rest. Read back in one step,
the contents of the last result are the composed term of all the operations, in which a value with
several consumers is repeated once per consumer; for a long line that term is too large to compute.

This module reads the fold one operation at a time instead. Suppose the line is in SINGLE-ASSIGNMENT
form, stated by a list `ws` of references, one per operation: the `k`-th operation writes exactly the
`k`-th reference (`WritesAre ops ws`). Split the line at position `k`, into the `k` operations before and
the rest (`after_take_drop`). Then

* a reference that no operation from position `k` on writes holds, at the end, what it held after the
  first `k` operations (`after_take_at_unwritten`);
* if the result `y` of the `k`-th operation is written by no later operation, then at the end it holds
  what the `k`-th operation put there, computed from the contents after the first `k` operations
  (`after_at_written`).

Together: if moreover no operation from position `k` on writes an operand of the `k`-th operation, then
the final contents satisfy that operation's own equation — at its result, the fold holds the operation's
function of THE FOLD at its operands (`after_nullary`, `after_unary`, `after_binary`, `after_ternary`,
`after_reshape`, one per builder). The equations of a line can then be used in program order, each
rewriting the operands by the equations already obtained, and no composed term is ever formed.

For a literal line the hypotheses are computations: `WritesAre ops ws` is the conjunction of the
builders' `*_writes` facts (each `rfl`), `ops.drop k = op :: post` is `rfl`, and a reference's absence
from `ws.drop k` is decided.
-/

namespace Cert.Lib.AfterAssign

open Idealize.ShloMosaic Idealize.ShloMosaic.StableHlo

variable {τ : Topo} {sig : RefSig} {Val : EltTy → Type}

/-! ## The fold of a concatenation -/

/-- The contents after two lines run one after the other: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A line split at position `k`: the fold of the rest over the fold of the first `k` operations. -/
theorem after_take_drop (k : Nat) (ops : List (HloOp τ sig Val)) (V : Valuation τ sig Val) :
    after ops V = after (ops.drop k) (after (ops.take k) V) := by
  rw [← after_append, List.take_append_drop]

/-! ## Single assignment -/

/-- The `k`-th operation of the line writes exactly the `k`-th reference of the list (and the two have
    the same length). -/
def WritesAre : List (HloOp τ sig Val) → List (Ref sig .tc) → Prop
  | [], [] => True
  | op :: ops, w :: ws => op.writes = {Proc.devRef (τ := τ) .tc w} ∧ WritesAre ops ws
  | [], _ :: _ => False
  | _ :: _, [] => False

/-- The rest of a line from position `k` writes the rest of the list from position `k`. -/
theorem WritesAre.drop : ∀ (k : Nat) {ops : List (HloOp τ sig Val)} {ws : List (Ref sig .tc)},
    WritesAre ops ws → WritesAre (ops.drop k) (ws.drop k)
  | 0, _, _, h => h
  | _ + 1, [], [], h => h
  | k + 1, _ :: _, _ :: _, h => WritesAre.drop k h.2
  | _ + 1, [], _ :: _, h => h.elim
  | _ + 1, _ :: _, [], h => h.elim

/-- A reference that is not among the references a line writes keeps its contents. -/
theorem after_of_not_written : ∀ {ops : List (HloOp τ sig Val)} {ws : List (Ref sig .tc)},
    WritesAre ops ws → ∀ (V : Valuation τ sig Val) {r : Ref sig .tc}, r ∉ ws →
      after ops V (Proc.devRef .tc r) = V (Proc.devRef .tc r)
  | [], [], _, _, _, _ => rfl
  | op :: ops, w :: ws, h, V, r, hr => by
    rw [after_cons, after_of_not_written h.2 _ (fun hm => hr (List.mem_cons_of_mem _ hm))]
    refine HloOp.result_of_not_mem _ _ ?_
    rw [h.1, Finset.mem_singleton]
    refine devRef_ne_of_ne (fun e => hr ?_)
    rw [e]
    exact List.mem_cons_self
  | [], _ :: _, h, _, _, _ => h.elim
  | _ :: _, [], h, _, _, _ => h.elim

/-- A reference that no operation from position `k` on writes holds, after the whole line, what it held
    after the first `k` operations. -/
theorem after_take_at_unwritten {ops : List (HloOp τ sig Val)} {ws : List (Ref sig .tc)}
    (h : WritesAre ops ws) (k : Nat) (V : Valuation τ sig Val) {a : Ref sig .tc} (ha : a ∉ ws.drop k) :
    after (ops.take k) V (Proc.devRef .tc a) = after ops V (Proc.devRef .tc a) := by
  rw [after_take_drop k ops V]
  exact (after_of_not_written (WritesAre.drop k h) _ ha).symm

/-- If no operation after the `k`-th writes the reference `y`, the whole line leaves at `y` what the
    `k`-th operation leaves there, from the contents after the first `k` operations. -/
theorem after_at_written {ops : List (HloOp τ sig Val)} {ws : List (Ref sig .tc)}
    (h : WritesAre ops ws) (k : Nat) {op : HloOp τ sig Val} {post : List (HloOp τ sig Val)}
    (hk : ops.drop k = op :: post) (V : Valuation τ sig Val) {y : Ref sig .tc}
    (hy : y ∉ ws.drop (k + 1)) :
    after ops V (Proc.devRef .tc y) = op.result (after (ops.take k) V) (Proc.devRef .tc y) := by
  have hpost : WritesAre post (ws.drop (k + 1)) := by
    have h' := WritesAre.drop (k + 1) h
    rwa [← List.tail_drop (l := ops) (i := k), hk, List.tail_cons] at h'
  rw [after_take_drop k ops V, hk, after_cons]
  exact after_of_not_written hpost _ hy

/-! ## Each builder's equation, at the fold itself -/

/-- A constant: if no later operation writes its result, the whole line leaves the constant there. -/
theorem after_nullary {ops : List (HloOp τ sig Val)} {ws : List (Ref sig .tc)} (h : WritesAre ops ws)
    (k : Nat) {y : Ref sig .tc} {v : y.ty.Contents Val} {hy} {post : List (HloOp τ sig Val)}
    (hk : ops.drop k = nullary (τ := τ) y v hy :: post) (V : Valuation τ sig Val)
    (hyw : y ∉ ws.drop (k + 1)) :
    after ops V (Proc.devRef .tc y) = v := by
  rw [after_at_written h k hk V hyw, nullary_result]

/-- A one-operand operation: if no later operation writes its result and none from it on writes its
    operand, the whole line leaves at the result the operation's function of what the whole line leaves
    at the operand. -/
theorem after_unary {ops : List (HloOp τ sig Val)} {ws : List (Ref sig .tc)} (h : WritesAre ops ws)
    (k : Nat) {x y : Ref sig .tc} {f : x.ty.Contents Val → y.ty.Contents Val} {hx hy}
    {post : List (HloOp τ sig Val)}
    (hk : ops.drop k = unary (τ := τ) x y f hx hy :: post) (V : Valuation τ sig Val)
    (hyw : y ∉ ws.drop (k + 1)) (hxw : x ∉ ws.drop k) :
    after ops V (Proc.devRef .tc y) = f (after ops V (Proc.devRef .tc x)) := by
  rw [after_at_written h k hk V hyw, unary_result, after_take_at_unwritten h k V hxw]

/-- A two-operand operation: if no later operation writes its result and none from it on writes an
    operand, the whole line leaves at the result the operation's function of what the whole line leaves
    at the two operands. -/
theorem after_binary {ops : List (HloOp τ sig Val)} {ws : List (Ref sig .tc)} (h : WritesAre ops ws)
    (k : Nat) {a b y : Ref sig .tc} {f : a.ty.Contents Val → b.ty.Contents Val → y.ty.Contents Val}
    {ha hb hy} {post : List (HloOp τ sig Val)}
    (hk : ops.drop k = binary (τ := τ) a b y f ha hb hy :: post) (V : Valuation τ sig Val)
    (hyw : y ∉ ws.drop (k + 1)) (haw : a ∉ ws.drop k) (hbw : b ∉ ws.drop k) :
    after ops V (Proc.devRef .tc y)
      = f (after ops V (Proc.devRef .tc a)) (after ops V (Proc.devRef .tc b)) := by
  rw [after_at_written h k hk V hyw, binary_result, after_take_at_unwritten h k V haw,
    after_take_at_unwritten h k V hbw]

/-- A three-operand operation, likewise. -/
theorem after_ternary {ops : List (HloOp τ sig Val)} {ws : List (Ref sig .tc)} (h : WritesAre ops ws)
    (k : Nat) {c a b y : Ref sig .tc}
    {f : c.ty.Contents Val → a.ty.Contents Val → b.ty.Contents Val → y.ty.Contents Val}
    {hc ha hb hy} {post : List (HloOp τ sig Val)}
    (hk : ops.drop k = ternary (τ := τ) c a b y f hc ha hb hy :: post) (V : Valuation τ sig Val)
    (hyw : y ∉ ws.drop (k + 1)) (hcw : c ∉ ws.drop k) (haw : a ∉ ws.drop k) (hbw : b ∉ ws.drop k) :
    after ops V (Proc.devRef .tc y)
      = f (after ops V (Proc.devRef .tc c)) (after ops V (Proc.devRef .tc a))
          (after ops V (Proc.devRef .tc b)) := by
  rw [after_at_written h k hk V hyw, ternary_result, after_take_at_unwritten h k V hcw,
    after_take_at_unwritten h k V haw, after_take_at_unwritten h k V hbw]

/-- A reshape: if no later operation writes its result and none from it on writes its operand, the
    whole line leaves at the result the operand's final contents in row-major order at the result's
    shape. -/
theorem after_reshape {ops : List (HloOp τ sig Val)} {ws : List (Ref sig .tc)} (h : WritesAre ops ws)
    (k : Nat) {x y : Ref sig .tc} {he : x.ty.elt = y.ty.elt} {hn : x.ty.shape.ShapeCasts y.ty.shape}
    {hx hy} {post : List (HloOp τ sig Val)}
    (hk : ops.drop k = reshape (τ := τ) (Val := Val) x y he hn hx hy :: post) (V : Valuation τ sig Val)
    (hyw : y ∉ ws.drop (k + 1)) (hxw : x ∉ ws.drop k) :
    after ops V (Proc.devRef .tc y)
      = fun i => he ▸ shapeCast y.ty.shape (after ops V (Proc.devRef .tc x)) hn i := by
  rw [after_at_written h k hk V hyw, reshape_result, after_take_at_unwritten h k V hxw]

end Cert.Lib.AfterAssign
-- ==== Proof.RefOps.lean ====
/-
  The reference program's straight line of host operations, as lists.

  The program is 235 operations long once the functions it calls (the selection by a condition, and the exponential
  linear unit, which itself calls two selections) are written out at their call sites over the buffers of each call.
  The line is cut into twenty consecutive segments, each computing one stage of the graph convolution network: the
  edge-slot words, the degrees, their inverse square roots, the slot weights, and per layer the aggregation, the
  normalisation and the unit.  The whole line is the concatenation of the segments in order, grouped as the program
  text groups its statements into three windows.  Beside each segment stands the list of buffers its operations
  write, one per operation and in the same order: the line is in single-assignment form.
-/
import proofs.«122410_j40535901339683_1_alg».proof.Proof.Gen.ReferenceIdeal
import proofs.«122410_j40535901339683_1_alg».proof.Proof.LibAfterAssign
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo
open Cert.Lib.AfterAssign

variable {F : FTy → Type} [FloatOps F]

/-! ## The operands of the called functions, as typed references -/

abbrev t_v12 : TRef sig ⟨S100000, .i1⟩ := .of main_v12
abbrev t_v13 : TRef sig ⟨S100000, .f32⟩ := .of main_v13
abbrev t_cst_2 : TRef sig ⟨S_, .f32⟩ := .of main_cst_2
abbrev t_v61 : TRef sig ⟨S100000x32, .f32⟩ := .of main_v61
abbrev t_v94 : TRef sig ⟨S100000x64, .f32⟩ := .of main_v94
abbrev t_v127 : TRef sig ⟨S100000x128, .f32⟩ := .of main_v127
abbrev t_v144 : TRef sig ⟨S100000x1, .f32⟩ := .of main_v144

/-! ## The segments -/

/-- The source and target word of every edge slot: one row of the edge table, flattened, followed by the nodes' own numbers. (Operations 1 to 7.) -/
abbrev sSlots : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]
/-- The buffers those operations write, in order. -/
abbrev sSlots_w : List (Ref sig .tc) :=
  [main_v0, main_v1, main_v2, main_v3, main_v4, main_v5, main_v6]
theorem sSlots_sub : (sSlots : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub ..⟩
theorem sSlots_fresh : (sSlots : List (HloOp τ sig (Elt F))).Forall fun op => op.fresh = ∅ :=
  ⟨rfl, rfl, rfl, rfl, rfl, rfl, rfl⟩
theorem sSlots_writes : WritesAre (sSlots : List (HloOp τ sig (Elt F))) sSlots_w :=
  ⟨rfl, rfl, rfl, rfl, rfl, rfl, rfl, trivial⟩

/-- The degrees: ones added up at the target of every slot. (Operations 8 to 13.) -/
abbrev sDeg : List (HloOp τ sig (Elt F)) :=
  [ StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ]
/-- The buffers those operations write, in order. -/
abbrev sDeg_w : List (Ref sig .tc) :=
  [main_cst, main_v7, main_cst_0, main_v8, main_v9, main_v10]
theorem sDeg_sub : (sDeg : List (HloOp τ sig (Elt F))).Forall fun op => op.bufs ⊆ tcRefs τ sig :=
  ⟨nullary_bufs_sub .., unary_bufs_sub .., nullary_bufs_sub .., unary_bufs_sub .., unary_bufs_sub .., ternary_bufs_sub ..⟩
theorem sDeg_fresh : (sDeg : List (HloOp τ sig (Elt F))).Forall fun op => op.fresh = ∅ :=
  ⟨rfl, rfl, rfl, rfl, rfl, rfl⟩
theorem sDeg_writes : WritesAre (sDeg : List (HloOp τ sig (Elt F))) sDeg_w :=
  ⟨rfl, rfl, rfl, rfl, rfl, rfl, trivial⟩

/-- The inverse square root of the degree where it is positive, and zero elsewhere. (Operations 14 to 21.) -/
abbrev sDinv : List (HloOp τ sig (Elt F)) :=
  [ StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32),
    StableHlo.TRef.unary t_cst_2 main_call0.v0 id,
    StableHlo.TRef.unary main_call0.v0 main_call0.v1 (broadcastInDim S100000 ![] bcast_S_S100000),
    StableHlo.TRef.ternary t_v12 t_v13 main_call0.v1 main_call0.v2 select ]
/-- The buffers those operations write, in order. -/
abbrev sDinv_w : List (Ref sig .tc) :=
  [main_cst_1, main_v11, main_v12, main_v13, main_cst_2, main_call0_v0, main_call0_v1, main_v14]
theorem sDinv_sub : (sDinv : List (HloOp τ sig (Elt F))).Forall fun op => op.bufs ⊆ tcRefs τ sig :=
  ⟨nullary_bufs_sub .., unary_bufs_sub .., binary_bufs_sub .., unary_bufs_sub .., nullary_bufs_sub .., unary_bufs_sub .., unary_bufs_sub .., ternary_bufs_sub ..⟩
theorem sDinv_fresh : (sDinv : List (HloOp τ sig (Elt F))).Forall fun op => op.fresh = ∅ :=
  ⟨rfl, rfl, rfl, rfl, rfl, rfl, rfl, rfl⟩
theorem sDinv_writes : WritesAre (sDinv : List (HloOp τ sig (Elt F))) sDinv_w :=
  ⟨rfl, rfl, rfl, rfl, rfl, rfl, rfl, rfl, trivial⟩

/-- The inverse-root degree read at every slot's source (a negative word counting from the end). (Operations 22 to 30.) -/
abbrev sNormSrc : List (HloOp τ sig (Elt F)) :=
  [ StableHlo.nullary main_c (constantI S_ 32 0#32),
    StableHlo.unary main_c main_v15 (broadcastInDim S1700000 ![] bcast_S_S1700000 : (⟨S_, .i32⟩ : BufTy).Contents (Elt F) → (⟨S1700000, .i32⟩ : BufTy).Contents (Elt F)),
    StableHlo.binary main_v3 main_v15 main_v16 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v17 (broadcastInDim S1700000 ![] bcast_S_S1700000 : (⟨S_, .i32⟩ : BufTy).Contents (Elt F) → (⟨S1700000, .i32⟩ : BufTy).Contents (Elt F)),
    StableHlo.binary main_v3 main_v17 main_v18 (addi : (⟨S1700000, .i32⟩ : BufTy).Contents (Elt F) → (⟨S1700000, .i32⟩ : BufTy).Contents (Elt F) → (⟨S1700000, .i32⟩ : BufTy).Contents (Elt F)),
    StableHlo.ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v19 main_v20 (broadcastInDim S1700000x1 ![0] bcast_S1700000_S1700000x1_0 : (⟨S1700000, .i32⟩ : BufTy).Contents (Elt F) → (⟨S1700000x1, .i32⟩ : BufTy).Contents (Elt F)),
    StableHlo.binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) ]
/-- The buffers those operations write, in order. -/
abbrev sNormSrc_w : List (Ref sig .tc) :=
  [main_c, main_v15, main_v16, main_c_3, main_v17, main_v18, main_v19, main_v20, main_v21]
theorem sNormSrc_sub : (sNormSrc : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem sNormSrc_fresh : (sNormSrc : List (HloOp τ sig (Elt F))).Forall fun op => op.fresh = ∅ :=
  ⟨rfl, rfl, rfl, rfl, rfl, rfl, rfl, rfl, rfl⟩
theorem sNormSrc_writes : WritesAre (sNormSrc : List (HloOp τ sig (Elt F))) sNormSrc_w :=
  ⟨rfl, rfl, rfl, rfl, rfl, rfl, rfl, rfl, rfl, trivial⟩

/-- The same at every slot's target, and the slot weight: the product of the two. (Operations 31 to 40.) -/
abbrev sNorm : List (HloOp τ sig (Elt F)) :=
  [ StableHlo.nullary main_c_4 (constantI S_ 32 0#32),
    StableHlo.unary main_c_4 main_v22 (broadcastInDim S1700000 ![] bcast_S_S1700000 : (⟨S_, .i32⟩ : BufTy).Contents (Elt F) → (⟨S1700000, .i32⟩ : BufTy).Contents (Elt F)),
    StableHlo.binary main_v6 main_v22 main_v23 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (addi : (⟨S1700000, .i32⟩ : BufTy).Contents (Elt F) → (⟨S1700000, .i32⟩ : BufTy).Contents (Elt F) → (⟨S1700000, .i32⟩ : BufTy).Contents (Elt F)),
    StableHlo.ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v26 main_v27 (broadcastInDim S1700000x1 ![0] bcast_S1700000_S1700000x1_0 : (⟨S1700000, .i32⟩ : BufTy).Contents (Elt F) → (⟨S1700000x1, .i32⟩ : BufTy).Contents (Elt F)),
    StableHlo.binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v21 main_v28 main_v29 (mulf : (⟨S1700000, .f32⟩ : BufTy).Contents (Elt F) → (⟨S1700000, .f32⟩ : BufTy).Contents (Elt F) → (⟨S1700000, .f32⟩ : BufTy).Contents (Elt F)) ]
/-- The buffers those operations write, in order. -/
abbrev sNorm_w : List (Ref sig .tc) :=
  [main_c_4, main_v22, main_v23, main_c_5, main_v24, main_v25, main_v26, main_v27, main_v28, main_v29]
theorem sNorm_sub : (sNorm : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub ..⟩
theorem sNorm_fresh : (sNorm : List (HloOp τ sig (Elt F))).Forall fun op => op.fresh = ∅ :=
  ⟨rfl, rfl, rfl, rfl, rfl, rfl, rfl, rfl, rfl, rfl⟩
theorem sNorm_writes : WritesAre (sNorm : List (HloOp τ sig (Elt F))) sNorm_w :=
  ⟨rfl, rfl, rfl, rfl, rfl, rfl, rfl, rfl, rfl, rfl, trivial⟩

/-- Width 32: the linear map, its rows read at the sources, weighted, and added up at the targets. (Operations 41 to 57.) -/
abbrev sAgg32 : List (HloOp τ sig (Elt F)) :=
  [ StableHlo.binary main_arg0 main_arg2 main_v30 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.nullary main_c_6 (constantI S_ 32 0#32),
    StableHlo.unary main_c_6 main_v31 (broadcastInDim S1700000 ![] bcast_S_S1700000 : (⟨S_, .i32⟩ : BufTy).Contents (Elt F) → (⟨S1700000, .i32⟩ : BufTy).Contents (Elt F)),
    StableHlo.binary main_v3 main_v31 main_v32 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v3 main_v33 main_v34 (addi : (⟨S1700000, .i32⟩ : BufTy).Contents (Elt F) → (⟨S1700000, .i32⟩ : BufTy).Contents (Elt F) → (⟨S1700000, .i32⟩ : BufTy).Contents (Elt F)),
    StableHlo.ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v35 main_v36 (broadcastInDim S1700000x1 ![0] bcast_S1700000_S1700000x1_0 : (⟨S1700000, .i32⟩ : BufTy).Contents (Elt F) → (⟨S1700000x1, .i32⟩ : BufTy).Contents (Elt F)),
    StableHlo.binary main_v30 main_v36 main_v37 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    StableHlo.unary main_v29 main_v38 (broadcastInDim S1700000x1 ![0] bcast_S1700000_S1700000x1_0 : (⟨S1700000, .f32⟩ : BufTy).Contents (Elt F) → (⟨S1700000x1, .f32⟩ : BufTy).Contents (Elt F)),
    StableHlo.unary main_v38 main_v39 (broadcastInDim S1700000x32 ![0, 1] bcast_S1700000x1_S1700000x32_0_1 : (⟨S1700000x1, .f32⟩ : BufTy).Contents (Elt F) → (⟨S1700000x32, .f32⟩ : BufTy).Contents (Elt F)),
    StableHlo.binary main_v37 main_v39 main_v40 (mulf : (⟨S1700000x32, .f32⟩ : BufTy).Contents (Elt F) → (⟨S1700000x32, .f32⟩ : BufTy).Contents (Elt F) → (⟨S1700000x32, .f32⟩ : BufTy).Contents (Elt F)),
    StableHlo.nullary main_cst_8 (constant S_ .f32 0x00000000#32),
    StableHlo.unary main_cst_8 main_v41 (broadcastInDim S100000x32 ![] bcast_S_S100000x32 : (⟨S_, .f32⟩ : BufTy).Contents (Elt F) → (⟨S100000x32, .f32⟩ : BufTy).Contents (Elt F)),
    StableHlo.unary main_v6 main_v42 (broadcastInDim S1700000x1 ![0] bcast_S1700000_S1700000x1_0 : (⟨S1700000, .i32⟩ : BufTy).Contents (Elt F) → (⟨S1700000x1, .i32⟩ : BufTy).Contents (Elt F)),
    StableHlo.ternary main_v41 main_v42 main_v40 main_v43 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)) ]
/-- The buffers those operations write, in order. -/
abbrev sAgg32_w : List (Ref sig .tc) :=
  [main_v30, main_c_6, main_v31, main_v32, main_c_7, main_v33, main_v34, main_v35, main_v36, main_v37, main_v38, main_v39, main_v40, main_cst_8, main_v41, main_v42, main_v43]
theorem sAgg32_sub : (sAgg32 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem sAgg32_fresh : (sAgg32 : List (HloOp τ sig (Elt F))).Forall fun op => op.fresh = ∅ :=
  ⟨rfl, rfl, rfl, rfl, rfl, rfl, rfl, rfl, rfl, rfl, rfl, rfl, rfl, rfl, rfl, rfl, rfl⟩
theorem sAgg32_writes : WritesAre (sAgg32 : List (HloOp τ sig (Elt F))) sAgg32_w :=
  ⟨rfl, rfl, rfl, rfl, rfl, rfl, rfl, rfl, rfl, rfl, rfl, rfl, rfl, rfl, rfl, rfl, rfl, trivial⟩

/-- Width 32: the bias added, and the running mean as a full array. (Operations 58 to 62.) -/
abbrev sBn32a : List (HloOp τ sig (Elt F)) :=
  [ StableHlo.unary main_arg3 main_v44 (broadcastInDim S1x32 ![1] bcast_S32_S1x32_1 : (⟨S32, .f32⟩ : BufTy).Contents (Elt F) → (⟨S1x32, .f32⟩ : BufTy).Contents (Elt F)),
    StableHlo.unary main_v44 main_v45 (broadcastInDim S100000x32 ![0, 1] bcast_S1x32_S100000x32_0_1 : (⟨S1x32, .f32⟩ : BufTy).Contents (Elt F) → (⟨S100000x32, .f32⟩ : BufTy).Contents (Elt F)),
    StableHlo.binary main_v43 main_v45 main_v46 (addf : (⟨S100000x32, .f32⟩ : BufTy).Contents (Elt F) → (⟨S100000x32, .f32⟩ : BufTy).Contents (Elt F) → (⟨S100000x32, .f32⟩ : BufTy).Contents (Elt F)),
    StableHlo.unary main_arg12 main_v47 (broadcastInDim S1x32 ![1] bcast_S32_S1x32_1 : (⟨S32, .f32⟩ : BufTy).Contents (Elt F) → (⟨S1x32, .f32⟩ : BufTy).Contents (Elt F)),
    StableHlo.unary main_v47 main_v48 (broadcastInDim S100000x32 ![0, 1] bcast_S1x32_S100000x32_0_1 : (⟨S1x32, .f32⟩ : BufTy).Contents (Elt F) → (⟨S100000x32, .f32⟩ : BufTy).Contents (Elt F)) ]
/-- The buffers those operations write, in order. -/
abbrev sBn32a_w : List (Ref sig .tc) :=
  [main_v44, main_v45, main_v46, main_v47, main_v48]
theorem sBn32a_sub : (sBn32a : List (HloOp τ sig (Elt F))).Forall fun op => op.bufs ⊆ tcRefs τ sig :=
  ⟨unary_bufs_sub .., unary_bufs_sub .., binary_bufs_sub .., unary_bufs_sub .., unary_bufs_sub ..⟩
theorem sBn32a_fresh : (sBn32a : List (HloOp τ sig (Elt F))).Forall fun op => op.fresh = ∅ :=
  ⟨rfl, rfl, rfl, rfl, rfl⟩
theorem sBn32a_writes : WritesAre (sBn32a : List (HloOp τ sig (Elt F))) sBn32a_w :=
  ⟨rfl, rfl, rfl, rfl, rfl, trivial⟩

/-- Width 32: the mean subtracted, then scaled by the inverse root of the variance plus epsilon and by gamma, beta added. (Operations 63 to 76.) -/
abbrev sBn32b : List (HloOp τ sig (Elt F)) :=
  [ StableHlo.binary main_v46 main_v48 main_v49 (subf : (⟨S100000x32, .f32⟩ : BufTy).Contents (Elt F) → (⟨S100000x32, .f32⟩ : BufTy).Contents (Elt F) → (⟨S100000x32, .f32⟩ : BufTy).Contents (Elt F)),
    StableHlo.nullary main_cst_9 (constant S_ .f32 0x3727C5AC#32),
    StableHlo.unary main_cst_9 main_v50 (broadcastInDim S32 ![] bcast_S_S32 : (⟨S_, .f32⟩ : BufTy).Contents (Elt F) → (⟨S32, .f32⟩ : BufTy).Contents (Elt F)),
    StableHlo.binary main_arg13 main_v50 main_v51 (addf : (⟨S32, .f32⟩ : BufTy).Contents (Elt F) → (⟨S32, .f32⟩ : BufTy).Contents (Elt F) → (⟨S32, .f32⟩ : BufTy).Contents (Elt F)),
    StableHlo.unary main_v51 main_v52 (Host.rsqrt : (⟨S32, .f32⟩ : BufTy).Contents (Elt F) → (⟨S32, .f32⟩ : BufTy).Contents (Elt F)),
    StableHlo.unary main_v52 main_v53 (broadcastInDim S1x32 ![1] bcast_S32_S1x32_1 : (⟨S32, .f32⟩ : BufTy).Contents (Elt F) → (⟨S1x32, .f32⟩ : BufTy).Contents (Elt F)),
    StableHlo.unary main_v53 main_v54 (broadcastInDim S100000x32 ![0, 1] bcast_S1x32_S100000x32_0_1 : (⟨S1x32, .f32⟩ : BufTy).Contents (Elt F) → (⟨S100000x32, .f32⟩ : BufTy).Contents (Elt F)),
    StableHlo.binary main_v49 main_v54 main_v55 (mulf : (⟨S100000x32, .f32⟩ : BufTy).Contents (Elt F) → (⟨S100000x32, .f32⟩ : BufTy).Contents (Elt F) → (⟨S100000x32, .f32⟩ : BufTy).Contents (Elt F)),
    StableHlo.unary main_arg10 main_v56 (broadcastInDim S1x32 ![1] bcast_S32_S1x32_1 : (⟨S32, .f32⟩ : BufTy).Contents (Elt F) → (⟨S1x32, .f32⟩ : BufTy).Contents (Elt F)),
    StableHlo.unary main_v56 main_v57 (broadcastInDim S100000x32 ![0, 1] bcast_S1x32_S100000x32_0_1 : (⟨S1x32, .f32⟩ : BufTy).Contents (Elt F) → (⟨S100000x32, .f32⟩ : BufTy).Contents (Elt F)),
    StableHlo.binary main_v55 main_v57 main_v58 (mulf : (⟨S100000x32, .f32⟩ : BufTy).Contents (Elt F) → (⟨S100000x32, .f32⟩ : BufTy).Contents (Elt F) → (⟨S100000x32, .f32⟩ : BufTy).Contents (Elt F)),
    StableHlo.unary main_arg11 main_v59 (broadcastInDim S1x32 ![1] bcast_S32_S1x32_1 : (⟨S32, .f32⟩ : BufTy).Contents (Elt F) → (⟨S1x32, .f32⟩ : BufTy).Contents (Elt F)),
    StableHlo.unary main_v59 main_v60 (broadcastInDim S100000x32 ![0, 1] bcast_S1x32_S100000x32_0_1 : (⟨S1x32, .f32⟩ : BufTy).Contents (Elt F) → (⟨S100000x32, .f32⟩ : BufTy).Contents (Elt F)),
    StableHlo.binary main_v58 main_v60 main_v61 (addf : (⟨S100000x32, .f32⟩ : BufTy).Contents (Elt F) → (⟨S100000x32, .f32⟩ : BufTy).Contents (Elt F) → (⟨S100000x32, .f32⟩ : BufTy).Contents (Elt F)) ]
/-- The buffers those operations write, in order. -/
abbrev sBn32b_w : List (Ref sig .tc) :=
  [main_v49, main_cst_9, main_v50, main_v51, main_v52, main_v53, main_v54, main_v55, main_v56, main_v57, main_v58, main_v59, main_v60, main_v61]
theorem sBn32b_sub : (sBn32b : List (HloOp τ sig (Elt F))).Forall fun op => op.bufs ⊆ tcRefs τ sig :=
  ⟨binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem sBn32b_fresh : (sBn32b : List (HloOp τ sig (Elt F))).Forall fun op => op.fresh = ∅ :=
  ⟨rfl, rfl, rfl, rfl, rfl, rfl, rfl, rfl, rfl, rfl, rfl, rfl, rfl, rfl⟩
theorem sBn32b_writes : WritesAre (sBn32b : List (HloOp τ sig (Elt F))) sBn32b_w :=
  ⟨rfl, rfl, rfl, rfl, rfl, rfl, rfl, rfl, rfl, rfl, rfl, rfl, rfl, rfl, trivial⟩

/-- Width 32: the exponential linear unit. (Operations 77 to 91.) -/
abbrev sElu32 : List (HloOp τ sig (Elt F)) :=
  [ StableHlo.TRef.nullary main_call1.cst (constant S_ .f32 0x00000000#32),
    StableHlo.TRef.unary main_call1.cst main_call1.v0 (broadcastInDim S100000x32 ![] bcast_S_S100000x32),
    StableHlo.TRef.binary t_v61 main_call1.v0 main_call1.v1 (cmpf .ogt),
    StableHlo.TRef.nullary main_call1.cst_0 (constant S_ .f32 0x00000000#32),
    StableHlo.TRef.unary main_call1.cst_0 main_call1.v2 (broadcastInDim S100000x32 ![] bcast_S_S100000x32),
    StableHlo.TRef.binary t_v61 main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x32 ![] bcast_S_S100000x32),
    StableHlo.TRef.ternary main_call1.v3 main_call1.call0.v1 t_v61 main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x32 ![] bcast_S_S100000x32),
    StableHlo.TRef.binary main_call1.v6 main_call1.v5 main_call1.v7 mulf,
    StableHlo.TRef.ternary main_call1.v1 t_v61 main_call1.v7 main_call1.call1.v0 select ]
/-- The buffers those operations write, in order. -/
abbrev sElu32_w : List (Ref sig .tc) :=
  [main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v62]
theorem sElu32_sub : (sElu32 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem sElu32_fresh : (sElu32 : List (HloOp τ sig (Elt F))).Forall fun op => op.fresh = ∅ :=
  ⟨rfl, rfl, rfl, rfl, rfl, rfl, rfl, rfl, rfl, rfl, rfl, rfl, rfl, rfl, rfl⟩
theorem sElu32_writes : WritesAre (sElu32 : List (HloOp τ sig (Elt F))) sElu32_w :=
  ⟨rfl, rfl, rfl, rfl, rfl, rfl, rfl, rfl, rfl, rfl, rfl, rfl, rfl, rfl, rfl, trivial⟩

/-- Width 64: the linear map, its rows read at the sources, weighted, and added up at the targets. (Operations 92 to 108.) -/
abbrev sAgg64 : List (HloOp τ sig (Elt F)) :=
  [ StableHlo.binary main_v62 main_arg4 main_v63 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.nullary main_c_10 (constantI S_ 32 0#32),
    StableHlo.unary main_c_10 main_v64 (broadcastInDim S1700000 ![] bcast_S_S1700000 : (⟨S_, .i32⟩ : BufTy).Contents (Elt F) → (⟨S1700000, .i32⟩ : BufTy).Contents (Elt F)),
    StableHlo.binary main_v3 main_v64 main_v65 (cmpi .slt : (⟨S1700000, .i32⟩ : BufTy).Contents (Elt F) → (⟨S1700000, .i32⟩ : BufTy).Contents (Elt F) → (⟨S1700000, .i1⟩ : BufTy).Contents (Elt F)),
    StableHlo.nullary main_c_11 (constantI S_ 32 100000#32),
    StableHlo.unary main_c_11 main_v66 (broadcastInDim S1700000 ![] bcast_S_S1700000 : (⟨S_, .i32⟩ : BufTy).Contents (Elt F) → (⟨S1700000, .i32⟩ : BufTy).Contents (Elt F)),
    StableHlo.binary main_v3 main_v66 main_v67 (addi : (⟨S1700000, .i32⟩ : BufTy).Contents (Elt F) → (⟨S1700000, .i32⟩ : BufTy).Contents (Elt F) → (⟨S1700000, .i32⟩ : BufTy).Contents (Elt F)),
    StableHlo.ternary main_v65 main_v67 main_v3 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v68 main_v69 (broadcastInDim S1700000x1 ![0] bcast_S1700000_S1700000x1_0 : (⟨S1700000, .i32⟩ : BufTy).Contents (Elt F) → (⟨S1700000x1, .i32⟩ : BufTy).Contents (Elt F)),
    StableHlo.binary main_v63 main_v69 main_v70 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v29 main_v71 (broadcastInDim S1700000x1 ![0] bcast_S1700000_S1700000x1_0 : (⟨S1700000, .f32⟩ : BufTy).Contents (Elt F) → (⟨S1700000x1, .f32⟩ : BufTy).Contents (Elt F)),
    StableHlo.unary main_v71 main_v72 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v70 main_v72 main_v73 (mulf : (⟨S1700000x64, .f32⟩ : BufTy).Contents (Elt F) → (⟨S1700000x64, .f32⟩ : BufTy).Contents (Elt F) → (⟨S1700000x64, .f32⟩ : BufTy).Contents (Elt F)),
    StableHlo.nullary main_cst_12 (constant S_ .f32 0x00000000#32),
    StableHlo.unary main_cst_12 main_v74 (broadcastInDim S100000x64 ![] bcast_S_S100000x64 : (⟨S_, .f32⟩ : BufTy).Contents (Elt F) → (⟨S100000x64, .f32⟩ : BufTy).Contents (Elt F)),
    StableHlo.unary main_v6 main_v75 (broadcastInDim S1700000x1 ![0] bcast_S1700000_S1700000x1_0 : (⟨S1700000, .i32⟩ : BufTy).Contents (Elt F) → (⟨S1700000x1, .i32⟩ : BufTy).Contents (Elt F)),
    StableHlo.ternary main_v74 main_v75 main_v73 main_v76 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]
/-- The buffers those operations write, in order. -/
abbrev sAgg64_w : List (Ref sig .tc) :=
  [main_v63, main_c_10, main_v64, main_v65, main_c_11, main_v66, main_v67, main_v68, main_v69, main_v70, main_v71, main_v72, main_v73, main_cst_12, main_v74, main_v75, main_v76]
theorem sAgg64_sub : (sAgg64 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem sAgg64_fresh : (sAgg64 : List (HloOp τ sig (Elt F))).Forall fun op => op.fresh = ∅ :=
  ⟨rfl, rfl, rfl, rfl, rfl, rfl, rfl, rfl, rfl, rfl, rfl, rfl, rfl, rfl, rfl, rfl, rfl⟩
theorem sAgg64_writes : WritesAre (sAgg64 : List (HloOp τ sig (Elt F))) sAgg64_w :=
  ⟨rfl, rfl, rfl, rfl, rfl, rfl, rfl, rfl, rfl, rfl, rfl, rfl, rfl, rfl, rfl, rfl, rfl, trivial⟩

/-- Width 64: bias and batch normalisation. (Operations 109 to 127.) -/
abbrev sBn64 : List (HloOp τ sig (Elt F)) :=
  [ StableHlo.unary main_arg5 main_v77 (broadcastInDim S1x64 ![1] bcast_S64_S1x64_1 : (⟨S64, .f32⟩ : BufTy).Contents (Elt F) → (⟨S1x64, .f32⟩ : BufTy).Contents (Elt F)),
    StableHlo.unary main_v77 main_v78 (broadcastInDim S100000x64 ![0, 1] bcast_S1x64_S100000x64_0_1 : (⟨S1x64, .f32⟩ : BufTy).Contents (Elt F) → (⟨S100000x64, .f32⟩ : BufTy).Contents (Elt F)),
    StableHlo.binary main_v76 main_v78 main_v79 (addf : (⟨S100000x64, .f32⟩ : BufTy).Contents (Elt F) → (⟨S100000x64, .f32⟩ : BufTy).Contents (Elt F) → (⟨S100000x64, .f32⟩ : BufTy).Contents (Elt F)),
    StableHlo.unary main_arg16 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S100000x64 ![0, 1] bcast_S1x64_S100000x64_0_1 : (⟨S1x64, .f32⟩ : BufTy).Contents (Elt F) → (⟨S100000x64, .f32⟩ : BufTy).Contents (Elt F)),
    StableHlo.binary main_v79 main_v81 main_v82 (subf : (⟨S100000x64, .f32⟩ : BufTy).Contents (Elt F) → (⟨S100000x64, .f32⟩ : BufTy).Contents (Elt F) → (⟨S100000x64, .f32⟩ : BufTy).Contents (Elt F)),
    StableHlo.nullary main_cst_13 (constant S_ .f32 0x3727C5AC#32),
    StableHlo.unary main_cst_13 main_v83 (broadcastInDim S64 ![] bcast_S_S64 : (⟨S_, .f32⟩ : BufTy).Contents (Elt F) → (⟨S64, .f32⟩ : BufTy).Contents (Elt F)),
    StableHlo.binary main_arg17 main_v83 main_v84 (addf : (⟨S64, .f32⟩ : BufTy).Contents (Elt F) → (⟨S64, .f32⟩ : BufTy).Contents (Elt F) → (⟨S64, .f32⟩ : BufTy).Contents (Elt F)),
    StableHlo.unary main_v84 main_v85 (Host.rsqrt : (⟨S64, .f32⟩ : BufTy).Contents (Elt F) → (⟨S64, .f32⟩ : BufTy).Contents (Elt F)),
    StableHlo.unary main_v85 main_v86 (broadcastInDim S1x64 ![1] bcast_S64_S1x64_1 : (⟨S64, .f32⟩ : BufTy).Contents (Elt F) → (⟨S1x64, .f32⟩ : BufTy).Contents (Elt F)),
    StableHlo.unary main_v86 main_v87 (broadcastInDim S100000x64 ![0, 1] bcast_S1x64_S100000x64_0_1 : (⟨S1x64, .f32⟩ : BufTy).Contents (Elt F) → (⟨S100000x64, .f32⟩ : BufTy).Contents (Elt F)),
    StableHlo.binary main_v82 main_v87 main_v88 (mulf : (⟨S100000x64, .f32⟩ : BufTy).Contents (Elt F) → (⟨S100000x64, .f32⟩ : BufTy).Contents (Elt F) → (⟨S100000x64, .f32⟩ : BufTy).Contents (Elt F)),
    StableHlo.unary main_arg14 main_v89 (broadcastInDim S1x64 ![1] bcast_S64_S1x64_1 : (⟨S64, .f32⟩ : BufTy).Contents (Elt F) → (⟨S1x64, .f32⟩ : BufTy).Contents (Elt F)),
    StableHlo.unary main_v89 main_v90 (broadcastInDim S100000x64 ![0, 1] bcast_S1x64_S100000x64_0_1 : (⟨S1x64, .f32⟩ : BufTy).Contents (Elt F) → (⟨S100000x64, .f32⟩ : BufTy).Contents (Elt F)),
    StableHlo.binary main_v88 main_v90 main_v91 (mulf : (⟨S100000x64, .f32⟩ : BufTy).Contents (Elt F) → (⟨S100000x64, .f32⟩ : BufTy).Contents (Elt F) → (⟨S100000x64, .f32⟩ : BufTy).Contents (Elt F)),
    StableHlo.unary main_arg15 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S100000x64 ![0, 1] bcast_S1x64_S100000x64_0_1 : (⟨S1x64, .f32⟩ : BufTy).Contents (Elt F) → (⟨S100000x64, .f32⟩ : BufTy).Contents (Elt F)),
    StableHlo.binary main_v91 main_v93 main_v94 (addf : (⟨S100000x64, .f32⟩ : BufTy).Contents (Elt F) → (⟨S100000x64, .f32⟩ : BufTy).Contents (Elt F) → (⟨S100000x64, .f32⟩ : BufTy).Contents (Elt F)) ]
/-- The buffers those operations write, in order. -/
abbrev sBn64_w : List (Ref sig .tc) :=
  [main_v77, main_v78, main_v79, main_v80, main_v81, main_v82, main_cst_13, main_v83, main_v84, main_v85, main_v86, main_v87, main_v88, main_v89, main_v90, main_v91, main_v92, main_v93, main_v94]
theorem sBn64_sub : (sBn64 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem sBn64_fresh : (sBn64 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem sBn64_writes : WritesAre (sBn64 : List (HloOp τ sig (Elt F))) sBn64_w :=
  ⟨rfl, rfl, rfl, rfl, rfl, rfl, rfl, rfl, rfl, rfl, rfl, rfl, rfl, rfl, rfl, rfl, rfl, rfl, rfl, trivial⟩

/-- Width 64: the exponential linear unit. (Operations 128 to 142.) -/
abbrev sElu64 : List (HloOp τ sig (Elt F)) :=
  [ StableHlo.TRef.nullary main_call2.cst (constant S_ .f32 0x00000000#32),
    StableHlo.TRef.unary main_call2.cst main_call2.v0 (broadcastInDim S100000x64 ![] bcast_S_S100000x64),
    StableHlo.TRef.binary t_v94 main_call2.v0 main_call2.v1 (cmpf .ogt),
    StableHlo.TRef.nullary main_call2.cst_0 (constant S_ .f32 0x00000000#32),
    StableHlo.TRef.unary main_call2.cst_0 main_call2.v2 (broadcastInDim S100000x64 ![] bcast_S_S100000x64),
    StableHlo.TRef.binary t_v94 main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x64 ![] bcast_S_S100000x64),
    StableHlo.TRef.ternary main_call2.v3 main_call2.call0.v1 t_v94 main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x64 ![] bcast_S_S100000x64),
    StableHlo.TRef.binary main_call2.v6 main_call2.v5 main_call2.v7 mulf,
    StableHlo.TRef.ternary main_call2.v1 t_v94 main_call2.v7 main_call2.call1.v0 select ]
/-- The buffers those operations write, in order. -/
abbrev sElu64_w : List (Ref sig .tc) :=
  [main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v95]
theorem sElu64_sub : (sElu64 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem sElu64_fresh : (sElu64 : List (HloOp τ sig (Elt F))).Forall fun op => op.fresh = ∅ :=
  ⟨rfl, rfl, rfl, rfl, rfl, rfl, rfl, rfl, rfl, rfl, rfl, rfl, rfl, rfl, rfl⟩
theorem sElu64_writes : WritesAre (sElu64 : List (HloOp τ sig (Elt F))) sElu64_w :=
  ⟨rfl, rfl, rfl, rfl, rfl, rfl, rfl, rfl, rfl, rfl, rfl, rfl, rfl, rfl, rfl, trivial⟩

/-- Width 128: the linear map, and the source words with negative ones counted from the end. (Operations 143 to 150.) -/
abbrev sAgg128a : List (HloOp τ sig (Elt F)) :=
  [ StableHlo.binary main_v95 main_arg6 main_v96 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.nullary main_c_14 (constantI S_ 32 0#32),
    StableHlo.unary main_c_14 main_v97 (broadcastInDim S1700000 ![] bcast_S_S1700000 : (⟨S_, .i32⟩ : BufTy).Contents (Elt F) → (⟨S1700000, .i32⟩ : BufTy).Contents (Elt F)),
    StableHlo.binary main_v3 main_v97 main_v98 (cmpi .slt : (⟨S1700000, .i32⟩ : BufTy).Contents (Elt F) → (⟨S1700000, .i32⟩ : BufTy).Contents (Elt F) → (⟨S1700000, .i1⟩ : BufTy).Contents (Elt F)),
    StableHlo.nullary main_c_15 (constantI S_ 32 100000#32),
    StableHlo.unary main_c_15 main_v99 (broadcastInDim S1700000 ![] bcast_S_S1700000 : (⟨S_, .i32⟩ : BufTy).Contents (Elt F) → (⟨S1700000, .i32⟩ : BufTy).Contents (Elt F)),
    StableHlo.binary main_v3 main_v99 main_v100 (addi : (⟨S1700000, .i32⟩ : BufTy).Contents (Elt F) → (⟨S1700000, .i32⟩ : BufTy).Contents (Elt F) → (⟨S1700000, .i32⟩ : BufTy).Contents (Elt F)),
    StableHlo.ternary main_v98 main_v100 main_v3 main_v101 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ]
/-- The buffers those operations write, in order. -/
abbrev sAgg128a_w : List (Ref sig .tc) :=
  [main_v96, main_c_14, main_v97, main_v98, main_c_15, main_v99, main_v100, main_v101]
theorem sAgg128a_sub : (sAgg128a : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub ..⟩
theorem sAgg128a_fresh : (sAgg128a : List (HloOp τ sig (Elt F))).Forall fun op => op.fresh = ∅ :=
  ⟨rfl, rfl, rfl, rfl, rfl, rfl, rfl, rfl⟩
theorem sAgg128a_writes : WritesAre (sAgg128a : List (HloOp τ sig (Elt F))) sAgg128a_w :=
  ⟨rfl, rfl, rfl, rfl, rfl, rfl, rfl, rfl, trivial⟩

/-- Width 128: the rows read at the sources, weighted, and added up at the targets. (Operations 151 to 159.) -/
abbrev sAgg128b : List (HloOp τ sig (Elt F)) :=
  [ StableHlo.unary main_v101 main_v102 (broadcastInDim S1700000x1 ![0] bcast_S1700000_S1700000x1_0 : (⟨S1700000, .i32⟩ : BufTy).Contents (Elt F) → (⟨S1700000x1, .i32⟩ : BufTy).Contents (Elt F)),
    StableHlo.binary main_v96 main_v102 main_v103 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v29 main_v104 (broadcastInDim S1700000x1 ![0] bcast_S1700000_S1700000x1_0 : (⟨S1700000, .f32⟩ : BufTy).Contents (Elt F) → (⟨S1700000x1, .f32⟩ : BufTy).Contents (Elt F)),
    StableHlo.unary main_v104 main_v105 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v103 main_v105 main_v106 (mulf : (⟨S1700000x128, .f32⟩ : BufTy).Contents (Elt F) → (⟨S1700000x128, .f32⟩ : BufTy).Contents (Elt F) → (⟨S1700000x128, .f32⟩ : BufTy).Contents (Elt F)),
    StableHlo.nullary main_cst_16 (constant S_ .f32 0x00000000#32),
    StableHlo.unary main_cst_16 main_v107 (broadcastInDim S100000x128 ![] bcast_S_S100000x128 : (⟨S_, .f32⟩ : BufTy).Contents (Elt F) → (⟨S100000x128, .f32⟩ : BufTy).Contents (Elt F)),
    StableHlo.unary main_v6 main_v108 (broadcastInDim S1700000x1 ![0] bcast_S1700000_S1700000x1_0 : (⟨S1700000, .i32⟩ : BufTy).Contents (Elt F) → (⟨S1700000x1, .i32⟩ : BufTy).Contents (Elt F)),
    StableHlo.ternary main_v107 main_v108 main_v106 main_v109 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]
/-- The buffers those operations write, in order. -/
abbrev sAgg128b_w : List (Ref sig .tc) :=
  [main_v102, main_v103, main_v104, main_v105, main_v106, main_cst_16, main_v107, main_v108, main_v109]
theorem sAgg128b_sub : (sAgg128b : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., unary_bufs_sub .., ternary_bufs_sub ..⟩
theorem sAgg128b_fresh : (sAgg128b : List (HloOp τ sig (Elt F))).Forall fun op => op.fresh = ∅ :=
  ⟨rfl, rfl, rfl, rfl, rfl, rfl, rfl, rfl, rfl⟩
theorem sAgg128b_writes : WritesAre (sAgg128b : List (HloOp τ sig (Elt F))) sAgg128b_w :=
  ⟨rfl, rfl, rfl, rfl, rfl, rfl, rfl, rfl, rfl, trivial⟩

/-- Width 128: bias and batch normalisation. (Operations 160 to 178.) -/
abbrev sBn128 : List (HloOp τ sig (Elt F)) :=
  [ StableHlo.unary main_arg7 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S100000x128 ![0, 1] bcast_S1x128_S100000x128_0_1 : (⟨S1x128, .f32⟩ : BufTy).Contents (Elt F) → (⟨S100000x128, .f32⟩ : BufTy).Contents (Elt F)),
    StableHlo.binary main_v109 main_v111 main_v112 (addf : (⟨S100000x128, .f32⟩ : BufTy).Contents (Elt F) → (⟨S100000x128, .f32⟩ : BufTy).Contents (Elt F) → (⟨S100000x128, .f32⟩ : BufTy).Contents (Elt F)),
    StableHlo.unary main_arg20 main_v113 (broadcastInDim S1x128 ![1] bcast_S128_S1x128_1 : (⟨S128, .f32⟩ : BufTy).Contents (Elt F) → (⟨S1x128, .f32⟩ : BufTy).Contents (Elt F)),
    StableHlo.unary main_v113 main_v114 (broadcastInDim S100000x128 ![0, 1] bcast_S1x128_S100000x128_0_1 : (⟨S1x128, .f32⟩ : BufTy).Contents (Elt F) → (⟨S100000x128, .f32⟩ : BufTy).Contents (Elt F)),
    StableHlo.binary main_v112 main_v114 main_v115 (subf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x3727C5AC#32),
    StableHlo.unary main_cst_17 main_v116 (broadcastInDim S128 ![] bcast_S_S128 : (⟨S_, .f32⟩ : BufTy).Contents (Elt F) → (⟨S128, .f32⟩ : BufTy).Contents (Elt F)),
    StableHlo.binary main_arg21 main_v116 main_v117 (addf : (⟨S128, .f32⟩ : BufTy).Contents (Elt F) → (⟨S128, .f32⟩ : BufTy).Contents (Elt F) → (⟨S128, .f32⟩ : BufTy).Contents (Elt F)),
    StableHlo.unary main_v117 main_v118 (Host.rsqrt : (⟨S128, .f32⟩ : BufTy).Contents (Elt F) → (⟨S128, .f32⟩ : BufTy).Contents (Elt F)),
    StableHlo.unary main_v118 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S100000x128 ![0, 1] bcast_S1x128_S100000x128_0_1 : (⟨S1x128, .f32⟩ : BufTy).Contents (Elt F) → (⟨S100000x128, .f32⟩ : BufTy).Contents (Elt F)),
    StableHlo.binary main_v115 main_v120 main_v121 (mulf : (⟨S100000x128, .f32⟩ : BufTy).Contents (Elt F) → (⟨S100000x128, .f32⟩ : BufTy).Contents (Elt F) → (⟨S100000x128, .f32⟩ : BufTy).Contents (Elt F)),
    StableHlo.unary main_arg18 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S100000x128 ![0, 1] bcast_S1x128_S100000x128_0_1 : (⟨S1x128, .f32⟩ : BufTy).Contents (Elt F) → (⟨S100000x128, .f32⟩ : BufTy).Contents (Elt F)),
    StableHlo.binary main_v121 main_v123 main_v124 (mulf : (⟨S100000x128, .f32⟩ : BufTy).Contents (Elt F) → (⟨S100000x128, .f32⟩ : BufTy).Contents (Elt F) → (⟨S100000x128, .f32⟩ : BufTy).Contents (Elt F)),
    StableHlo.unary main_arg19 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S100000x128 ![0, 1] bcast_S1x128_S100000x128_0_1 : (⟨S1x128, .f32⟩ : BufTy).Contents (Elt F) → (⟨S100000x128, .f32⟩ : BufTy).Contents (Elt F)),
    StableHlo.binary main_v124 main_v126 main_v127 (addf : (⟨S100000x128, .f32⟩ : BufTy).Contents (Elt F) → (⟨S100000x128, .f32⟩ : BufTy).Contents (Elt F) → (⟨S100000x128, .f32⟩ : BufTy).Contents (Elt F)) ]
/-- The buffers those operations write, in order. -/
abbrev sBn128_w : List (Ref sig .tc) :=
  [main_v110, main_v111, main_v112, main_v113, main_v114, main_v115, main_cst_17, main_v116, main_v117, main_v118, main_v119, main_v120, main_v121, main_v122, main_v123, main_v124, main_v125, main_v126, main_v127]
theorem sBn128_sub : (sBn128 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem sBn128_fresh : (sBn128 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem sBn128_writes : WritesAre (sBn128 : List (HloOp τ sig (Elt F))) sBn128_w :=
  ⟨rfl, rfl, rfl, rfl, rfl, rfl, rfl, rfl, rfl, rfl, rfl, rfl, rfl, rfl, rfl, rfl, rfl, rfl, rfl, trivial⟩

/-- Width 128: the exponential linear unit. (Operations 179 to 193.) -/
abbrev sElu128 : List (HloOp τ sig (Elt F)) :=
  [ StableHlo.TRef.nullary main_call3.cst (constant S_ .f32 0x00000000#32),
    StableHlo.TRef.unary main_call3.cst main_call3.v0 (broadcastInDim S100000x128 ![] bcast_S_S100000x128),
    StableHlo.TRef.binary t_v127 main_call3.v0 main_call3.v1 (cmpf .ogt),
    StableHlo.TRef.nullary main_call3.cst_0 (constant S_ .f32 0x00000000#32),
    StableHlo.TRef.unary main_call3.cst_0 main_call3.v2 (broadcastInDim S100000x128 ![] bcast_S_S100000x128),
    StableHlo.TRef.binary t_v127 main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S100000x128 ![] bcast_S_S100000x128),
    StableHlo.TRef.ternary main_call3.v3 main_call3.call0.v1 t_v127 main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S100000x128 ![] bcast_S_S100000x128),
    StableHlo.TRef.binary main_call3.v6 main_call3.v5 main_call3.v7 mulf,
    StableHlo.TRef.ternary main_call3.v1 t_v127 main_call3.v7 main_call3.call1.v0 select ]
/-- The buffers those operations write, in order. -/
abbrev sElu128_w : List (Ref sig .tc) :=
  [main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v128]
theorem sElu128_sub : (sElu128 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem sElu128_fresh : (sElu128 : List (HloOp τ sig (Elt F))).Forall fun op => op.fresh = ∅ :=
  ⟨rfl, rfl, rfl, rfl, rfl, rfl, rfl, rfl, rfl, rfl, rfl, rfl, rfl, rfl, rfl⟩
theorem sElu128_writes : WritesAre (sElu128 : List (HloOp τ sig (Elt F))) sElu128_w :=
  ⟨rfl, rfl, rfl, rfl, rfl, rfl, rfl, rfl, rfl, rfl, rfl, rfl, rfl, rfl, rfl, trivial⟩

/-- Width 1: the linear map, its rows read at the sources, weighted, and added up at the targets. (Operations 194 to 209.) -/
abbrev sAgg1 : List (HloOp τ sig (Elt F)) :=
  [ StableHlo.binary main_v128 main_arg8 main_v129 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    StableHlo.nullary main_c_18 (constantI S_ 32 0#32),
    StableHlo.unary main_c_18 main_v130 (broadcastInDim S1700000 ![] bcast_S_S1700000 : (⟨S_, .i32⟩ : BufTy).Contents (Elt F) → (⟨S1700000, .i32⟩ : BufTy).Contents (Elt F)),
    StableHlo.binary main_v3 main_v130 main_v131 (cmpi .slt : (⟨S1700000, .i32⟩ : BufTy).Contents (Elt F) → (⟨S1700000, .i32⟩ : BufTy).Contents (Elt F) → (⟨S1700000, .i1⟩ : BufTy).Contents (Elt F)),
    StableHlo.nullary main_c_19 (constantI S_ 32 100000#32),
    StableHlo.unary main_c_19 main_v132 (broadcastInDim S1700000 ![] bcast_S_S1700000 : (⟨S_, .i32⟩ : BufTy).Contents (Elt F) → (⟨S1700000, .i32⟩ : BufTy).Contents (Elt F)),
    StableHlo.binary main_v3 main_v132 main_v133 (addi : (⟨S1700000, .i32⟩ : BufTy).Contents (Elt F) → (⟨S1700000, .i32⟩ : BufTy).Contents (Elt F) → (⟨S1700000, .i32⟩ : BufTy).Contents (Elt F)),
    StableHlo.ternary main_v131 main_v133 main_v3 main_v134 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v134 main_v135 (broadcastInDim S1700000x1 ![0] bcast_S1700000_S1700000x1_0 : (⟨S1700000, .i32⟩ : BufTy).Contents (Elt F) → (⟨S1700000x1, .i32⟩ : BufTy).Contents (Elt F)),
    StableHlo.binary main_v129 main_v135 main_v136 ((fun x i => Host.gather gather_S100000x1_S1700000x1_S1700000x1_1_0_n_n_0_1_11 x i) : (⟨S100000x1, .f32⟩ : BufTy).Contents (Elt F) → (⟨S1700000x1, .i32⟩ : BufTy).Contents (Elt F) → (⟨S1700000x1, .f32⟩ : BufTy).Contents (Elt F)),
    StableHlo.unary main_v29 main_v137 (broadcastInDim S1700000x1 ![0] bcast_S1700000_S1700000x1_0 : (⟨S1700000, .f32⟩ : BufTy).Contents (Elt F) → (⟨S1700000x1, .f32⟩ : BufTy).Contents (Elt F)),
    StableHlo.binary main_v136 main_v137 main_v138 (mulf : (⟨S1700000x1, .f32⟩ : BufTy).Contents (Elt F) → (⟨S1700000x1, .f32⟩ : BufTy).Contents (Elt F) → (⟨S1700000x1, .f32⟩ : BufTy).Contents (Elt F)),
    StableHlo.nullary main_cst_20 (constant S_ .f32 0x00000000#32),
    StableHlo.unary main_cst_20 main_v139 (broadcastInDim S100000x1 ![] bcast_S_S100000x1 : (⟨S_, .f32⟩ : BufTy).Contents (Elt F) → (⟨S100000x1, .f32⟩ : BufTy).Contents (Elt F)),
    StableHlo.unary main_v6 main_v140 (broadcastInDim S1700000x1 ![0] bcast_S1700000_S1700000x1_0 : (⟨S1700000, .i32⟩ : BufTy).Contents (Elt F) → (⟨S1700000x1, .i32⟩ : BufTy).Contents (Elt F)),
    StableHlo.ternary main_v139 main_v140 main_v138 main_v141 ((fun x i u => Host.scatterAdd scatter_S100000x1_S1700000x1_S1700000x1_1_0_0_1 x i u) : (⟨S100000x1, .f32⟩ : BufTy).Contents (Elt F) → (⟨S1700000x1, .i32⟩ : BufTy).Contents (Elt F) → (⟨S1700000x1, .f32⟩ : BufTy).Contents (Elt F) → (⟨S100000x1, .f32⟩ : BufTy).Contents (Elt F)) ]
/-- The buffers those operations write, in order. -/
abbrev sAgg1_w : List (Ref sig .tc) :=
  [main_v129, main_c_18, main_v130, main_v131, main_c_19, main_v132, main_v133, main_v134, main_v135, main_v136, main_v137, main_v138, main_cst_20, main_v139, main_v140, main_v141]
theorem sAgg1_sub : (sAgg1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem sAgg1_fresh : (sAgg1 : List (HloOp τ sig (Elt F))).Forall fun op => op.fresh = ∅ :=
  ⟨rfl, rfl, rfl, rfl, rfl, rfl, rfl, rfl, rfl, rfl, rfl, rfl, rfl, rfl, rfl, rfl⟩
theorem sAgg1_writes : WritesAre (sAgg1 : List (HloOp τ sig (Elt F))) sAgg1_w :=
  ⟨rfl, rfl, rfl, rfl, rfl, rfl, rfl, rfl, rfl, rfl, rfl, rfl, rfl, rfl, rfl, rfl, trivial⟩

/-- Width 1: the bias added. (Operations 210 to 212.) -/
abbrev sBias1 : List (HloOp τ sig (Elt F)) :=
  [ StableHlo.unary main_arg9 main_v142 (broadcastInDim S1x1 ![1] bcast_S1_S1x1_1 : (⟨S1, .f32⟩ : BufTy).Contents (Elt F) → (⟨S1x1, .f32⟩ : BufTy).Contents (Elt F)),
    StableHlo.unary main_v142 main_v143 (broadcastInDim S100000x1 ![0, 1] bcast_S1x1_S100000x1_0_1 : (⟨S1x1, .f32⟩ : BufTy).Contents (Elt F) → (⟨S100000x1, .f32⟩ : BufTy).Contents (Elt F)),
    StableHlo.binary main_v141 main_v143 main_v144 (addf : (⟨S100000x1, .f32⟩ : BufTy).Contents (Elt F) → (⟨S100000x1, .f32⟩ : BufTy).Contents (Elt F) → (⟨S100000x1, .f32⟩ : BufTy).Contents (Elt F)) ]
/-- The buffers those operations write, in order. -/
abbrev sBias1_w : List (Ref sig .tc) :=
  [main_v142, main_v143, main_v144]
theorem sBias1_sub : (sBias1 : List (HloOp τ sig (Elt F))).Forall fun op => op.bufs ⊆ tcRefs τ sig :=
  ⟨unary_bufs_sub .., unary_bufs_sub .., binary_bufs_sub ..⟩
theorem sBias1_fresh : (sBias1 : List (HloOp τ sig (Elt F))).Forall fun op => op.fresh = ∅ :=
  ⟨rfl, rfl, rfl⟩
theorem sBias1_writes : WritesAre (sBias1 : List (HloOp τ sig (Elt F))) sBias1_w :=
  ⟨rfl, rfl, rfl, trivial⟩

/-- Width 1: the exponential linear unit. (Operations 213 to 227.) -/
abbrev sElu1 : List (HloOp τ sig (Elt F)) :=
  [ StableHlo.TRef.nullary main_call4.cst (constant S_ .f32 0x00000000#32),
    StableHlo.TRef.unary main_call4.cst main_call4.v0 (broadcastInDim S100000x1 ![] bcast_S_S100000x1),
    StableHlo.TRef.binary t_v144 main_call4.v0 main_call4.v1 (cmpf .ogt),
    StableHlo.TRef.nullary main_call4.cst_0 (constant S_ .f32 0x00000000#32),
    StableHlo.TRef.unary main_call4.cst_0 main_call4.v2 (broadcastInDim S100000x1 ![] bcast_S_S100000x1),
    StableHlo.TRef.binary t_v144 main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S100000x1 ![] bcast_S_S100000x1),
    StableHlo.TRef.ternary main_call4.v3 main_call4.call0.v1 t_v144 main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S100000x1 ![] bcast_S_S100000x1),
    StableHlo.TRef.binary main_call4.v6 main_call4.v5 main_call4.v7 mulf,
    StableHlo.TRef.ternary main_call4.v1 t_v144 main_call4.v7 main_call4.call1.v0 select ]
/-- The buffers those operations write, in order. -/
abbrev sElu1_w : List (Ref sig .tc) :=
  [main_call4_cst, main_call4_v0, main_call4_v1, main_call4_cst_0, main_call4_v2, main_call4_v3, main_call4_cst_1, main_call4_call0_v0, main_call4_call0_v1, main_call4_v4, main_call4_v5, main_call4_cst_2, main_call4_v6, main_call4_v7, main_v145]
theorem sElu1_sub : (sElu1 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem sElu1_fresh : (sElu1 : List (HloOp τ sig (Elt F))).Forall fun op => op.fresh = ∅ :=
  ⟨rfl, rfl, rfl, rfl, rfl, rfl, rfl, rfl, rfl, rfl, rfl, rfl, rfl, rfl, rfl⟩
theorem sElu1_writes : WritesAre (sElu1 : List (HloOp τ sig (Elt F))) sElu1_w :=
  ⟨rfl, rfl, rfl, rfl, rfl, rfl, rfl, rfl, rfl, rfl, rfl, rfl, rfl, rfl, rfl, trivial⟩

/-- The logistic function 1 / (1 + e^(-y)). (Operations 228 to 235.) -/
abbrev sOut : List (HloOp τ sig (Elt F)) :=
  [ StableHlo.unary main_v145 main_v146 (Host.negf : (⟨S100000x1, .f32⟩ : BufTy).Contents (Elt F) → (⟨S100000x1, .f32⟩ : BufTy).Contents (Elt F)),
    StableHlo.unary main_v146 main_v147 (Host.exp : (⟨S100000x1, .f32⟩ : BufTy).Contents (Elt F) → (⟨S100000x1, .f32⟩ : BufTy).Contents (Elt F)),
    StableHlo.nullary main_cst_21 (constant S_ .f32 0x3F800000#32),
    StableHlo.unary main_cst_21 main_v148 (broadcastInDim S100000x1 ![] bcast_S_S100000x1 : (⟨S_, .f32⟩ : BufTy).Contents (Elt F) → (⟨S100000x1, .f32⟩ : BufTy).Contents (Elt F)),
    StableHlo.binary main_v148 main_v147 main_v149 (addf : (⟨S100000x1, .f32⟩ : BufTy).Contents (Elt F) → (⟨S100000x1, .f32⟩ : BufTy).Contents (Elt F) → (⟨S100000x1, .f32⟩ : BufTy).Contents (Elt F)),
    StableHlo.nullary main_cst_22 (constant S_ .f32 0x3F800000#32),
    StableHlo.unary main_cst_22 main_v150 (broadcastInDim S100000x1 ![] bcast_S_S100000x1 : (⟨S_, .f32⟩ : BufTy).Contents (Elt F) → (⟨S100000x1, .f32⟩ : BufTy).Contents (Elt F)),
    StableHlo.binary main_v150 main_v149 main_v151 (Host.divf : (⟨S100000x1, .f32⟩ : BufTy).Contents (Elt F) → (⟨S100000x1, .f32⟩ : BufTy).Contents (Elt F) → (⟨S100000x1, .f32⟩ : BufTy).Contents (Elt F)) ]
/-- The buffers those operations write, in order. -/
abbrev sOut_w : List (Ref sig .tc) :=
  [main_v146, main_v147, main_cst_21, main_v148, main_v149, main_cst_22, main_v150, main_v151]
theorem sOut_sub : (sOut : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub ..⟩
theorem sOut_fresh : (sOut : List (HloOp τ sig (Elt F))).Forall fun op => op.fresh = ∅ :=
  ⟨rfl, rfl, rfl, rfl, rfl, rfl, rfl, rfl⟩
theorem sOut_writes : WritesAre (sOut : List (HloOp τ sig (Elt F))) sOut_w :=
  ⟨rfl, rfl, rfl, rfl, rfl, rfl, rfl, rfl, trivial⟩

/-! ## The three windows and the whole line -/

/-- The operations of the program's first window of statements. -/
abbrev ops0 : List (HloOp τ sig (Elt F)) := sSlots ++ sDeg ++ sDinv ++ sNormSrc ++ sNorm ++ sAgg32 ++ sBn32a
abbrev ws0 : List (Ref sig .tc) := sSlots_w ++ sDeg_w ++ sDinv_w ++ sNormSrc_w ++ sNorm_w ++ sAgg32_w ++ sBn32a_w
/-- The operations of the program's second window of statements. -/
abbrev ops1 : List (HloOp τ sig (Elt F)) := sBn32b ++ sElu32 ++ sAgg64 ++ sBn64 ++ sElu64 ++ sAgg128a
abbrev ws1 : List (Ref sig .tc) := sBn32b_w ++ sElu32_w ++ sAgg64_w ++ sBn64_w ++ sElu64_w ++ sAgg128a_w
/-- The operations of the program's third window of statements. -/
abbrev ops2 : List (HloOp τ sig (Elt F)) := sAgg128b ++ sBn128 ++ sElu128 ++ sAgg1 ++ sBias1 ++ sElu1 ++ sOut
abbrev ws2 : List (Ref sig .tc) := sAgg128b_w ++ sBn128_w ++ sElu128_w ++ sAgg1_w ++ sBias1_w ++ sElu1_w ++ sOut_w

/-- The whole line. -/
abbrev ops : List (HloOp τ sig (Elt F)) := ops0 ++ (ops1 ++ ops2)
/-- The buffers it writes, in order. -/
abbrev ws : List (Ref sig .tc) := ws0 ++ (ws1 ++ ws2)

end Cert.RefRun

end
-- ==== Proof.RefRun.lean ====
/-
  The reference program runs as its straight line of operations.

  Written out, the program's three windows of statements are the three lists of operations (the called functions
  unfolded at their calls), so the program is the sequence of the whole line; every operation touches only
  buffers of the TensorCore and determines its result.  Hence every weakly fair execution terminates without
  fault, and leaves in every buffer what the fold of the operations' results leaves there from the launch
  contents.  The fold is kept folded here; it is read segment by segment elsewhere.
-/
import proofs.«122410_j40535901339683_1_alg».proof.Proof.RefOps

noncomputable section

namespace Cert.RefRun

open Cert.ReferenceIdeal Cert.ReferenceIdeal.Gen Idealize.ShloMosaic Idealize.ShloMosaic.TcCoe Idealize.SL.Sem Idealize.ShloMosaic.StableHlo
open Cert.Lib.AfterAssign

variable {F : FTy → Type} [FloatOps F]

/-- A property of every element of two lists holds of every element of their concatenation. -/
theorem forall_append {α : Type} {p : α → Prop} {l₁ l₂ : List α} (h₁ : l₁.Forall p) (h₂ : l₂.Forall p) :
    (l₁ ++ l₂).Forall p := by
  rw [List.forall_iff_forall_mem] at *
  intro x hx
  rcases List.mem_append.mp hx with h | h
  exacts [h₁ x h, h₂ x h]

set_option maxRecDepth 65536 in
set_option maxHeartbeats 4000000 in
/-- The first window of statements is the first list of operations run in order. -/
theorem main_part0_eq (c : Dev nD) : main_part0 (F := F) c = seq ops0 := rfl
set_option maxRecDepth 65536 in
set_option maxHeartbeats 4000000 in
/-- The second window likewise. -/
theorem main_part1_eq (c : Dev nD) : main_part1 (F := F) c = seq ops1 := rfl
set_option maxRecDepth 65536 in
set_option maxHeartbeats 4000000 in
/-- The third window likewise. -/
theorem main_part2_eq (c : Dev nD) : main_part2 (F := F) c = seq ops2 := rfl

/-- The program is the whole line run in order: a concatenation runs as its parts one after the other. -/
theorem main_eq (c : Dev nD) : main (F := F) c = seq ops := by
  have e : (seq (ops (F := F)) : Prog (TpuEff nD τ sig (Elt F) (Pipeline.Sig Λ₀ (Fin 0) fun p => (pcfgs (F := F) p).Adm) .tc) PUnit)
      = (seq ops0 >>= fun _ => (seq ops1 >>= fun _ => seq ops2)) := by
    rw [show (ops : List (HloOp τ sig (Elt F))) = ops0 ++ (ops1 ++ ops2) from rfl, seq_append ops0 (ops1 ++ ops2), seq_append ops1 ops2]
  rw [e, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  forall_append (forall_append (forall_append (forall_append (forall_append (forall_append (sSlots_sub) sDeg_sub) sDinv_sub) sNormSrc_sub) sNorm_sub) sAgg32_sub) sBn32a_sub
theorem ops1_sub : (ops1 : List (HloOp τ sig (Elt F))).Forall fun op => op.bufs ⊆ tcRefs τ sig :=
  forall_append (forall_append (forall_append (forall_append (forall_append (sBn32b_sub) sElu32_sub) sAgg64_sub) sBn64_sub) sElu64_sub) sAgg128a_sub
theorem ops2_sub : (ops2 : List (HloOp τ sig (Elt F))).Forall fun op => op.bufs ⊆ tcRefs τ sig :=
  forall_append (forall_append (forall_append (forall_append (forall_append (forall_append (sAgg128b_sub) sBn128_sub) sElu128_sub) sAgg1_sub) sBias1_sub) sElu1_sub) sOut_sub
/-- Every operation of the line touches TensorCore buffers only. -/
theorem ops_sub : (ops : List (HloOp τ sig (Elt F))).Forall fun op => op.bufs ⊆ tcRefs τ sig :=
  forall_append ops0_sub (forall_append ops1_sub ops2_sub)

theorem ops0_fresh : (ops0 : List (HloOp τ sig (Elt F))).Forall fun op => op.fresh = ∅ :=
  forall_append (forall_append (forall_append (forall_append (forall_append (forall_append (sSlots_fresh) sDeg_fresh) sDinv_fresh) sNormSrc_fresh) sNorm_fresh) sAgg32_fresh) sBn32a_fresh
theorem ops1_fresh : (ops1 : List (HloOp τ sig (Elt F))).Forall fun op => op.fresh = ∅ :=
  forall_append (forall_append (forall_append (forall_append (forall_append (sBn32b_fresh) sElu32_fresh) sAgg64_fresh) sBn64_fresh) sElu64_fresh) sAgg128a_fresh
theorem ops2_fresh : (ops2 : List (HloOp τ sig (Elt F))).Forall fun op => op.fresh = ∅ :=
  forall_append (forall_append (forall_append (forall_append (forall_append (forall_append (sAgg128b_fresh) sBn128_fresh) sElu128_fresh) sAgg1_fresh) sBias1_fresh) sElu1_fresh) sOut_fresh
/-- Every operation of the line determines its result. -/
theorem ops_fresh : ∀ op ∈ (ops : List (HloOp τ sig (Elt F))), op.fresh = ∅ :=
  List.forall_iff_forall_mem.mp (forall_append ops0_fresh (forall_append ops1_fresh ops2_fresh))

/-- On every device, for any float values, from any memory with zero counters: every weakly fair execution of the
    program terminates, and every final state has each TensorCore buffer at the fold of the line's operations over
    the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.RefRun

end
-- ==== Proof.LibAfterSegment.lean ====
import proofs.«122410_j40535901339683_1_alg».proof.Proof.LibAfterAssign

/-!
# Reading a long straight line of operations one SEGMENT at a time

A line of operations in single-assignment form (`WritesAre ops ws`: the `k`-th operation writes exactly the `k`-th
reference of `ws`) is cut at positions `k` and `k + n`. If no operation from position `k + n` on writes the reference
`y`, the whole line leaves at `y` what the `n` operations from position `k` leave there, run from the contents after the
first `k` operations (`after_segment`). Together with `after_take_at_unwritten` — a reference that no operation from
position `k` on writes holds after the first `k` operations what it holds at the end — a segment's own reading, "its
result is this function of what it found at these references", becomes an equation between the FINAL contents of its
result and the FINAL contents of the references it reads. The segments' equations can then be used in program order,
and no contents at an intermediate position are ever named.
-/

namespace Cert.Lib.AfterAssign

open Idealize.ShloMosaic Idealize.ShloMosaic.StableHlo

variable {τ : Topo} {sig : RefSig} {Val : EltTy → Type}

/-- If no operation from position `k + n` on writes `y`, the whole line leaves at `y` what the segment of `n`
    operations from position `k` leaves there, from the contents after the first `k` operations. -/
theorem after_segment {ops : List (HloOp τ sig Val)} {ws : List (Ref sig .tc)} (h : WritesAre ops ws)
    (k n : Nat) (V : Valuation τ sig Val) {y : Ref sig .tc} (hy : y ∉ ws.drop (k + n)) :
    after ops V (Proc.devRef .tc y)
      = after ((ops.drop k).take n) (after (ops.take k) V) (Proc.devRef .tc y) := by
  have e : after ops V = after (ops.drop (k + n)) (after ((ops.drop k).take n) (after (ops.take k) V)) := by
    rw [after_take_drop k ops V, after_take_drop n (ops.drop k) (after (ops.take k) V), List.drop_drop]
  rw [e]
  exact after_of_not_written (WritesAre.drop (k + n) h) _ hy

end Cert.Lib.AfterAssign
-- ==== Proof.RefWrites.lean ====
/-
  The reference program's line of operations is in single-assignment form: its k-th operation writes exactly the
  k-th buffer of the list beside it.  Each segment's operations write the buffers listed beside the segment (each by
  the operation's definition), and single assignment passes to concatenations.
-/
import proofs.«122410_j40535901339683_1_alg».proof.Proof.RefOps
import proofs.«122410_j40535901339683_1_alg».proof.Proof.LibAfterSegment

noncomputable section

namespace Cert.RefRun

open Cert.ReferenceIdeal Cert.ReferenceIdeal.Gen Idealize.ShloMosaic Idealize.ShloMosaic.TcCoe Idealize.SL.Sem Idealize.ShloMosaic.StableHlo
open Cert.Lib.AfterAssign

variable {F : FTy → Type} [FloatOps F]

/-- Two lines in single-assignment form, one after the other, are in single-assignment form. -/
theorem writesAre_append {τ : Topo} {sig : RefSig} {Val : EltTy → Type} :
    ∀ {l₁ : List (HloOp τ sig Val)} {w₁ : List (Ref sig .tc)} {l₂ : List (HloOp τ sig Val)} {w₂ : List (Ref sig .tc)},
      WritesAre l₁ w₁ → WritesAre l₂ w₂ → WritesAre (l₁ ++ l₂) (w₁ ++ w₂)
  | [], [], _, _, _, h => h
  | _ :: _, _ :: _, _, _, h₁, h₂ => And.intro h₁.1 (writesAre_append h₁.2 h₂)
  | [], _ :: _, _, _, h, _ => False.elim h
  | _ :: _, [], _, _, h, _ => False.elim h

theorem hW0 : WritesAre (ops0 : List (HloOp τ sig (Elt F))) ws0 :=
  writesAre_append (writesAre_append (writesAre_append (writesAre_append (writesAre_append (writesAre_append (sSlots_writes) sDeg_writes) sDinv_writes) sNormSrc_writes) sNorm_writes) sAgg32_writes) sBn32a_writes
theorem hW1 : WritesAre (ops1 : List (HloOp τ sig (Elt F))) ws1 :=
  writesAre_append (writesAre_append (writesAre_append (writesAre_append (writesAre_append (sBn32b_writes) sElu32_writes) sAgg64_writes) sBn64_writes) sElu64_writes) sAgg128a_writes
theorem hW2 : WritesAre (ops2 : List (HloOp τ sig (Elt F))) ws2 :=
  writesAre_append (writesAre_append (writesAre_append (writesAre_append (writesAre_append (writesAre_append (sAgg128b_writes) sBn128_writes) sElu128_writes) sAgg1_writes) sBias1_writes) sElu1_writes) sOut_writes
/-- The whole line is in single-assignment form. -/
theorem hW : WritesAre (ops : List (HloOp τ sig (Elt F))) ws :=
  writesAre_append hW0 (writesAre_append hW1 hW2)

/-- The twenty-two argument arrays are written by no operation: they end as they began. -/
theorem arg_kept (V : Valuation τ sig (Elt F)) {r : Ref sig .tc} (hr : r ∉ ws) :
    after ops V (Proc.devRef .tc r) = V (Proc.devRef .tc r) :=
  after_of_not_written (hW (F := F)) V hr

end Cert.RefRun

end
-- ==== Proof.RefStages.lean ====
/-
  The stages of the reference computation as functions of the values they read.

  Each function below is what one segment of the reference program's line of operations computes, stated over the
  contents of the buffers the segment reads: the degrees from the target words, their inverse roots, the slot weights,
  per layer the aggregation (rows of the linear map read at the sources, weighted, added up at the targets), the bias
  and batch normalisation in the two halves in which the first layer computes them, and the logistic function.  Each
  stage of the specification is one of these applied to the stages before it, by definition.
-/
import proofs.«122410_j40535901339683_1_alg».proof.Proof.Spec

noncomputable section

namespace Cert.RefRun

open Idealize.ShloMosaic Idealize.SL.Sem Cert.ReferenceIdeal
open Cert.Spec (C)

variable {F : FTy → Type} [FloatOps F] [Facts₀]
open Facts₀

/-- Ones added up at the target of every slot. -/
def degOf (dst : C F S1700000 .i32) : C F S100000 .f32 :=
  Host.scatterAdd scatter_S100000_S1700000x1_S1700000_n_0_0_1
    (broadcastInDim S100000 ![] bcast_S_S100000 (constant S_ .f32 0x00000000#32))
    (Spec.col (F := F) dst)
    (broadcastInDim S1700000 ![] bcast_S_S1700000 (constant S_ .f32 0x3F800000#32))

/-- The inverse square root where the degree is positive, zero elsewhere. -/
def dinvOf (deg : C F S100000 .f32) : C F S100000 .f32 :=
  select (cmpf .ogt deg (broadcastInDim S100000 ![] bcast_S_S100000 (constant S_ .f32 0x00000000#32)))
    (Host.rsqrt deg)
    (broadcastInDim S100000 ![] bcast_S_S100000 (id (constant S_ .f32 0x00000000#32)))

/-- A node vector read at every slot's word (a negative word counting from the end). -/
def gatherDinv (dinv : C F S100000 .f32) (w : C F S1700000 .i32) : C F S1700000 .f32 :=
  Host.gather gather_S100000_S1700000x1_S1700000_n_0_n_n_0_1_1 dinv (Spec.wrapCol (F := F) w)

/-- The slot weight from the value already read at the source: times the value at the target. -/
def normOf (a : C F S1700000 .f32) (dinv : C F S100000 .f32) (dst : C F S1700000 .i32) : C F S1700000 .f32 :=
  mulf a (gatherDinv (F := F) dinv dst)

/-- The slot weights as a column. -/
def normColOf (n : C F S1700000 .f32) : C F S1700000x1 .f32 :=
  broadcastInDim S1700000x1 ![0] bcast_S1700000_S1700000x1_0 n

/-- Node words with 100000 added to the negative ones. -/
def wrapOf (w : C F S1700000 .i32) : C F S1700000 .i32 :=
  select (cmpi .slt w (broadcastInDim S1700000 ![] bcast_S_S1700000 (constantI S_ 32 0#32)))
    (addi w (broadcastInDim S1700000 ![] bcast_S_S1700000 (constantI S_ 32 100000#32))) w

/-- Width 32: rows read at the sources, weighted, added up at the targets. -/
def agg32Of (xw : C F S100000x32 .f32) (src dst : C F S1700000 .i32) (n : C F S1700000 .f32) : C F S100000x32 .f32 :=
  Host.scatterAdd scatter_S100000x32_S1700000x1_S1700000x32_1_0_0_1
    (broadcastInDim S100000x32 ![] bcast_S_S100000x32 (constant S_ .f32 0x00000000#32))
    (Spec.col (F := F) dst)
    (mulf (Host.gather gather_S100000x32_S1700000x1_S1700000x32_1_0_n_n_0_1_132 xw (Spec.wrapCol (F := F) src))
      (broadcastInDim S1700000x32 ![0, 1] bcast_S1700000x1_S1700000x32_0_1 (normColOf (F := F) n)))

/-- Width 64 likewise. -/
def agg64Of (xw : C F S100000x64 .f32) (src dst : C F S1700000 .i32) (n : C F S1700000 .f32) : C F S100000x64 .f32 :=
  Host.scatterAdd scatter_S100000x64_S1700000x1_S1700000x64_1_0_0_1
    (broadcastInDim S100000x64 ![] bcast_S_S100000x64 (constant S_ .f32 0x00000000#32))
    (Spec.col (F := F) dst)
    (mulf (Host.gather gather_S100000x64_S1700000x1_S1700000x64_1_0_n_n_0_1_164 xw (Spec.wrapCol (F := F) src))
      (broadcastInDim S1700000x64 ![0, 1] bcast_S1700000x1_S1700000x64_0_1 (normColOf (F := F) n)))

/-- Width 128 likewise, from source words already made non-negative. -/
def agg128Of (xw : C F S100000x128 .f32) (wsrc dst : C F S1700000 .i32) (n : C F S1700000 .f32) : C F S100000x128 .f32 :=
  Host.scatterAdd scatter_S100000x128_S1700000x1_S1700000x128_1_0_0_1
    (broadcastInDim S100000x128 ![] bcast_S_S100000x128 (constant S_ .f32 0x00000000#32))
    (Spec.col (F := F) dst)
    (mulf (Host.gather gather_S100000x128_S1700000x1_S1700000x128_1_0_n_n_0_1_1128 xw (Spec.col (F := F) wsrc))
      (broadcastInDim S1700000x128 ![0, 1] bcast_S1700000x1_S1700000x128_0_1 (normColOf (F := F) n)))

/-- Width 1 likewise (the weight column needs no widening). -/
def agg1Of (xw : C F S100000x1 .f32) (src dst : C F S1700000 .i32) (n : C F S1700000 .f32) : C F S100000x1 .f32 :=
  Host.scatterAdd scatter_S100000x1_S1700000x1_S1700000x1_1_0_0_1
    (broadcastInDim S100000x1 ![] bcast_S_S100000x1 (constant S_ .f32 0x00000000#32))
    (Spec.col (F := F) dst)
    (mulf (Host.gather gather_S100000x1_S1700000x1_S1700000x1_1_0_n_n_0_1_11 xw (Spec.wrapCol (F := F) src))
      (normColOf (F := F) n))

/-- Width 32: the bias added to every row. -/
def biased32 (a : C F S100000x32 .f32) (b : C F S32 .f32) : C F S100000x32 .f32 :=
  addf a (Spec.rows32 (F := F) (Spec.row32 (F := F) b))

/-- Width 32: a vector repeated for every node. -/
def full32 (p : C F S32 .f32) : C F S100000x32 .f32 :=
  Spec.rows32 (F := F) (Spec.row32 (F := F) p)

/-- Width 32: the mean subtracted, scaled by the inverse root of the variance plus epsilon and by gamma, beta added. -/
def bnTail32 (ab mean : C F S100000x32 .f32) (g be rv : C F S32 .f32) : C F S100000x32 .f32 :=
  addf (mulf (mulf (subf ab mean) (full32 (F := F) (Spec.istd32 (F := F) rv))) (full32 (F := F) g)) (full32 (F := F) be)

/-- Width 1: the bias added to every row. -/
def biased1 (a : C F S100000x1 .f32) (b : C F S1 .f32) : C F S100000x1 .f32 :=
  addf a (Spec.rows1 (F := F) (Spec.row1 (F := F) b))

/-- The logistic function 1 / (1 + e^(-y)). -/
def logistic (y : C F S100000x1 .f32) : C F S100000x1 .f32 :=
  Host.divf (broadcastInDim S100000x1 ![] bcast_S_S100000x1 (constant S_ .f32 0x3F800000#32))
    (addf (broadcastInDim S100000x1 ![] bcast_S_S100000x1 (constant S_ .f32 0x3F800000#32)) (Host.exp (Host.negf y)))

/-! ## The specification's stages are these -/

theorem deg_eq (e : C F S2x1600000 .i32) : Spec.deg (F := F) e = degOf (F := F) (Spec.dstW (F := F) e) := rfl
theorem dinv_eq (e : C F S2x1600000 .i32) : Spec.dinv (F := F) e = dinvOf (F := F) (Spec.deg (F := F) e) := rfl
theorem normW_eq (e : C F S2x1600000 .i32) :
    Spec.normW (F := F) e
      = normOf (F := F) (gatherDinv (F := F) (Spec.dinv (F := F) e) (Spec.srcW (F := F) e)) (Spec.dinv (F := F) e) (Spec.dstW (F := F) e) := rfl
theorem agg32_eq (e : C F S2x1600000 .i32) (xw : C F S100000x32 .f32) :
    Spec.agg32 (F := F) e xw = agg32Of (F := F) xw (Spec.srcW (F := F) e) (Spec.dstW (F := F) e) (Spec.normW (F := F) e) := rfl
theorem agg64_eq (e : C F S2x1600000 .i32) (xw : C F S100000x64 .f32) :
    Spec.agg64 (F := F) e xw = agg64Of (F := F) xw (Spec.srcW (F := F) e) (Spec.dstW (F := F) e) (Spec.normW (F := F) e) := rfl
theorem agg128_eq (e : C F S2x1600000 .i32) (xw : C F S100000x128 .f32) :
    Spec.agg128 (F := F) e xw
      = agg128Of (F := F) xw (wrapOf (F := F) (Spec.srcW (F := F) e)) (Spec.dstW (F := F) e) (Spec.normW (F := F) e) := rfl
theorem agg1_eq (e : C F S2x1600000 .i32) (xw : C F S100000x1 .f32) :
    Spec.agg1 (F := F) e xw = agg1Of (F := F) xw (Spec.srcW (F := F) e) (Spec.dstW (F := F) e) (Spec.normW (F := F) e) := rfl
theorem bn32_eq (a : C F S100000x32 .f32) (b g be rm rv : C F S32 .f32) :
    Spec.bn32 (F := F) a (Spec.row32 (F := F) b) (Spec.row32 (F := F) g) (Spec.row32 (F := F) be) (Spec.row32 (F := F) rm)
        (Spec.row32 (F := F) (Spec.istd32 (F := F) rv))
      = bnTail32 (F := F) (biased32 (F := F) a b) (full32 (F := F) rm) g be rv := rfl
theorem out_eq (e : C F S2x1600000 .i32) (h : C F S100000x128 .f32) (W : C F S128x1 .f32) (b : C F S1 .f32) :
    Spec.out (F := F) e h W b
      = logistic (F := F) (Spec.elu1 (F := F) (biased1 (F := F) (Spec.agg1 (F := F) e (Spec.lin1 (F := F) h W)) b)) := rfl

end Cert.RefRun

end
-- ==== Proof.LibTypedRef.lean ====
import Idealize.ShloMosaic.Lib.StableHlo

/-!
# A typed reference's two transports cancel

A typed reference `x : TRef sig T` carries contents of the value type `T` to its buffer's own type (`toBuf`) and
back (`ofBuf`), along the equation between the two types. Going there and back is the identity, whatever proof of
the equation the reference holds. A fold through a line of operations on typed references leaves one such pair
around every intermediate value; rewriting with this lemma removes them, so that the remaining term can be compared
with a plain one without unfolding any transport.
-/

namespace Cert.Lib.TypedRef

open Idealize.ShloMosaic Idealize.ShloMosaic.StableHlo

/-- Contents carried to a typed reference's buffer and back are the contents. -/
theorem ofBuf_toBuf {Val : EltTy → Type} {sig : RefSig} {T : BufTy} (x : TRef sig T) (v : T.Contents Val) :
    x.ofBuf (x.toBuf v) = v := by
  obtain ⟨r, rfl, _, _⟩ := x; rfl

end Cert.Lib.TypedRef
-- ==== Proof.RefSegA.lean ====
/-
  The reference program's line of operations read one segment at a time: the edge slots, the degrees, the slot weights and the first layer's aggregation and bias.

  The line is in single-assignment form, so what the whole line leaves at a segment's result is what the segment's
  own operations leave there from the contents before it, and a buffer the segment reads — written before it, never
  after — holds before the segment what it holds at the end.  Each statement below is therefore an equation between
  FINAL contents: the segment's result is its stage function of the final contents of the buffers it reads.  Inside
  a segment the operations' results are composed one after the other (a called function's operations carry their
  values to the buffers' types and back, which is the identity).
-/
import proofs.«122410_j40535901339683_1_alg».proof.Proof.RefWrites
import proofs.«122410_j40535901339683_1_alg».proof.Proof.RefStages
import proofs.«122410_j40535901339683_1_alg».proof.Proof.LibTypedRef

noncomputable section

namespace Cert.RefRun

open Cert.ReferenceIdeal Cert.ReferenceIdeal.Gen Idealize.ShloMosaic Idealize.ShloMosaic.TcCoe Idealize.SL.Sem Idealize.ShloMosaic.StableHlo
open Cert.Lib.AfterAssign
open Cert.Spec (C)

variable {F : FTy → Type} [FloatOps F]

/-- At the end the source words are the first row of the edge table followed by the nodes' numbers. -/
theorem L_v3 (V : Valuation τ sig (Elt F)) :
    after ops V (Proc.devRef .tc main_v3) = Spec.srcW (F := F) (after ops V (Proc.devRef .tc main_arg1)) := by
  have hy := after_segment (hW (F := F)) 0 7 V (y := main_v3) (by decide)
  have h0 := after_take_at_unwritten (hW (F := F)) 0 V (a := main_arg1) (by decide)
  rw [hy, ← h0]
  generalize after (List.take 0 ops) V = W
  show after (sSlots : List (HloOp τ sig (Elt F))) W (Proc.devRef .tc main_v3) = _
  unfold sSlots Spec.srcW Spec.slotWords
  after_results_simp <;> first | rfl | (simp only [Cert.Lib.TypedRef.ofBuf_toBuf]; rfl)

/-- Likewise the target words, from the second row. -/
theorem L_v6 (V : Valuation τ sig (Elt F)) :
    after ops V (Proc.devRef .tc main_v6) = Spec.dstW (F := F) (after ops V (Proc.devRef .tc main_arg1)) := by
  have hy := after_segment (hW (F := F)) 0 7 V (y := main_v6) (by decide)
  have h0 := after_take_at_unwritten (hW (F := F)) 0 V (a := main_arg1) (by decide)
  rw [hy, ← h0]
  generalize after (List.take 0 ops) V = W
  show after (sSlots : List (HloOp τ sig (Elt F))) W (Proc.devRef .tc main_v6) = _
  unfold sSlots Spec.dstW Spec.slotWords
  after_results_simp <;> first | rfl | (simp only [Cert.Lib.TypedRef.ofBuf_toBuf]; rfl)

/-- The degrees, from the final target words. -/
theorem L_v10 (V : Valuation τ sig (Elt F)) :
    after ops V (Proc.devRef .tc main_v10) = degOf (F := F) (after ops V (Proc.devRef .tc main_v6)) := by
  have hy := after_segment (hW (F := F)) 7 6 V (y := main_v10) (by decide)
  have h0 := after_take_at_unwritten (hW (F := F)) 7 V (a := main_v6) (by decide)
  rw [hy, ← h0]
  generalize after (List.take 7 ops) V = W
  show after (sDeg : List (HloOp τ sig (Elt F))) W (Proc.devRef .tc main_v10) = _
  unfold sDeg degOf Spec.col
  after_results_simp <;> first | rfl | (simp only [Cert.Lib.TypedRef.ofBuf_toBuf]; rfl)

/-- The inverse root degrees, from the final degrees (the called selection written out). -/
theorem L_v14 (V : Valuation τ sig (Elt F)) :
    after ops V (Proc.devRef .tc main_v14) = dinvOf (F := F) (after ops V (Proc.devRef .tc main_v10)) := by
  have hy := after_segment (hW (F := F)) 13 8 V (y := main_v14) (by decide)
  have h0 := after_take_at_unwritten (hW (F := F)) 13 V (a := main_v10) (by decide)
  rw [hy, ← h0]
  generalize after (List.take 13 ops) V = W
  show after (sDinv : List (HloOp τ sig (Elt F))) W (Proc.devRef .tc main_v14) = _
  unfold sDinv dinvOf
  after_results_simp <;> first | rfl | (simp only [Cert.Lib.TypedRef.ofBuf_toBuf]; rfl)

/-- The inverse root degree at every slot's source. -/
theorem L_v21 (V : Valuation τ sig (Elt F)) :
    after ops V (Proc.devRef .tc main_v21) = gatherDinv (F := F) (after ops V (Proc.devRef .tc main_v14)) (after ops V (Proc.devRef .tc main_v3)) := by
  have hy := after_segment (hW (F := F)) 21 9 V (y := main_v21) (by decide)
  have h0 := after_take_at_unwritten (hW (F := F)) 21 V (a := main_v14) (by decide)
  have h1 := after_take_at_unwritten (hW (F := F)) 21 V (a := main_v3) (by decide)
  rw [hy, ← h0, ← h1]
  generalize after (List.take 21 ops) V = W
  show after (sNormSrc : List (HloOp τ sig (Elt F))) W (Proc.devRef .tc main_v21) = _
  unfold sNormSrc gatherDinv Spec.wrapCol Spec.col
  after_results_simp <;> first | rfl | (simp only [Cert.Lib.TypedRef.ofBuf_toBuf]; rfl)

/-- The slot weights. -/
theorem L_v29 (V : Valuation τ sig (Elt F)) :
    after ops V (Proc.devRef .tc main_v29) = normOf (F := F) (after ops V (Proc.devRef .tc main_v21)) (after ops V (Proc.devRef .tc main_v14)) (after ops V (Proc.devRef .tc main_v6)) := by
  have hy := after_segment (hW (F := F)) 30 10 V (y := main_v29) (by decide)
  have h0 := after_take_at_unwritten (hW (F := F)) 30 V (a := main_v21) (by decide)
  have h1 := after_take_at_unwritten (hW (F := F)) 30 V (a := main_v14) (by decide)
  have h2 := after_take_at_unwritten (hW (F := F)) 30 V (a := main_v6) (by decide)
  rw [hy, ← h0, ← h1, ← h2]
  generalize after (List.take 30 ops) V = W
  show after (sNorm : List (HloOp τ sig (Elt F))) W (Proc.devRef .tc main_v29) = _
  unfold sNorm normOf gatherDinv Spec.wrapCol Spec.col
  after_results_simp <;> first | rfl | (simp only [Cert.Lib.TypedRef.ofBuf_toBuf]; rfl)

/-- Width 32: the aggregation of the linear map of the node features. -/
theorem L_v43 (V : Valuation τ sig (Elt F)) :
    after ops V (Proc.devRef .tc main_v43) = agg32Of (F := F) (Spec.lin32 (F := F) (after ops V (Proc.devRef .tc main_arg0)) (after ops V (Proc.devRef .tc main_arg2))) (after ops V (Proc.devRef .tc main_v3)) (after ops V (Proc.devRef .tc main_v6)) (after ops V (Proc.devRef .tc main_v29)) := by
  have hy := after_segment (hW (F := F)) 40 17 V (y := main_v43) (by decide)
  have h0 := after_take_at_unwritten (hW (F := F)) 40 V (a := main_arg0) (by decide)
  have h1 := after_take_at_unwritten (hW (F := F)) 40 V (a := main_arg2) (by decide)
  have h2 := after_take_at_unwritten (hW (F := F)) 40 V (a := main_v3) (by decide)
  have h3 := after_take_at_unwritten (hW (F := F)) 40 V (a := main_v6) (by decide)
  have h4 := after_take_at_unwritten (hW (F := F)) 40 V (a := main_v29) (by decide)
  rw [hy, ← h0, ← h1, ← h2, ← h3, ← h4]
  generalize after (List.take 40 ops) V = W
  show after (sAgg32 : List (HloOp τ sig (Elt F))) W (Proc.devRef .tc main_v43) = _
  unfold sAgg32 agg32Of normColOf Spec.lin32 Spec.wrapCol Spec.col
  after_results_simp <;> first | rfl | (simp only [Cert.Lib.TypedRef.ofBuf_toBuf]; rfl)

/-- Width 32: the bias added. -/
theorem L_v46 (V : Valuation τ sig (Elt F)) :
    after ops V (Proc.devRef .tc main_v46) = biased32 (F := F) (after ops V (Proc.devRef .tc main_v43)) (after ops V (Proc.devRef .tc main_arg3)) := by
  have hy := after_segment (hW (F := F)) 57 5 V (y := main_v46) (by decide)
  have h0 := after_take_at_unwritten (hW (F := F)) 57 V (a := main_v43) (by decide)
  have h1 := after_take_at_unwritten (hW (F := F)) 57 V (a := main_arg3) (by decide)
  rw [hy, ← h0, ← h1]
  generalize after (List.take 57 ops) V = W
  show after (sBn32a : List (HloOp τ sig (Elt F))) W (Proc.devRef .tc main_v46) = _
  unfold sBn32a biased32 Spec.rows32 Spec.row32
  after_results_simp <;> first | rfl | (simp only [Cert.Lib.TypedRef.ofBuf_toBuf]; rfl)

/-- Width 32: the running mean repeated for every node. -/
theorem L_v48 (V : Valuation τ sig (Elt F)) :
    after ops V (Proc.devRef .tc main_v48) = full32 (F := F) (after ops V (Proc.devRef .tc main_arg12)) := by
  have hy := after_segment (hW (F := F)) 57 5 V (y := main_v48) (by decide)
  have h0 := after_take_at_unwritten (hW (F := F)) 57 V (a := main_arg12) (by decide)
  rw [hy, ← h0]
  generalize after (List.take 57 ops) V = W
  show after (sBn32a : List (HloOp τ sig (Elt F))) W (Proc.devRef .tc main_v48) = _
  unfold sBn32a full32 Spec.rows32 Spec.row32
  after_results_simp <;> first | rfl | (simp only [Cert.Lib.TypedRef.ofBuf_toBuf]; rfl)

end Cert.RefRun

end
-- ==== Proof.RefSegB.lean ====
/-
  The reference program's line of operations read one segment at a time: the first layer's normalisation and unit, the second layer, and the third layer's linear map.

  The line is in single-assignment form, so what the whole line leaves at a segment's result is what the segment's
  own operations leave there from the contents before it, and a buffer the segment reads — written before it, never
  after — holds before the segment what it holds at the end.  Each statement below is therefore an equation between
  FINAL contents: the segment's result is its stage function of the final contents of the buffers it reads.  Inside
  a segment the operations' results are composed one after the other (a called function's operations carry their
  values to the buffers' types and back, which is the identity).
-/
import proofs.«122410_j40535901339683_1_alg».proof.Proof.RefWrites
import proofs.«122410_j40535901339683_1_alg».proof.Proof.RefStages
import proofs.«122410_j40535901339683_1_alg».proof.Proof.LibTypedRef

noncomputable section

namespace Cert.RefRun

open Cert.ReferenceIdeal Cert.ReferenceIdeal.Gen Idealize.ShloMosaic Idealize.ShloMosaic.TcCoe Idealize.SL.Sem Idealize.ShloMosaic.StableHlo
open Cert.Lib.AfterAssign
open Cert.Spec (C)

variable {F : FTy → Type} [FloatOps F]

/-- Width 32: the rest of the normalisation. -/
theorem L_v61 (V : Valuation τ sig (Elt F)) :
    after ops V (Proc.devRef .tc main_v61) = bnTail32 (F := F) (after ops V (Proc.devRef .tc main_v46)) (after ops V (Proc.devRef .tc main_v48)) (after ops V (Proc.devRef .tc main_arg10)) (after ops V (Proc.devRef .tc main_arg11)) (after ops V (Proc.devRef .tc main_arg13)) := by
  have hy := after_segment (hW (F := F)) 62 14 V (y := main_v61) (by decide)
  have h0 := after_take_at_unwritten (hW (F := F)) 62 V (a := main_v46) (by decide)
  have h1 := after_take_at_unwritten (hW (F := F)) 62 V (a := main_v48) (by decide)
  have h2 := after_take_at_unwritten (hW (F := F)) 62 V (a := main_arg10) (by decide)
  have h3 := after_take_at_unwritten (hW (F := F)) 62 V (a := main_arg11) (by decide)
  have h4 := after_take_at_unwritten (hW (F := F)) 62 V (a := main_arg13) (by decide)
  rw [hy, ← h0, ← h1, ← h2, ← h3, ← h4]
  generalize after (List.take 62 ops) V = W
  show after (sBn32b : List (HloOp τ sig (Elt F))) W (Proc.devRef .tc main_v61) = _
  unfold sBn32b bnTail32 full32 Spec.istd32 Spec.rows32 Spec.row32
  after_results_simp <;> first | rfl | (simp only [Cert.Lib.TypedRef.ofBuf_toBuf]; rfl)

/-- Width 32: the unit (the called function and its two selections written out). -/
theorem L_v62 (V : Valuation τ sig (Elt F)) :
    after ops V (Proc.devRef .tc main_v62) = Spec.elu32 (F := F) (after ops V (Proc.devRef .tc main_v61)) := by
  have hy := after_segment (hW (F := F)) 76 15 V (y := main_v62) (by decide)
  have h0 := after_take_at_unwritten (hW (F := F)) 76 V (a := main_v61) (by decide)
  rw [hy, ← h0]
  generalize after (List.take 76 ops) V = W
  show after (sElu32 : List (HloOp τ sig (Elt F))) W (Proc.devRef .tc main_v62) = _
  unfold sElu32 Spec.elu32
  after_results_simp <;> first | rfl | (simp only [Cert.Lib.TypedRef.ofBuf_toBuf]; rfl)

/-- Width 64: the aggregation of the linear map of the first layer's result. -/
theorem L_v76 (V : Valuation τ sig (Elt F)) :
    after ops V (Proc.devRef .tc main_v76) = agg64Of (F := F) (Spec.lin64 (F := F) (after ops V (Proc.devRef .tc main_v62)) (after ops V (Proc.devRef .tc main_arg4))) (after ops V (Proc.devRef .tc main_v3)) (after ops V (Proc.devRef .tc main_v6)) (after ops V (Proc.devRef .tc main_v29)) := by
  have hy := after_segment (hW (F := F)) 91 17 V (y := main_v76) (by decide)
  have h0 := after_take_at_unwritten (hW (F := F)) 91 V (a := main_v62) (by decide)
  have h1 := after_take_at_unwritten (hW (F := F)) 91 V (a := main_arg4) (by decide)
  have h2 := after_take_at_unwritten (hW (F := F)) 91 V (a := main_v3) (by decide)
  have h3 := after_take_at_unwritten (hW (F := F)) 91 V (a := main_v6) (by decide)
  have h4 := after_take_at_unwritten (hW (F := F)) 91 V (a := main_v29) (by decide)
  rw [hy, ← h0, ← h1, ← h2, ← h3, ← h4]
  generalize after (List.take 91 ops) V = W
  show after (sAgg64 : List (HloOp τ sig (Elt F))) W (Proc.devRef .tc main_v76) = _
  unfold sAgg64 agg64Of normColOf Spec.lin64 Spec.wrapCol Spec.col
  after_results_simp <;> first | rfl | (simp only [Cert.Lib.TypedRef.ofBuf_toBuf]; rfl)

/-- Width 64: bias and batch normalisation. -/
theorem L_v94 (V : Valuation τ sig (Elt F)) :
    after ops V (Proc.devRef .tc main_v94) = Spec.bn64 (F := F) (after ops V (Proc.devRef .tc main_v76)) (Spec.row64 (F := F) (after ops V (Proc.devRef .tc main_arg5))) (Spec.row64 (F := F) (after ops V (Proc.devRef .tc main_arg14))) (Spec.row64 (F := F) (after ops V (Proc.devRef .tc main_arg15))) (Spec.row64 (F := F) (after ops V (Proc.devRef .tc main_arg16))) (Spec.row64 (F := F) (Spec.istd64 (F := F) (after ops V (Proc.devRef .tc main_arg17)))) := by
  have hy := after_segment (hW (F := F)) 108 19 V (y := main_v94) (by decide)
  have h0 := after_take_at_unwritten (hW (F := F)) 108 V (a := main_v76) (by decide)
  have h1 := after_take_at_unwritten (hW (F := F)) 108 V (a := main_arg5) (by decide)
  have h2 := after_take_at_unwritten (hW (F := F)) 108 V (a := main_arg14) (by decide)
  have h3 := after_take_at_unwritten (hW (F := F)) 108 V (a := main_arg15) (by decide)
  have h4 := after_take_at_unwritten (hW (F := F)) 108 V (a := main_arg16) (by decide)
  have h5 := after_take_at_unwritten (hW (F := F)) 108 V (a := main_arg17) (by decide)
  rw [hy, ← h0, ← h1, ← h2, ← h3, ← h4, ← h5]
  generalize after (List.take 108 ops) V = W
  show after (sBn64 : List (HloOp τ sig (Elt F))) W (Proc.devRef .tc main_v94) = _
  unfold sBn64 Spec.bn64 Spec.rows64 Spec.row64 Spec.istd64
  after_results_simp <;> first | rfl | (simp only [Cert.Lib.TypedRef.ofBuf_toBuf]; rfl)

/-- Width 64: the unit. -/
theorem L_v95 (V : Valuation τ sig (Elt F)) :
    after ops V (Proc.devRef .tc main_v95) = Spec.elu64 (F := F) (after ops V (Proc.devRef .tc main_v94)) := by
  have hy := after_segment (hW (F := F)) 127 15 V (y := main_v95) (by decide)
  have h0 := after_take_at_unwritten (hW (F := F)) 127 V (a := main_v94) (by decide)
  rw [hy, ← h0]
  generalize after (List.take 127 ops) V = W
  show after (sElu64 : List (HloOp τ sig (Elt F))) W (Proc.devRef .tc main_v95) = _
  unfold sElu64 Spec.elu64
  after_results_simp <;> first | rfl | (simp only [Cert.Lib.TypedRef.ofBuf_toBuf]; rfl)

/-- Width 128: the linear map of the second layer's result. -/
theorem L_v96 (V : Valuation τ sig (Elt F)) :
    after ops V (Proc.devRef .tc main_v96) = Spec.lin128 (F := F) (after ops V (Proc.devRef .tc main_v95)) (after ops V (Proc.devRef .tc main_arg6)) := by
  have hy := after_segment (hW (F := F)) 142 8 V (y := main_v96) (by decide)
  have h0 := after_take_at_unwritten (hW (F := F)) 142 V (a := main_v95) (by decide)
  have h1 := after_take_at_unwritten (hW (F := F)) 142 V (a := main_arg6) (by decide)
  rw [hy, ← h0, ← h1]
  generalize after (List.take 142 ops) V = W
  show after (sAgg128a : List (HloOp τ sig (Elt F))) W (Proc.devRef .tc main_v96) = _
  unfold sAgg128a Spec.lin128
  after_results_simp <;> first | rfl | (simp only [Cert.Lib.TypedRef.ofBuf_toBuf]; rfl)

/-- The source words with the negative ones counted from the end. -/
theorem L_v101 (V : Valuation τ sig (Elt F)) :
    after ops V (Proc.devRef .tc main_v101) = wrapOf (F := F) (after ops V (Proc.devRef .tc main_v3)) := by
  have hy := after_segment (hW (F := F)) 142 8 V (y := main_v101) (by decide)
  have h0 := after_take_at_unwritten (hW (F := F)) 142 V (a := main_v3) (by decide)
  rw [hy, ← h0]
  generalize after (List.take 142 ops) V = W
  show after (sAgg128a : List (HloOp τ sig (Elt F))) W (Proc.devRef .tc main_v101) = _
  unfold sAgg128a wrapOf
  after_results_simp <;> first | rfl | (simp only [Cert.Lib.TypedRef.ofBuf_toBuf]; rfl)

end Cert.RefRun

end
-- ==== Proof.RefSegC.lean ====
/-
  The reference program's line of operations read one segment at a time: the third layer's aggregation, normalisation and unit, and the last layer with the logistic function.

  The line is in single-assignment form, so what the whole line leaves at a segment's result is what the segment's
  own operations leave there from the contents before it, and a buffer the segment reads — written before it, never
  after — holds before the segment what it holds at the end.  Each statement below is therefore an equation between
  FINAL contents: the segment's result is its stage function of the final contents of the buffers it reads.  Inside
  a segment the operations' results are composed one after the other (a called function's operations carry their
  values to the buffers' types and back, which is the identity).
-/
import proofs.«122410_j40535901339683_1_alg».proof.Proof.RefWrites
import proofs.«122410_j40535901339683_1_alg».proof.Proof.RefStages
import proofs.«122410_j40535901339683_1_alg».proof.Proof.LibTypedRef

noncomputable section

namespace Cert.RefRun

open Cert.ReferenceIdeal Cert.ReferenceIdeal.Gen Idealize.ShloMosaic Idealize.ShloMosaic.TcCoe Idealize.SL.Sem Idealize.ShloMosaic.StableHlo
open Cert.Lib.AfterAssign
open Cert.Spec (C)

variable {F : FTy → Type} [FloatOps F]

/-- Width 128: the aggregation. -/
theorem L_v109 (V : Valuation τ sig (Elt F)) :
    after ops V (Proc.devRef .tc main_v109) = agg128Of (F := F) (after ops V (Proc.devRef .tc main_v96)) (after ops V (Proc.devRef .tc main_v101)) (after ops V (Proc.devRef .tc main_v6)) (after ops V (Proc.devRef .tc main_v29)) := by
  have hy := after_segment (hW (F := F)) 150 9 V (y := main_v109) (by decide)
  have h0 := after_take_at_unwritten (hW (F := F)) 150 V (a := main_v96) (by decide)
  have h1 := after_take_at_unwritten (hW (F := F)) 150 V (a := main_v101) (by decide)
  have h2 := after_take_at_unwritten (hW (F := F)) 150 V (a := main_v6) (by decide)
  have h3 := after_take_at_unwritten (hW (F := F)) 150 V (a := main_v29) (by decide)
  rw [hy, ← h0, ← h1, ← h2, ← h3]
  generalize after (List.take 150 ops) V = W
  show after (sAgg128b : List (HloOp τ sig (Elt F))) W (Proc.devRef .tc main_v109) = _
  unfold sAgg128b agg128Of normColOf Spec.col
  after_results_simp <;> first | rfl | (simp only [Cert.Lib.TypedRef.ofBuf_toBuf]; rfl)

/-- Width 128: bias and batch normalisation. -/
theorem L_v127 (V : Valuation τ sig (Elt F)) :
    after ops V (Proc.devRef .tc main_v127) = Spec.bn128 (F := F) (after ops V (Proc.devRef .tc main_v109)) (Spec.row128 (F := F) (after ops V (Proc.devRef .tc main_arg7))) (Spec.row128 (F := F) (after ops V (Proc.devRef .tc main_arg18))) (Spec.row128 (F := F) (after ops V (Proc.devRef .tc main_arg19))) (Spec.row128 (F := F) (after ops V (Proc.devRef .tc main_arg20))) (Spec.row128 (F := F) (Spec.istd128 (F := F) (after ops V (Proc.devRef .tc main_arg21)))) := by
  have hy := after_segment (hW (F := F)) 159 19 V (y := main_v127) (by decide)
  have h0 := after_take_at_unwritten (hW (F := F)) 159 V (a := main_v109) (by decide)
  have h1 := after_take_at_unwritten (hW (F := F)) 159 V (a := main_arg7) (by decide)
  have h2 := after_take_at_unwritten (hW (F := F)) 159 V (a := main_arg18) (by decide)
  have h3 := after_take_at_unwritten (hW (F := F)) 159 V (a := main_arg19) (by decide)
  have h4 := after_take_at_unwritten (hW (F := F)) 159 V (a := main_arg20) (by decide)
  have h5 := after_take_at_unwritten (hW (F := F)) 159 V (a := main_arg21) (by decide)
  rw [hy, ← h0, ← h1, ← h2, ← h3, ← h4, ← h5]
  generalize after (List.take 159 ops) V = W
  show after (sBn128 : List (HloOp τ sig (Elt F))) W (Proc.devRef .tc main_v127) = _
  unfold sBn128 Spec.bn128 Spec.rows128 Spec.row128 Spec.istd128
  after_results_simp <;> first | rfl | (simp only [Cert.Lib.TypedRef.ofBuf_toBuf]; rfl)

/-- Width 128: the unit. -/
theorem L_v128 (V : Valuation τ sig (Elt F)) :
    after ops V (Proc.devRef .tc main_v128) = Spec.elu128 (F := F) (after ops V (Proc.devRef .tc main_v127)) := by
  have hy := after_segment (hW (F := F)) 178 15 V (y := main_v128) (by decide)
  have h0 := after_take_at_unwritten (hW (F := F)) 178 V (a := main_v127) (by decide)
  rw [hy, ← h0]
  generalize after (List.take 178 ops) V = W
  show after (sElu128 : List (HloOp τ sig (Elt F))) W (Proc.devRef .tc main_v128) = _
  unfold sElu128 Spec.elu128
  after_results_simp <;> first | rfl | (simp only [Cert.Lib.TypedRef.ofBuf_toBuf]; rfl)

/-- Width 1: the aggregation of the linear map of the third layer's result. -/
theorem L_v141 (V : Valuation τ sig (Elt F)) :
    after ops V (Proc.devRef .tc main_v141) = agg1Of (F := F) (Spec.lin1 (F := F) (after ops V (Proc.devRef .tc main_v128)) (after ops V (Proc.devRef .tc main_arg8))) (after ops V (Proc.devRef .tc main_v3)) (after ops V (Proc.devRef .tc main_v6)) (after ops V (Proc.devRef .tc main_v29)) := by
  have hy := after_segment (hW (F := F)) 193 16 V (y := main_v141) (by decide)
  have h0 := after_take_at_unwritten (hW (F := F)) 193 V (a := main_v128) (by decide)
  have h1 := after_take_at_unwritten (hW (F := F)) 193 V (a := main_arg8) (by decide)
  have h2 := after_take_at_unwritten (hW (F := F)) 193 V (a := main_v3) (by decide)
  have h3 := after_take_at_unwritten (hW (F := F)) 193 V (a := main_v6) (by decide)
  have h4 := after_take_at_unwritten (hW (F := F)) 193 V (a := main_v29) (by decide)
  rw [hy, ← h0, ← h1, ← h2, ← h3, ← h4]
  generalize after (List.take 193 ops) V = W
  show after (sAgg1 : List (HloOp τ sig (Elt F))) W (Proc.devRef .tc main_v141) = _
  unfold sAgg1 agg1Of normColOf Spec.lin1 Spec.wrapCol Spec.col
  after_results_simp <;> first | rfl | (simp only [Cert.Lib.TypedRef.ofBuf_toBuf]; rfl)

/-- Width 1: the bias added. -/
theorem L_v144 (V : Valuation τ sig (Elt F)) :
    after ops V (Proc.devRef .tc main_v144) = biased1 (F := F) (after ops V (Proc.devRef .tc main_v141)) (after ops V (Proc.devRef .tc main_arg9)) := by
  have hy := after_segment (hW (F := F)) 209 3 V (y := main_v144) (by decide)
  have h0 := after_take_at_unwritten (hW (F := F)) 209 V (a := main_v141) (by decide)
  have h1 := after_take_at_unwritten (hW (F := F)) 209 V (a := main_arg9) (by decide)
  rw [hy, ← h0, ← h1]
  generalize after (List.take 209 ops) V = W
  show after (sBias1 : List (HloOp τ sig (Elt F))) W (Proc.devRef .tc main_v144) = _
  unfold sBias1 biased1 Spec.rows1 Spec.row1
  after_results_simp <;> first | rfl | (simp only [Cert.Lib.TypedRef.ofBuf_toBuf]; rfl)

/-- Width 1: the unit. -/
theorem L_v145 (V : Valuation τ sig (Elt F)) :
    after ops V (Proc.devRef .tc main_v145) = Spec.elu1 (F := F) (after ops V (Proc.devRef .tc main_v144)) := by
  have hy := after_segment (hW (F := F)) 212 15 V (y := main_v145) (by decide)
  have h0 := after_take_at_unwritten (hW (F := F)) 212 V (a := main_v144) (by decide)
  rw [hy, ← h0]
  generalize after (List.take 212 ops) V = W
  show after (sElu1 : List (HloOp τ sig (Elt F))) W (Proc.devRef .tc main_v145) = _
  unfold sElu1 Spec.elu1
  after_results_simp <;> first | rfl | (simp only [Cert.Lib.TypedRef.ofBuf_toBuf]; rfl)

/-- The result: the logistic function of the last unit. -/
theorem L_v151 (V : Valuation τ sig (Elt F)) :
    after ops V (Proc.devRef .tc main_v151) = logistic (F := F) (after ops V (Proc.devRef .tc main_v145)) := by
  have hy := after_segment (hW (F := F)) 227 8 V (y := main_v151) (by decide)
  have h0 := after_take_at_unwritten (hW (F := F)) 227 V (a := main_v145) (by decide)
  rw [hy, ← h0]
  generalize after (List.take 227 ops) V = W
  show after (sOut : List (HloOp τ sig (Elt F))) W (Proc.devRef .tc main_v151) = _
  unfold sOut logistic
  after_results_simp <;> first | rfl | (simp only [Cert.Lib.TypedRef.ofBuf_toBuf]; rfl)

end Cert.RefRun

end
-- ==== Proof.RefValue.lean ====
/-
  The value of the reference program.

  The segments' equations between final contents are put together in program order: each stage's result is the
  specification's stage of the argument arrays (which no operation writes, so they end as they began), because the
  stages it reads are, by the equations before it.  The last equation says that the result buffer ends holding the
  specification's function of the twenty-two argument arrays; with the program's run this gives the value of the
  reference at the exact instance of the float operations.
-/
import proofs.«122410_j40535901339683_1_alg».proof.Proof.RefRun
import proofs.«122410_j40535901339683_1_alg».proof.Proof.RefSegA
import proofs.«122410_j40535901339683_1_alg».proof.Proof.RefSegB
import proofs.«122410_j40535901339683_1_alg».proof.Proof.RefSegC
import Idealize.ShloMosaic.PureOps.Ideal

noncomputable section

namespace Cert.RefRun

open Cert.ReferenceIdeal Cert.ReferenceIdeal.Gen Idealize.ShloMosaic Idealize.ShloMosaic.TcCoe Idealize.SL.Sem Idealize.ShloMosaic.StableHlo
open Cert.Lib.AfterAssign
open Cert.Spec (C)

variable {F : FTy → Type} [FloatOps F]

/-! ## The argument arrays end as they began -/

theorem K0 (V : Valuation τ sig (Elt F)) : after ops V (Proc.devRef .tc main_arg0) = V (Proc.devRef .tc main_arg0) := arg_kept V (by decide)
theorem K1 (V : Valuation τ sig (Elt F)) : after ops V (Proc.devRef .tc main_arg1) = V (Proc.devRef .tc main_arg1) := arg_kept V (by decide)
theorem K2 (V : Valuation τ sig (Elt F)) : after ops V (Proc.devRef .tc main_arg2) = V (Proc.devRef .tc main_arg2) := arg_kept V (by decide)
theorem K3 (V : Valuation τ sig (Elt F)) : after ops V (Proc.devRef .tc main_arg3) = V (Proc.devRef .tc main_arg3) := arg_kept V (by decide)
theorem K4 (V : Valuation τ sig (Elt F)) : after ops V (Proc.devRef .tc main_arg4) = V (Proc.devRef .tc main_arg4) := arg_kept V (by decide)
theorem K5 (V : Valuation τ sig (Elt F)) : after ops V (Proc.devRef .tc main_arg5) = V (Proc.devRef .tc main_arg5) := arg_kept V (by decide)
theorem K6 (V : Valuation τ sig (Elt F)) : after ops V (Proc.devRef .tc main_arg6) = V (Proc.devRef .tc main_arg6) := arg_kept V (by decide)
theorem K7 (V : Valuation τ sig (Elt F)) : after ops V (Proc.devRef .tc main_arg7) = V (Proc.devRef .tc main_arg7) := arg_kept V (by decide)
theorem K8 (V : Valuation τ sig (Elt F)) : after ops V (Proc.devRef .tc main_arg8) = V (Proc.devRef .tc main_arg8) := arg_kept V (by decide)
theorem K9 (V : Valuation τ sig (Elt F)) : after ops V (Proc.devRef .tc main_arg9) = V (Proc.devRef .tc main_arg9) := arg_kept V (by decide)
theorem K10 (V : Valuation τ sig (Elt F)) : after ops V (Proc.devRef .tc main_arg10) = V (Proc.devRef .tc main_arg10) := arg_kept V (by decide)
theorem K11 (V : Valuation τ sig (Elt F)) : after ops V (Proc.devRef .tc main_arg11) = V (Proc.devRef .tc main_arg11) := arg_kept V (by decide)
theorem K12 (V : Valuation τ sig (Elt F)) : after ops V (Proc.devRef .tc main_arg12) = V (Proc.devRef .tc main_arg12) := arg_kept V (by decide)
theorem K13 (V : Valuation τ sig (Elt F)) : after ops V (Proc.devRef .tc main_arg13) = V (Proc.devRef .tc main_arg13) := arg_kept V (by decide)
theorem K14 (V : Valuation τ sig (Elt F)) : after ops V (Proc.devRef .tc main_arg14) = V (Proc.devRef .tc main_arg14) := arg_kept V (by decide)
theorem K15 (V : Valuation τ sig (Elt F)) : after ops V (Proc.devRef .tc main_arg15) = V (Proc.devRef .tc main_arg15) := arg_kept V (by decide)
theorem K16 (V : Valuation τ sig (Elt F)) : after ops V (Proc.devRef .tc main_arg16) = V (Proc.devRef .tc main_arg16) := arg_kept V (by decide)
theorem K17 (V : Valuation τ sig (Elt F)) : after ops V (Proc.devRef .tc main_arg17) = V (Proc.devRef .tc main_arg17) := arg_kept V (by decide)
theorem K18 (V : Valuation τ sig (Elt F)) : after ops V (Proc.devRef .tc main_arg18) = V (Proc.devRef .tc main_arg18) := arg_kept V (by decide)
theorem K19 (V : Valuation τ sig (Elt F)) : after ops V (Proc.devRef .tc main_arg19) = V (Proc.devRef .tc main_arg19) := arg_kept V (by decide)
theorem K20 (V : Valuation τ sig (Elt F)) : after ops V (Proc.devRef .tc main_arg20) = V (Proc.devRef .tc main_arg20) := arg_kept V (by decide)
theorem K21 (V : Valuation τ sig (Elt F)) : after ops V (Proc.devRef .tc main_arg21) = V (Proc.devRef .tc main_arg21) := arg_kept V (by decide)

/-! ## The stages, in program order -/

/-- The source words. -/
theorem D3 (V : Valuation τ sig (Elt F)) :
    after ops V (Proc.devRef .tc main_v3) = (Spec.srcW (F := F) (V (Proc.devRef .tc main_arg1))) := by
  rw [L_v3 V, K1 V]

/-- The target words. -/
theorem D6 (V : Valuation τ sig (Elt F)) :
    after ops V (Proc.devRef .tc main_v6) = (Spec.dstW (F := F) (V (Proc.devRef .tc main_arg1))) := by
  rw [L_v6 V, K1 V]

/-- The degrees. -/
theorem D10 (V : Valuation τ sig (Elt F)) :
    after ops V (Proc.devRef .tc main_v10) = (Spec.deg (F := F) (V (Proc.devRef .tc main_arg1))) := by
  rw [L_v10 V, D6 V]; exact (deg_eq _).symm

/-- The inverse root degrees. -/
theorem D14 (V : Valuation τ sig (Elt F)) :
    after ops V (Proc.devRef .tc main_v14) = (Spec.dinv (F := F) (V (Proc.devRef .tc main_arg1))) := by
  rw [L_v14 V, D10 V]; exact (dinv_eq _).symm

/-- The inverse root degree at every slot's source. -/
theorem D21 (V : Valuation τ sig (Elt F)) :
    after ops V (Proc.devRef .tc main_v21) = (gatherDinv (F := F) (Spec.dinv (F := F) (V (Proc.devRef .tc main_arg1))) (Spec.srcW (F := F) (V (Proc.devRef .tc main_arg1)))) := by
  rw [L_v21 V, D14 V, D3 V]

/-- The slot weights. -/
theorem D29 (V : Valuation τ sig (Elt F)) :
    after ops V (Proc.devRef .tc main_v29) = (Spec.normW (F := F) (V (Proc.devRef .tc main_arg1))) := by
  rw [L_v29 V, D21 V, D14 V, D6 V]; exact (normW_eq _).symm

/-- Width 32: the aggregation. -/
theorem D43 (V : Valuation τ sig (Elt F)) :
    after ops V (Proc.devRef .tc main_v43) = (Spec.agg32 (F := F) (V (Proc.devRef .tc main_arg1)) (Spec.lin32 (F := F) (V (Proc.devRef .tc main_arg0)) (V (Proc.devRef .tc main_arg2)))) := by
  rw [L_v43 V, D3 V, D6 V, D29 V, K0 V, K2 V]; exact (agg32_eq _ _).symm

/-- Width 32: the bias added. -/
theorem D46 (V : Valuation τ sig (Elt F)) :
    after ops V (Proc.devRef .tc main_v46) = (biased32 (F := F) (Spec.agg32 (F := F) (V (Proc.devRef .tc main_arg1)) (Spec.lin32 (F := F) (V (Proc.devRef .tc main_arg0)) (V (Proc.devRef .tc main_arg2)))) (V (Proc.devRef .tc main_arg3))) := by
  rw [L_v46 V, D43 V, K3 V]

/-- Width 32: the running mean repeated. -/
theorem D48 (V : Valuation τ sig (Elt F)) :
    after ops V (Proc.devRef .tc main_v48) = (full32 (F := F) (V (Proc.devRef .tc main_arg12))) := by
  rw [L_v48 V, K12 V]

/-- Width 32: the normalisation. -/
theorem D61 (V : Valuation τ sig (Elt F)) :
    after ops V (Proc.devRef .tc main_v61) = (Spec.bn32 (F := F) (Spec.agg32 (F := F) (V (Proc.devRef .tc main_arg1)) (Spec.lin32 (F := F) (V (Proc.devRef .tc main_arg0)) (V (Proc.devRef .tc main_arg2)))) (Spec.row32 (F := F) (V (Proc.devRef .tc main_arg3))) (Spec.row32 (F := F) (V (Proc.devRef .tc main_arg10))) (Spec.row32 (F := F) (V (Proc.devRef .tc main_arg11))) (Spec.row32 (F := F) (V (Proc.devRef .tc main_arg12))) (Spec.row32 (F := F) (Spec.istd32 (F := F) (V (Proc.devRef .tc main_arg13))))) := by
  rw [L_v61 V, D46 V, D48 V, K10 V, K11 V, K13 V]; exact (bn32_eq _ _ _ _ _ _).symm

/-- The first layer. -/
theorem D62 (V : Valuation τ sig (Elt F)) :
    after ops V (Proc.devRef .tc main_v62) = (Spec.layer32 (F := F) (V (Proc.devRef .tc main_arg1)) (V (Proc.devRef .tc main_arg0)) (V (Proc.devRef .tc main_arg2)) (V (Proc.devRef .tc main_arg3)) (V (Proc.devRef .tc main_arg10)) (V (Proc.devRef .tc main_arg11)) (V (Proc.devRef .tc main_arg12)) (V (Proc.devRef .tc main_arg13))) := by
  rw [L_v62 V, D61 V]; rfl

/-- Width 64: the aggregation. -/
theorem D76 (V : Valuation τ sig (Elt F)) :
    after ops V (Proc.devRef .tc main_v76) = (Spec.agg64 (F := F) (V (Proc.devRef .tc main_arg1)) (Spec.lin64 (F := F) (Spec.layer32 (F := F) (V (Proc.devRef .tc main_arg1)) (V (Proc.devRef .tc main_arg0)) (V (Proc.devRef .tc main_arg2)) (V (Proc.devRef .tc main_arg3)) (V (Proc.devRef .tc main_arg10)) (V (Proc.devRef .tc main_arg11)) (V (Proc.devRef .tc main_arg12)) (V (Proc.devRef .tc main_arg13))) (V (Proc.devRef .tc main_arg4)))) := by
  rw [L_v76 V, D62 V, D3 V, D6 V, D29 V, K4 V]; exact (agg64_eq _ _).symm

/-- Width 64: the normalisation. -/
theorem D94 (V : Valuation τ sig (Elt F)) :
    after ops V (Proc.devRef .tc main_v94) = (Spec.bn64 (F := F) (Spec.agg64 (F := F) (V (Proc.devRef .tc main_arg1)) (Spec.lin64 (F := F) (Spec.layer32 (F := F) (V (Proc.devRef .tc main_arg1)) (V (Proc.devRef .tc main_arg0)) (V (Proc.devRef .tc main_arg2)) (V (Proc.devRef .tc main_arg3)) (V (Proc.devRef .tc main_arg10)) (V (Proc.devRef .tc main_arg11)) (V (Proc.devRef .tc main_arg12)) (V (Proc.devRef .tc main_arg13))) (V (Proc.devRef .tc main_arg4)))) (Spec.row64 (F := F) (V (Proc.devRef .tc main_arg5))) (Spec.row64 (F := F) (V (Proc.devRef .tc main_arg14))) (Spec.row64 (F := F) (V (Proc.devRef .tc main_arg15))) (Spec.row64 (F := F) (V (Proc.devRef .tc main_arg16))) (Spec.row64 (F := F) (Spec.istd64 (F := F) (V (Proc.devRef .tc main_arg17))))) := by
  rw [L_v94 V, D76 V, K5 V, K14 V, K15 V, K16 V, K17 V]

/-- The second layer. -/
theorem D95 (V : Valuation τ sig (Elt F)) :
    after ops V (Proc.devRef .tc main_v95) = (Spec.layer64 (F := F) (V (Proc.devRef .tc main_arg1)) (Spec.layer32 (F := F) (V (Proc.devRef .tc main_arg1)) (V (Proc.devRef .tc main_arg0)) (V (Proc.devRef .tc main_arg2)) (V (Proc.devRef .tc main_arg3)) (V (Proc.devRef .tc main_arg10)) (V (Proc.devRef .tc main_arg11)) (V (Proc.devRef .tc main_arg12)) (V (Proc.devRef .tc main_arg13))) (V (Proc.devRef .tc main_arg4)) (V (Proc.devRef .tc main_arg5)) (V (Proc.devRef .tc main_arg14)) (V (Proc.devRef .tc main_arg15)) (V (Proc.devRef .tc main_arg16)) (V (Proc.devRef .tc main_arg17))) := by
  rw [L_v95 V, D94 V]; rfl

/-- Width 128: the linear map. -/
theorem D96 (V : Valuation τ sig (Elt F)) :
    after ops V (Proc.devRef .tc main_v96) = (Spec.lin128 (F := F) (Spec.layer64 (F := F) (V (Proc.devRef .tc main_arg1)) (Spec.layer32 (F := F) (V (Proc.devRef .tc main_arg1)) (V (Proc.devRef .tc main_arg0)) (V (Proc.devRef .tc main_arg2)) (V (Proc.devRef .tc main_arg3)) (V (Proc.devRef .tc main_arg10)) (V (Proc.devRef .tc main_arg11)) (V (Proc.devRef .tc main_arg12)) (V (Proc.devRef .tc main_arg13))) (V (Proc.devRef .tc main_arg4)) (V (Proc.devRef .tc main_arg5)) (V (Proc.devRef .tc main_arg14)) (V (Proc.devRef .tc main_arg15)) (V (Proc.devRef .tc main_arg16)) (V (Proc.devRef .tc main_arg17))) (V (Proc.devRef .tc main_arg6))) := by
  rw [L_v96 V, D95 V, K6 V]

/-- The source words made non-negative. -/
theorem D101 (V : Valuation τ sig (Elt F)) :
    after ops V (Proc.devRef .tc main_v101) = (wrapOf (F := F) (Spec.srcW (F := F) (V (Proc.devRef .tc main_arg1)))) := by
  rw [L_v101 V, D3 V]

/-- Width 128: the aggregation. -/
theorem D109 (V : Valuation τ sig (Elt F)) :
    after ops V (Proc.devRef .tc main_v109) = (Spec.agg128 (F := F) (V (Proc.devRef .tc main_arg1)) (Spec.lin128 (F := F) (Spec.layer64 (F := F) (V (Proc.devRef .tc main_arg1)) (Spec.layer32 (F := F) (V (Proc.devRef .tc main_arg1)) (V (Proc.devRef .tc main_arg0)) (V (Proc.devRef .tc main_arg2)) (V (Proc.devRef .tc main_arg3)) (V (Proc.devRef .tc main_arg10)) (V (Proc.devRef .tc main_arg11)) (V (Proc.devRef .tc main_arg12)) (V (Proc.devRef .tc main_arg13))) (V (Proc.devRef .tc main_arg4)) (V (Proc.devRef .tc main_arg5)) (V (Proc.devRef .tc main_arg14)) (V (Proc.devRef .tc main_arg15)) (V (Proc.devRef .tc main_arg16)) (V (Proc.devRef .tc main_arg17))) (V (Proc.devRef .tc main_arg6)))) := by
  rw [L_v109 V, D96 V, D101 V, D6 V, D29 V]; exact (agg128_eq _ _).symm

/-- Width 128: the normalisation. -/
theorem D127 (V : Valuation τ sig (Elt F)) :
    after ops V (Proc.devRef .tc main_v127) = (Spec.bn128 (F := F) (Spec.agg128 (F := F) (V (Proc.devRef .tc main_arg1)) (Spec.lin128 (F := F) (Spec.layer64 (F := F) (V (Proc.devRef .tc main_arg1)) (Spec.layer32 (F := F) (V (Proc.devRef .tc main_arg1)) (V (Proc.devRef .tc main_arg0)) (V (Proc.devRef .tc main_arg2)) (V (Proc.devRef .tc main_arg3)) (V (Proc.devRef .tc main_arg10)) (V (Proc.devRef .tc main_arg11)) (V (Proc.devRef .tc main_arg12)) (V (Proc.devRef .tc main_arg13))) (V (Proc.devRef .tc main_arg4)) (V (Proc.devRef .tc main_arg5)) (V (Proc.devRef .tc main_arg14)) (V (Proc.devRef .tc main_arg15)) (V (Proc.devRef .tc main_arg16)) (V (Proc.devRef .tc main_arg17))) (V (Proc.devRef .tc main_arg6)))) (Spec.row128 (F := F) (V (Proc.devRef .tc main_arg7))) (Spec.row128 (F := F) (V (Proc.devRef .tc main_arg18))) (Spec.row128 (F := F) (V (Proc.devRef .tc main_arg19))) (Spec.row128 (F := F) (V (Proc.devRef .tc main_arg20))) (Spec.row128 (F := F) (Spec.istd128 (F := F) (V (Proc.devRef .tc main_arg21))))) := by
  rw [L_v127 V, D109 V, K7 V, K18 V, K19 V, K20 V, K21 V]

/-- The third layer. -/
theorem D128 (V : Valuation τ sig (Elt F)) :
    after ops V (Proc.devRef .tc main_v128) = (Spec.layer128 (F := F) (V (Proc.devRef .tc main_arg1)) (Spec.layer64 (F := F) (V (Proc.devRef .tc main_arg1)) (Spec.layer32 (F := F) (V (Proc.devRef .tc main_arg1)) (V (Proc.devRef .tc main_arg0)) (V (Proc.devRef .tc main_arg2)) (V (Proc.devRef .tc main_arg3)) (V (Proc.devRef .tc main_arg10)) (V (Proc.devRef .tc main_arg11)) (V (Proc.devRef .tc main_arg12)) (V (Proc.devRef .tc main_arg13))) (V (Proc.devRef .tc main_arg4)) (V (Proc.devRef .tc main_arg5)) (V (Proc.devRef .tc main_arg14)) (V (Proc.devRef .tc main_arg15)) (V (Proc.devRef .tc main_arg16)) (V (Proc.devRef .tc main_arg17))) (V (Proc.devRef .tc main_arg6)) (V (Proc.devRef .tc main_arg7)) (V (Proc.devRef .tc main_arg18)) (V (Proc.devRef .tc main_arg19)) (V (Proc.devRef .tc main_arg20)) (V (Proc.devRef .tc main_arg21))) := by
  rw [L_v128 V, D127 V]; rfl

/-- Width 1: the aggregation. -/
theorem D141 (V : Valuation τ sig (Elt F)) :
    after ops V (Proc.devRef .tc main_v141) = (Spec.agg1 (F := F) (V (Proc.devRef .tc main_arg1)) (Spec.lin1 (F := F) (Spec.layer128 (F := F) (V (Proc.devRef .tc main_arg1)) (Spec.layer64 (F := F) (V (Proc.devRef .tc main_arg1)) (Spec.layer32 (F := F) (V (Proc.devRef .tc main_arg1)) (V (Proc.devRef .tc main_arg0)) (V (Proc.devRef .tc main_arg2)) (V (Proc.devRef .tc main_arg3)) (V (Proc.devRef .tc main_arg10)) (V (Proc.devRef .tc main_arg11)) (V (Proc.devRef .tc main_arg12)) (V (Proc.devRef .tc main_arg13))) (V (Proc.devRef .tc main_arg4)) (V (Proc.devRef .tc main_arg5)) (V (Proc.devRef .tc main_arg14)) (V (Proc.devRef .tc main_arg15)) (V (Proc.devRef .tc main_arg16)) (V (Proc.devRef .tc main_arg17))) (V (Proc.devRef .tc main_arg6)) (V (Proc.devRef .tc main_arg7)) (V (Proc.devRef .tc main_arg18)) (V (Proc.devRef .tc main_arg19)) (V (Proc.devRef .tc main_arg20)) (V (Proc.devRef .tc main_arg21))) (V (Proc.devRef .tc main_arg8)))) := by
  rw [L_v141 V, D128 V, D3 V, D6 V, D29 V, K8 V]; exact (agg1_eq _ _).symm

/-- Width 1: the bias added. -/
theorem D144 (V : Valuation τ sig (Elt F)) :
    after ops V (Proc.devRef .tc main_v144) = (biased1 (F := F) (Spec.agg1 (F := F) (V (Proc.devRef .tc main_arg1)) (Spec.lin1 (F := F) (Spec.layer128 (F := F) (V (Proc.devRef .tc main_arg1)) (Spec.layer64 (F := F) (V (Proc.devRef .tc main_arg1)) (Spec.layer32 (F := F) (V (Proc.devRef .tc main_arg1)) (V (Proc.devRef .tc main_arg0)) (V (Proc.devRef .tc main_arg2)) (V (Proc.devRef .tc main_arg3)) (V (Proc.devRef .tc main_arg10)) (V (Proc.devRef .tc main_arg11)) (V (Proc.devRef .tc main_arg12)) (V (Proc.devRef .tc main_arg13))) (V (Proc.devRef .tc main_arg4)) (V (Proc.devRef .tc main_arg5)) (V (Proc.devRef .tc main_arg14)) (V (Proc.devRef .tc main_arg15)) (V (Proc.devRef .tc main_arg16)) (V (Proc.devRef .tc main_arg17))) (V (Proc.devRef .tc main_arg6)) (V (Proc.devRef .tc main_arg7)) (V (Proc.devRef .tc main_arg18)) (V (Proc.devRef .tc main_arg19)) (V (Proc.devRef .tc main_arg20)) (V (Proc.devRef .tc main_arg21))) (V (Proc.devRef .tc main_arg8)))) (V (Proc.devRef .tc main_arg9))) := by
  rw [L_v144 V, D141 V, K9 V]

/-- Width 1: the unit. -/
theorem D145 (V : Valuation τ sig (Elt F)) :
    after ops V (Proc.devRef .tc main_v145) = (Spec.elu1 (F := F) (biased1 (F := F) (Spec.agg1 (F := F) (V (Proc.devRef .tc main_arg1)) (Spec.lin1 (F := F) (Spec.layer128 (F := F) (V (Proc.devRef .tc main_arg1)) (Spec.layer64 (F := F) (V (Proc.devRef .tc main_arg1)) (Spec.layer32 (F := F) (V (Proc.devRef .tc main_arg1)) (V (Proc.devRef .tc main_arg0)) (V (Proc.devRef .tc main_arg2)) (V (Proc.devRef .tc main_arg3)) (V (Proc.devRef .tc main_arg10)) (V (Proc.devRef .tc main_arg11)) (V (Proc.devRef .tc main_arg12)) (V (Proc.devRef .tc main_arg13))) (V (Proc.devRef .tc main_arg4)) (V (Proc.devRef .tc main_arg5)) (V (Proc.devRef .tc main_arg14)) (V (Proc.devRef .tc main_arg15)) (V (Proc.devRef .tc main_arg16)) (V (Proc.devRef .tc main_arg17))) (V (Proc.devRef .tc main_arg6)) (V (Proc.devRef .tc main_arg7)) (V (Proc.devRef .tc main_arg18)) (V (Proc.devRef .tc main_arg19)) (V (Proc.devRef .tc main_arg20)) (V (Proc.devRef .tc main_arg21))) (V (Proc.devRef .tc main_arg8)))) (V (Proc.devRef .tc main_arg9)))) := by
  rw [L_v145 V, D144 V]

/-- The result buffer ends holding the specification's function of the argument arrays. -/
theorem final_eq (V : Valuation τ sig (Elt F)) :
    after ops V (Proc.devRef .tc main_v151) = Spec.G (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  rw [L_v151 V, D145 V]; exact (out_eq _ _ _ _).symm

/-! ## The value at the exact instance -/

/-- Every weakly fair execution of the reference program at the exact instance terminates without fault, with the
    result at the specification's function of the launch's argument arrays and the arguments unchanged. -/
theorem value (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v151)
          = Cert.Spec.G (F := Ideal) (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4))
              (m' ((c.tc : Thread Cert.ReferenceIdeal.nD Cert.ReferenceIdeal.τ).loc Cert.ReferenceIdeal.main_arg5))
              (m' ((c.tc : Thread Cert.ReferenceIdeal.nD Cert.ReferenceIdeal.τ).loc Cert.ReferenceIdeal.main_arg6))
              (m' ((c.tc : Thread Cert.ReferenceIdeal.nD Cert.ReferenceIdeal.τ).loc Cert.ReferenceIdeal.main_arg7))
              (m' ((c.tc : Thread Cert.ReferenceIdeal.nD Cert.ReferenceIdeal.τ).loc Cert.ReferenceIdeal.main_arg8))
              (m' ((c.tc : Thread Cert.ReferenceIdeal.nD Cert.ReferenceIdeal.τ).loc Cert.ReferenceIdeal.main_arg9))
              (m' ((c.tc : Thread Cert.ReferenceIdeal.nD Cert.ReferenceIdeal.τ).loc Cert.ReferenceIdeal.main_arg10))
              (m' ((c.tc : Thread Cert.ReferenceIdeal.nD Cert.ReferenceIdeal.τ).loc Cert.ReferenceIdeal.main_arg11))
              (m' ((c.tc : Thread Cert.ReferenceIdeal.nD Cert.ReferenceIdeal.τ).loc Cert.ReferenceIdeal.main_arg12))
              (m' ((c.tc : Thread Cert.ReferenceIdeal.nD Cert.ReferenceIdeal.τ).loc Cert.ReferenceIdeal.main_arg13))
              (m' ((c.tc : Thread Cert.ReferenceIdeal.nD Cert.ReferenceIdeal.τ).loc Cert.ReferenceIdeal.main_arg14))
              (m' ((c.tc : Thread Cert.ReferenceIdeal.nD Cert.ReferenceIdeal.τ).loc Cert.ReferenceIdeal.main_arg15))
              (m' ((c.tc : Thread Cert.ReferenceIdeal.nD Cert.ReferenceIdeal.τ).loc Cert.ReferenceIdeal.main_arg16))
              (m' ((c.tc : Thread Cert.ReferenceIdeal.nD Cert.ReferenceIdeal.τ).loc Cert.ReferenceIdeal.main_arg17))
              (m' ((c.tc : Thread Cert.ReferenceIdeal.nD Cert.ReferenceIdeal.τ).loc Cert.ReferenceIdeal.main_arg18))
              (m' ((c.tc : Thread Cert.ReferenceIdeal.nD Cert.ReferenceIdeal.τ).loc Cert.ReferenceIdeal.main_arg19))
              (m' ((c.tc : Thread Cert.ReferenceIdeal.nD Cert.ReferenceIdeal.τ).loc Cert.ReferenceIdeal.main_arg20))
              (m' ((c.tc : Thread Cert.ReferenceIdeal.nD Cert.ReferenceIdeal.τ).loc Cert.ReferenceIdeal.main_arg21))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
        ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
        ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
        ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
        ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
        ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
        ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)) :=
  (θ_run (Cert.ReferenceIdeal.defs (F := Ideal)) _ _).mono
    (fun _ h c => ⟨(h c main_v151).trans (final_eq (F := Ideal) (launchContents m' c)),
      (h c main_arg0).trans (K0 (F := Ideal) (launchContents m' c)),
      (h c main_arg1).trans (K1 (F := Ideal) (launchContents m' c)),
      (h c main_arg2).trans (K2 (F := Ideal) (launchContents m' c)),
      (h c main_arg3).trans (K3 (F := Ideal) (launchContents m' c)),
      (h c main_arg4).trans (K4 (F := Ideal) (launchContents m' c)),
      (h c main_arg5).trans (K5 (F := Ideal) (launchContents m' c)),
      (h c main_arg6).trans (K6 (F := Ideal) (launchContents m' c)),
      (h c main_arg7).trans (K7 (F := Ideal) (launchContents m' c)),
      (h c main_arg8).trans (K8 (F := Ideal) (launchContents m' c)),
      (h c main_arg9).trans (K9 (F := Ideal) (launchContents m' c)),
      (h c main_arg10).trans (K10 (F := Ideal) (launchContents m' c)),
      (h c main_arg11).trans (K11 (F := Ideal) (launchContents m' c)),
      (h c main_arg12).trans (K12 (F := Ideal) (launchContents m' c)),
      (h c main_arg13).trans (K13 (F := Ideal) (launchContents m' c)),
      (h c main_arg14).trans (K14 (F := Ideal) (launchContents m' c)),
      (h c main_arg15).trans (K15 (F := Ideal) (launchContents m' c)),
      (h c main_arg16).trans (K16 (F := Ideal) (launchContents m' c)),
      (h c main_arg17).trans (K17 (F := Ideal) (launchContents m' c)),
      (h c main_arg18).trans (K18 (F := Ideal) (launchContents m' c)),
      (h c main_arg19).trans (K19 (F := Ideal) (launchContents m' c)),
      (h c main_arg20).trans (K20 (F := Ideal) (launchContents m' c)),
      (h c main_arg21).trans (K21 (F := Ideal) (launchContents m' c))⟩)
    (run (F := Ideal) m' ρ')

end Cert.RefRun

end
-- ==== Proof.lean ====
/-
  The certificate of a four-layer graph convolution network over 100000 nodes and 1700000 edge slots (1600000 given
  edges and a self loop per node), computed by a program whose matrix products and whose bias / batch-normalisation /
  unit stages are tiled kernels over blocks of 10000 nodes, against the same network written in host operations.

  Both programs gather, scale and scatter-add over the slots with the same host operations, so the slot words, the
  slot weights and the aggregation are carried as functions of the argument arrays that are never opened.  What is
  compared index by index is: a block of a matrix product against the rows of the whole product (the sum over the
  contracted axis is the same sum; the narrowing of the factors to a shorter float format is the identity on
  the extended reals), and the kernels' exponential unit  y ↦ (y > 0 ? y : e^y − 1)  against the host's
  y ↦ (y > 0 ? y : 1 · (e^z − 1)) with z = (y > 0 ? 0 : y), which agree at every extended real.  No step needs
  the inputs to be finite.
-/
import proofs.«122410_j40535901339683_1_alg».proof.Defs
import proofs.«122410_j40535901339683_1_alg».proof.Proof.Gen.Kernel
import proofs.«122410_j40535901339683_1_alg».proof.Proof.Gen.Kernel.Frame
import proofs.«122410_j40535901339683_1_alg».proof.Proof.Gen.KernelIdeal
import proofs.«122410_j40535901339683_1_alg».proof.Proof.Gen.KernelIdeal.Frame
import proofs.«122410_j40535901339683_1_alg».proof.Proof.Gen.ReferenceIdeal
import proofs.«122410_j40535901339683_1_alg».proof.Proof.Gen.Pre_finite_inputs
import proofs.«122410_j40535901339683_1_alg».proof.Proof.Spec
import proofs.«122410_j40535901339683_1_alg».proof.Proof.KRun
import proofs.«122410_j40535901339683_1_alg».proof.Proof.KChain
import proofs.«122410_j40535901339683_1_alg».proof.Proof.RefValue

noncomputable section

namespace Cert.Proof

open Idealize.ShloMosaic Idealize.SL.Sem

/-- The kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.RefRun.value m ρ)

/-- Both idealized programs end with the network's output as one function of the argument arrays. -/
theorem algebraic : Cert.algebraic_KernelIdeal_ReferenceIdeal := by
  intro m ρ m' ρ' _ hagree
  refine ⟨fun c => Cert.Spec.G (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21)),
    (θ_run Cert.KernelIdeal.defs _ _).mono (fun _ h c => ⟨(h c).1.trans (Cert.KernelIdeal.KFold.w15_out m ρ c), (h c).2⟩)
      (Cert.KernelIdeal.KRun.run (F := Ideal) m ρ), ?_⟩
  refine (θ_run Cert.ReferenceIdeal.defs _ _).mono (fun _ h c => ⟨(h c).1.trans ?_, (h c).2⟩) (Cert.RefRun.value m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
